-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S8x128 : Shape := ⟨2, ![8, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S8x128 .f32) : IVec S_ 1 :=
  let main_v0 : FVec F S8x128 .f32 := Host.absf main_arg1
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 7#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S8x128 : Shape := ⟨2, ![8, 128]⟩
abbrev S1x8x1x128 : Shape := ⟨4, ![1, 8, 1, 128]⟩
abbrev S128x8x1x128 : Shape := ⟨4, ![128, 8, 1, 128]⟩
abbrev S1024x128 : Shape := ⟨2, ![1024, 128]⟩
abbrev S_ : Shape := ⟨0, ![]⟩
abbrev S16384x128 : Shape := ⟨2, ![16384, 128]⟩
abbrev S512x128 : Shape := ⟨2, ![512, 128]⟩
abbrev S512 : Shape := ⟨1, ![512]⟩
abbrev S8 : Shape := ⟨1, ![8]⟩
abbrev S32x128 : Shape := ⟨2, ![32, 128]⟩
abbrev S64x128 : Shape := ⟨2, ![64, 128]⟩
abbrev S64 : Shape := ⟨1, ![64]⟩
abbrev S1 : Shape := ⟨1, ![1]⟩

abbrev nBuf : Table → Nat
  | .hbm => 73
  | .shared => 1
  | .local .scVector .vmem => 2
  | _ => 0

abbrev bufTy : (tb : Table) → Fin (nBuf tb) → BufTy
  | .hbm, ⟨0, _⟩ => ⟨S16384, .i32⟩
  | .hbm, ⟨1, _⟩ => ⟨S8x128, .f32⟩
  | .hbm, ⟨2, _⟩ => ⟨S1x8x1x128, .f32⟩
  | .hbm, ⟨3, _⟩ => ⟨S128x8x1x128, .f32⟩
  | .hbm, ⟨4, _⟩ => ⟨S1024x128, .f32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S16384, .i32⟩
  | .hbm, ⟨33, _⟩ => ⟨S16384, .i32⟩
  | .hbm, ⟨34, _⟩ => ⟨S_, .i32⟩
  | .hbm, ⟨35, _⟩ => ⟨S16384, .i32⟩
  | .hbm, ⟨36, _⟩ => ⟨S16384, .i1⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S_, .i32⟩
  | .hbm, ⟨54, _⟩ => ⟨S16384, .i32⟩
  | .hbm, ⟨55, _⟩ => ⟨S16384, .i1⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S_, .i1⟩
  | .hbm, ⟨61, _⟩ => ⟨S16384, .i1⟩
  | .hbm, ⟨62, _⟩ => ⟨S16384, .i1⟩
  | .hbm, ⟨63, _⟩ => ⟨S16384, .i1⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S16384, .i32⟩
  | .hbm, ⟨68, _⟩ => ⟨S_, .i32⟩
  | .hbm, ⟨69, _⟩ => ⟨S16384, .i32⟩
  | .hbm, ⟨70, _⟩ => ⟨S16384, .i32⟩
  | .hbm, ⟨71, _⟩ => ⟨S16384, .i32⟩
  | .hbm, ⟨72, _⟩ => ⟨S16384x128, .f32⟩
  | .shared, ⟨0, _⟩ => ⟨S512x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 5 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v4 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_c : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_0 : Ref sig .tc := ⟨.hbm, 38, rfl⟩
abbrev main_call1_v12 : Ref sig .tc := ⟨.hbm, 39, rfl⟩
abbrev main_call1_v13 : Ref sig .tc := ⟨.hbm, 40, rfl⟩
abbrev main_v5 : Ref sig .tc := ⟨.hbm, 41, rfl⟩
abbrev main_c_1 : Ref sig .tc := ⟨.hbm, 42, rfl⟩
abbrev main_v6 : Ref sig .tc := ⟨.hbm, 43, rfl⟩
abbrev main_v7 : Ref sig .tc := ⟨.hbm, 44, rfl⟩
abbrev main_c_2 : Ref sig .tc := ⟨.hbm, 45, rfl⟩
abbrev main_call2_v0 : Ref sig .tc := ⟨.hbm, 46, rfl⟩
abbrev main_call2_c : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_c_1 : Ref sig .tc := ⟨.hbm, 53, rfl⟩
abbrev main_call2_v5 : Ref sig .tc := ⟨.hbm, 54, rfl⟩
abbrev main_call2_v6 : Ref sig .tc := ⟨.hbm, 55, rfl⟩
abbrev main_call2_c_2 : Ref sig .tc := ⟨.hbm, 56, rfl⟩
abbrev main_call2_v7 : Ref sig .tc := ⟨.hbm, 57, rfl⟩
abbrev main_call2_v8 : Ref sig .tc := ⟨.hbm, 58, rfl⟩
abbrev main_call2_c_3 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_v8 : Ref sig .tc := ⟨.hbm, 66, rfl⟩
abbrev main_v9 : Ref sig .tc := ⟨.hbm, 67, rfl⟩
abbrev main_c_3 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev main_v13 : Ref sig .tc := ⟨.hbm, 72, rfl⟩
abbrev main_v12_scv : Ref sig .scVector := ⟨.hbm, 71, rfl⟩
abbrev main_v2_scv : Ref sig .scVector := ⟨.hbm, 4, rfl⟩
abbrev main_v13_scv : Ref sig .scVector := ⟨.hbm, 72, rfl⟩
abbrev cc0_scratch0 : Ref sig .scVector := ⟨.shared, 0, rfl⟩
abbrev cc0_scratch1 : Ref sig .scVector := ⟨.vmem, 0, rfl⟩
abbrev cc0_scratch2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c32_i32_0 : BitVec 32 := 32#32
  let v6 : BitVec 32 := Scalar.muli arg1 c32_i32_0
  let c0_i32 : BitVec 32 := 0#32
  ![v6.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v5 : BitVec 32 := Scalar.muli v1 c32_i32
  let c0_i32_1 : BitVec 32 := 0#32
  ![v5.toNat, 0]
def k0_off4 (i : grid0.Coords) (c0_i32_47 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v60 : BitVec 32 := Scalar.addi v2 c0_i32_47
  let c0_i32_50 : BitVec 32 := 0#32
  ![v60.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S8x128_S1x8x1x128 : S8x128.ShapeCasts S1x8x1x128
  bcast_S1x8x1x128_S128x8x1x128_0_1_2_3 : S1x8x1x128.BroadcastsInDim S128x8x1x128 (![0, 1, 2, 3] : Fin 4 → Fin S128x8x1x128.rank)
  shapeCasts_S128x8x1x128_S1024x128 : S128x8x1x128.ShapeCasts S1024x128
  bcast_S_S16384 : S_.BroadcastsInDim S16384 (![] : Fin 0 → Fin S16384.rank)
  inb_S512x128_S64x128_0_0 : ∀ a, (![0, 0] : Fin 2 → Nat) a + S64x128.size a ≤ S512x128.size a
  inb_S512_S64_0 : ∀ a, (![0] : Fin 1 → Nat) a + S64.size a ≤ S512.size a
  inb_S512x128_S512x128_0_0 : ∀ a, (![0, 0] : Fin 2 → Nat) a + S512x128.size a ≤ S512x128.size a
  inb_S8_S1_0 : ∀ a, (![0] : Fin 1 → Nat) a + S1.size a ≤ S8.size a
  squeezes_S1_S_ : S1.Squeezes S_
  gathers_S512x128_S64x128 : S512x128.Gathers 0 S64x128
  inb_S512x128_S64x128_64_0 : ∀ a, (![64, 0] : Fin 2 → Nat) a + S64x128.size a ≤ S512x128.size a
  inb_S512_S64_64 : ∀ a, (![64] : Fin 1 → Nat) a + S64.size a ≤ S512.size a
  inb_S8_S1_1 : ∀ a, (![1] : Fin 1 → Nat) a + S1.size a ≤ S8.size a
  inb_S512x128_S64x128_128_0 : ∀ a, (![128, 0] : Fin 2 → Nat) a + S64x128.size a ≤ S512x128.size a
  inb_S512_S64_128 : ∀ a, (![128] : Fin 1 → Nat) a + S64.size a ≤ S512.size a
  inb_S8_S1_2 : ∀ a, (![2] : Fin 1 → Nat) a + S1.size a ≤ S8.size a
  inb_S512x128_S64x128_192_0 : ∀ a, (![192, 0] : Fin 2 → Nat) a + S64x128.size a ≤ S512x128.size a
  inb_S512_S64_192 : ∀ a, (![192] : Fin 1 → Nat) a + S64.size a ≤ S512.size a
  inb_S8_S1_3 : ∀ a, (![3] : Fin 1 → Nat) a + S1.size a ≤ S8.size a
  inb_S512x128_S64x128_256_0 : ∀ a, (![256, 0] : Fin 2 → Nat) a + S64x128.size a ≤ S512x128.size a
  inb_S512_S64_256 : ∀ a, (![256] : Fin 1 → Nat) a + S64.size a ≤ S512.size a
  inb_S8_S1_4 : ∀ a, (![4] : Fin 1 → Nat) a + S1.size a ≤ S8.size a
  inb_S512x128_S64x128_320_0 : ∀ a, (![320, 0] : Fin 2 → Nat) a + S64x128.size a ≤ S512x128.size a
  inb_S512_S64_320 : ∀ a, (![320] : Fin 1 → Nat) a + S64.size a ≤ S512.size a
  inb_S8_S1_5 : ∀ a, (![5] : Fin 1 → Nat) a + S1.size a ≤ S8.size a
  inb_S512x128_S64x128_384_0 : ∀ a, (![384, 0] : Fin 2 → Nat) a + S64x128.size a ≤ S512x128.size a
  inb_S512_S64_384 : ∀ a, (![384] : Fin 1 → Nat) a + S64.size a ≤ S512.size a
  inb_S8_S1_6 : ∀ a, (![6] : Fin 1 → Nat) a + S1.size a ≤ S8.size a
  inb_S512x128_S64x128_448_0 : ∀ a, (![448, 0] : Fin 2 → Nat) a + S64x128.size a ≤ S512x128.size a
  inb_S512_S64_448 : ∀ a, (![448] : Fin 1 → Nat) a + S64.size a ≤ S512.size a
  inb_S8_S1_7 : ∀ a, (![7] : Fin 1 → Nat) a + S1.size a ≤ S8.size a
  hcc0_scratch3 : 0 + S_.numel ≤ 11
  hcc0_scratch4 : 1 + S_.numel ≤ 11
  hcc0_scratch5 : 2 + S8.numel ≤ 11
  hcc0_scratch6 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S32x128.size a ≤ S512x128.size a
  k0_off3_inb : ∀ i : grid0.Coords, ∀ a, (k0_off3 i) a + S32x128.size a ≤ S1024x128.size a
  k0_off4_inb : ∀ i : grid0.Coords, ∀ (r : Fin 8), ∀ a, (k0_off4 i (BitVec.ofNat 32 (64 * r.val))) a + S64x128.size a ≤ S16384x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S8 := SemArray.consecutive 2 S8 hcc0_scratch5
abbrev cc0_scratch6 : DmaSems sig S_ := SemArray.consecutive 10 S_ hcc0_scratch6

class Facts : Prop extends Facts₀ where

variable [Facts]
-- ==== ReferenceIdeal.lean ====
abbrev S16384 : Shape := ⟨1, ![16384]⟩
abbrev S8x128 : Shape := ⟨2, ![8, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S8x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S8x128_S16384x1_S16384x128_1_0_n_n_0_1_1128_wf : GatherDims.WF S8x128 S16384x1 S16384x128 [1] [0] [] [0] [] 1 ![1, 128]

variable [Facts₀]

def gather_S8x128_S16384x1_S16384x128_1_0_n_n_0_1_1128 : GatherDims S8x128 S16384x1 S16384x128 where
  offsetDims := [1]
  collapsedSliceDims := [0]
  operandBatchingDims := []
  startIndicesBatchingDims := []
  startIndexMap := [0]
  indexVectorDim := 1
  sliceSizes := ![1, 128]
  wf := gather_S8x128_S16384x1_S16384x128_1_0_n_n_0_1_1128_wf

class Facts : Prop extends Facts₀ where

variable [Facts]
-- ==== Proof.Spec.lean ====
/-
  The function both programs compute: an embedding lookup. Position `p` of the result is row `names p` of the
  eight-row table `emb`. The row number is read modulo eight so that the function is total; where every entry of
  `names` lies in `0 … 7` (the claim's precondition) the reduction changes nothing.
-/
import Idealize.ShloMosaic.Lib.ValueIdx

noncomputable section

namespace Cert.Lookup

open Idealize.ShloMosaic Idealize.ShloMosaic.ValueIdx

/-- The row of the table a position selects: the entry of `names` at `p`, as a number below eight. -/
def rowOf (names : IVec ⟨1, ![16384]⟩ 32) (p : Fin 16384) : Fin 8 :=
  ⟨(names (ix1 p)).toNat % 8, Nat.mod_lt _ (by decide)⟩

/-- The lookup: entry `(p, q)` of the result is entry `(names p, q)` of the table. -/
def rows {F : FTy → Type} (names : IVec ⟨1, ![16384]⟩ 32) (emb : FVec F ⟨2, ![8, 128]⟩ .f32) :
    FVec F ⟨2, ![16384, 128]⟩ .f32 :=
  fun i => emb (ix2 (rowOf names (i 0)) (i 1))

theorem rows_apply {F : FTy → Type} (names : IVec ⟨1, ![16384]⟩ 32) (emb : FVec F ⟨2, ![8, 128]⟩ .f32)
    (p : Fin 16384) (q : Fin 128) : rows names emb (ix2 p q) = emb (ix2 (rowOf names p) q) := rfl

/-- Where the entry is below eight the row is the entry itself. -/
theorem rowOf_val (names : IVec ⟨1, ![16384]⟩ 32) (p : Fin 16384) (h : (names (ix1 p)).toNat < 8) :
    (rowOf names p).val = (names (ix1 p)).toNat := Nat.mod_eq_of_lt h

/-- The index list the host hands the kernel: position `p`'s entry of `names` moved into the eight-row group
    `4 (p / 1024) + p mod 4` of the sixty-four groups of a shared table. -/
def idxList (names : IVec ⟨1, ![16384]⟩ 32) : IVec ⟨1, ![16384]⟩ 32 :=
  fun i => names i + BitVec.ofNat 32 ((((i 0).val / 1024) * 4 + (i 0).val % 4) * 8)

/-- The table repeated 128 times: row `r` is row `r mod 8` of `emb`. -/
def repTable {F : FTy → Type} (emb : FVec F ⟨2, ![8, 128]⟩ .f32) : FVec F ⟨2, ![1024, 128]⟩ .f32 :=
  fun i => emb (ix2 (⟨(i 0).val % 8, Nat.mod_lt _ (by decide)⟩ : Fin 8) (i 1))
/-- The table repeated 64 times (a SparseCore's shared table, once every task has written its rows). -/
def shTable {F : FTy → Type} (emb : FVec F ⟨2, ![8, 128]⟩ .f32) : FVec F ⟨2, ![512, 128]⟩ .f32 :=
  fun i => emb (ix2 (⟨(i 0).val % 8, Nat.mod_lt _ (by decide)⟩ : Fin 8) (i 1))

/-- Under the precondition an entry of the index list names a row of the shared table: it is below 512, -/
theorem idxList_lt (names : IVec ⟨1, ![16384]⟩ 32) (i : (⟨1, ![16384]⟩ : Shape).Idx) (h : (names i).toNat < 8) :
    (idxList names i).toNat < 512 := by
  have hp : (i 0).val < 16384 := (i 0).isLt
  unfold idxList
  rw [BitVec.toNat_add, BitVec.toNat_ofNat]
  omega
/-- in the task's own thirty-two rows (task `p / 512` of SparseCore `(p / 512) mod 2` is vector subcore `p / 1024`), -/
theorem idxList_div (names : IVec ⟨1, ![16384]⟩ 32) (i : (⟨1, ![16384]⟩ : Shape).Idx) (h : (names i).toNat < 8) :
    (idxList names i).toNat / 32 = (i 0).val / 1024 := by
  have hp : (i 0).val < 16384 := (i 0).isLt
  unfold idxList
  rw [BitVec.toNat_add, BitVec.toNat_ofNat]
  omega
/-- and the row it names holds row `names p` of the table. -/
theorem idxList_mod (names : IVec ⟨1, ![16384]⟩ 32) (i : (⟨1, ![16384]⟩ : Shape).Idx) (h : (names i).toNat < 8) :
    (idxList names i).toNat % 8 = (names i).toNat := by
  have hp : (i 0).val < 16384 := (i 0).isLt
  unfold idxList
  rw [BitVec.toNat_add, BitVec.toNat_ofNat]
  omega

end Cert.Lookup

end
-- ==== Proof.IdealProtocol.lean ====
/-
  The lookup kernel on the SparseCores: who holds what, and what the barrier carries.

  Thirty-two tasks run at once, one per vector subcore `(c, s)` of the two SparseCores; task `w = 2 s + c` serves the
  512 positions `512 w … 512 w + 511`. Each task copies its 512 indices into its own index scratch and 32 rows of the
  replicated table (rows `32 w … 32 w + 31`) into rows `32 s … 32 s + 31` of its SparseCore's shared table, waits for
  both, meets the fifteen other tasks of its SparseCore at the subcore barrier, gathers its 512 rows out of the shared
  table in eight lists of 64, and copies each gathered block to its place in the result.

  A gather reads the WHOLE shared table, of which a task wrote one sixteenth. So the barrier carries data: arriving,
  task `s` splits what it holds of its own rows into sixteen read shares and hands share `j` to task `j`'s round;
  leaving, task `j` has collected share `j` of every task's rows, that is share `j` of the whole table, at the
  contents every task wrote: row `r` of the shared table is row `r mod 8` of the table `emb`.
-/
import proofs.«207026_g3393024164394_cont_8to1_b_908_22_alg».proof.Defs
import proofs.«207026_g3393024164394_cont_8to1_b_908_22_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207026_g3393024164394_cont_8to1_b_908_22_alg».proof.Proof.Gen.KernelIdeal
import proofs.«207026_g3393024164394_cont_8to1_b_908_22_alg».proof.Proof.Gen.KernelIdeal.Skeleton

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and the slices -/

variable (m : (ℓ : Loc nD τ sig) → Buf (Elt F) ℓ) (ρ : Dev nD → PrngReg)

abbrev namesLoc (d : Dev nD) : Loc nD τ sig := (SparseCore.T d).loc main_arg0
abbrev embLoc (d : Dev nD) : Loc nD τ sig := (SparseCore.T d).loc main_arg1
abbrev idxLoc (d : Dev nD) : Loc nD τ sig := (SparseCore.T d).loc main_v12
abbrev repLoc (d : Dev nD) : Loc nD τ sig := (SparseCore.T d).loc main_v2
abbrev outLoc (d : Dev nD) : Loc nD τ sig := (SparseCore.T d).loc main_v13
/-- SparseCore `c`'s shared table, as every tile of it addresses it. -/
abbrev shRef (c : Fin τ.nSC) : DevRef τ sig := ⟨.shared, ⟨0, by decide⟩, c⟩
abbrev shLoc (d : Dev nD) (c : Fin τ.nSC) : Loc nD τ sig := (d, shRef c)

abbrev iV : Memref sig .scVector .hbm S16384 .i32 := Memref.whole main_v12_scv
abbrev tV : Memref sig .scVector .hbm S1024x128 .f32 := Memref.whole main_v2_scv
abbrev oV : Memref sig .scVector .hbm S16384x128 .f32 := Memref.whole main_v13_scv
abbrev shV : Memref sig .scVector .shared S512x128 .f32 := Memref.whole cc0_scratch0
abbrev ixV : Memref sig .scVector .vmem S512 .i32 := Memref.whole cc0_scratch1
abbrev rwV : Memref sig .scVector .vmem S512x128 .f32 := Memref.whole cc0_scratch2

theorem hdivI : 32 ∣ S16384.size 0 := ⟨512, rfl⟩
theorem hdivT : 32 ∣ S1024x128.size 0 := ⟨32, rfl⟩
theorem hdivO : 256 ∣ S16384x128.size 0 := ⟨64, rfl⟩
theorem hdivS : 16 ∣ S512x128.size 0 := ⟨32, rfl⟩
/-- Task `w`'s 512 positions of the index list, its 32 rows of the replicated table, its 512 rows of the result; and
    task `s`'s 32 rows of its SparseCore's shared table. -/
abbrev iPart (w : Fin 32) : Rect S16384 := Rect.part (s := S16384) (a₀ := 0) hdivI w
abbrev tPart (w : Fin 32) : Rect S1024x128 := Rect.part (s := S1024x128) (a₀ := 0) hdivT w
abbrev oPart (k : Fin 256) : Rect S16384x128 := Rect.part (s := S16384x128) (a₀ := 0) hdivO k
abbrev sPart (s : Fin 16) : Rect S512x128 := Rect.part (s := S512x128) (a₀ := 0) hdivS s
abbrev iSet (w : Fin 32) : Finset S16384.Idx := ((iV).view.slice (iPart w)).set
abbrev tSet (w : Fin 32) : Finset S1024x128.Idx := ((tV).view.slice (tPart w)).set
abbrev oSet (k : Fin 256) : Finset S16384x128.Idx := ((oV).view.slice (oPart k)).set
abbrev sSet (s : Fin 16) : Finset S512x128.Idx := ((shV).view.slice (sPart s)).set

/-- The task of vector subcore `s` of SparseCore `c`: number `2 s + c`. -/
def taskOf (c : Fin 2) (s : Fin 16) : Fin 32 := ⟨s.val * 2 + c.val, by omega⟩
/-- The `r`-th block of 64 rows of task `w`'s part of the result: block `8 w + r` of the 256. -/
def chunkOf (w : Fin 32) (r : Fin 8) : Fin 256 := ⟨w.val * 8 + r.val, by omega⟩

/-! ## What the arrays hold -/

abbrev idxC (d : Dev nD) : Buf (Elt F) (idxLoc d) := Cert.Lookup.idxList (m (namesLoc d))
abbrev repC (d : Dev nD) : Buf (Elt F) (repLoc d) := Cert.Lookup.repTable (F := F) (m (embLoc d))
abbrev shC (d : Dev nD) (c : Fin τ.nSC) : Buf (Elt F) (shLoc d c) := Cert.Lookup.shTable (F := F) (m (embLoc d))
abbrev outC (d : Dev nD) : Buf (Elt F) (outLoc d) := Cert.Lookup.rows (F := F) (m (namesLoc d)) (m (embLoc d))

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Read share `j` of task `s`'s rows of SparseCore `c`'s shared table, at the replicated contents. -/
abbrev shTok (d : Dev nD) (c : Fin τ.nSC) (s j : Fin 16) : sProp 𝕄 :=
  shLoc d c ↦[sSet s]{Transfers.shareTok fullShare 16 j} shC m d c

/-- What task `n`'s duty in tile `j`'s round hands over: share `j` of task `n`'s rows. -/
def bPay (g : GSem nD τ sig) (n : ℕ) : sProp 𝕄 :=
  match g with
  | ((d, .scVector c j), _) => if h : n < 16 then shTok m d c ⟨n, h⟩ (Fin.cast nSub_eq j) else iprop(emp)
  | _ => iprop(emp)

/-- The barrier cells' schedule: one round on each, of one unit duty per tile of the SparseCore (named by its number),
    each handing over its share of its rows. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore,
    at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its
    own position at the origin of round 0, its duty token in every tile's round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What task `w` takes of the three HBM arrays: its positions of the index list and its rows of the replicated table,
    to read; its eight blocks of the result, to write. -/
abbrev taskIn (d : Dev nD) (w : Fin 32) : sProp 𝕄 :=
  iprop((idxLoc d ↦[iSet w]{fullShare} idxC m d) ∗ (repLoc d ↦[tSet w]{fullShare} repC m d)
    ∗ bigSep Finset.univ fun r : Fin 8 => iprop(∃ f, outLoc d ↦[oSet (chunkOf w r)]{fullShare} f))
/-- What it brings back: the same, its blocks of the result now the rows the lookup selects. -/
abbrev taskOut (d : Dev nD) (w : Fin 32) : sProp 𝕄 :=
  iprop((idxLoc d ↦[iSet w]{fullShare} idxC m d) ∗ (repLoc d ↦[tSet w]{fullShare} repC m d)
    ∗ bigSep Finset.univ fun r : Fin 8 => outLoc d ↦[oSet (chunkOf w r)]{fullShare} outC m d)
/-- What task `s` brings back of its SparseCore's shared table: read share `s` of the whole, and what is left of its
    own rows after the sixteen shares it gave. -/
abbrev shBack (d : Dev nD) (c : Fin τ.nSC) (s : Fin 16) : sProp 𝕄 :=
  iprop((shLoc d c ↦{Transfers.shareTok fullShare 16 s} shC m d c) ∗ shLoc d c ↦[sSet s]{Transfers.shareDrop fullShare 16} shC m d c)

/-- The one call takes, for SparseCore `c`, its sixteen tasks' parts of the three arrays; each task its own and its rows
    of the shared table; each task's proof consumes its barrier kit; each tile owes its arrivals. -/
def P : (K (F := F)).Pay (nD := nD) (Val := Elt F) (Name := ℕ) (U := UU) where
  st := fun q d c => match q with | 0 => bigSep Finset.univ fun i : Fin 16 => taskIn m d (taskOf (Fin.cast nCore_zero c) i)
  dn := fun q d c => match q with | 0 => bigSep Finset.univ fun i : Fin 16 => taskOut m d (taskOf (Fin.cast nCore_zero c) i)
  go := fun q d c i => match q with
    | 0 => iprop(taskIn m d (taskOf (Fin.cast nCore_zero c) (Fin.cast nSub_zero i)) ∗ ∃ f, shLoc d (coreOf c) ↦[sSet (Fin.cast nSub_zero i)]{fullShare} f)
  td := fun q d c i => match q with
    | 0 => iprop(taskOut m d (taskOf (Fin.cast nCore_zero c) (Fin.cast nSub_zero i)) ∗ shBack m d (coreOf c) (Fin.cast nSub_zero i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin 16 => taskIn m d (taskOf (Fin.cast nCore_zero c) i)))
  dn q d c := match q with
    | 0 => (inferInstance : BI.Storable (upEmb : UEmb _ 𝕄) (bigSep Finset.univ fun i : Fin 16 => taskOut m d (taskOf (Fin.cast nCore_zero c) i)))
  go q d c i := match q with
    | 0 => (inferInstance : BI.Storable (upEmb : UEmb _ 𝕄)
      iprop(taskIn m d (taskOf (Fin.cast nCore_zero c) (Fin.cast nSub_zero i)) ∗ ∃ f, shLoc d (coreOf c) ↦[sSet (Fin.cast nSub_zero i)]{fullShare} f))
  td q d c i := match q with
    | 0 => (inferInstance : BI.Storable (upEmb : UEmb _ 𝕄)
      iprop(taskOut m d (taskOf (Fin.cast nCore_zero c) (Fin.cast nSub_zero i)) ∗ shBack m d (coreOf c) (Fin.cast nSub_zero i)))

omit [FloatOps F] in
theorem sSet_eq (s : Fin 16) : sSet s = (sPart s).set := by
  show ((View.whole (cc0_scratch0 : Ref sig .scVector)).slice (sPart s)).set = _
  rw [View.set_slice]; exact Finset.map_refl
omit [FloatOps F] in
theorem sSets_disjoint : ∀ i ∈ (Finset.univ : Finset (Fin 16)), ∀ j ∈ (Finset.univ : Finset (Fin 16)), i ≠ j → Disjoint (sSet i) (sSet j) :=
  fun i _ j _ h => by rw [sSet_eq, sSet_eq]; exact Rect.part_disjoint hdivS h
omit [FloatOps F] in
theorem sSets_cover : (Finset.univ : Finset (Fin 16)).biUnion sSet = Finset.univ :=
  (Finset.biUnion_congr rfl fun i _ => sSet_eq i).trans (Rect.biUnion_part hdivS)

omit [FloatOps F] in
/-- A SparseCore's shared table, at any share, is its sixteen tasks' rows. -/
theorem shPts_rows (d : Dev nD) (c : Fin τ.nSC) (q : PosShare TreeShare) (f : Buf (Elt F) (shLoc d c)) :
    (shLoc d c ↦{q} f : sProp 𝕄) = bigSep Finset.univ fun s : Fin 16 => shLoc d c ↦[sSet s]{q} f := by
  rw [← pointsTo_biUnion Finset.univ (ℓ := shLoc d c) sSet sSets_disjoint, sSets_cover]; try rfl

end Cert.Proof.KernelIdealSc

end
-- ==== Proof.IdealViews.lean ====
/-
  The pieces of the arrays one task of the lookup kernel works on, as its body slices them, and how they sit in the
  arrays the handshakes carry.
-/
import proofs.«207026_g3393024164394_cont_8to1_b_908_22_alg».proof.Proof.IdealProtocol

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The claim's precondition, as the task uses it: every entry of `names` is one of the table's eight rows. -/
def PreOK : Prop := ∀ (d : Dev nD) (i : S16384.Idx), (m (namesLoc d) i).toNat < 8

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
omit [FloatOps F] in
theorem bound_zero : grid0.bound 0 = 2 := rfl
abbrev jL (L : grid0.Coords) : Fin 16 := Fin.cast bound_one (L 1)
abbrev cL (L : grid0.Coords) : Fin 2 := Fin.cast bound_zero (L 0)
abbrev wL (L : grid0.Coords) : Fin 32 := taskOf (cL L) (jL L)

/-- The task's pieces of the arrays, as the body slices them. -/
abbrev iSlc (L : grid0.Coords) : Memref sig .scVector .hbm S512 .i32 := (iV).slice (Rect.unit (s := S16384) (k0_off1 L) S512.size (k0_off1_inb L)) (fun _ => rfl)
abbrev sSlc (L : grid0.Coords) : Memref sig .scVector .shared S32x128 .f32 := (shV).slice (Rect.unit (s := S512x128) (k0_off2 L) S32x128.size (k0_off2_inb L)) (fun _ => rfl)
abbrev tSlc (L : grid0.Coords) : Memref sig .scVector .hbm S32x128 .f32 := (tV).slice (Rect.unit (s := S1024x128) (k0_off3 L) S32x128.size (k0_off3_inb L)) (fun _ => rfl)
abbrev oSlc (L : grid0.Coords) (r : Fin 8) : Memref sig .scVector .hbm S64x128 .f32 :=
  (oV).slice (Rect.unit (s := S16384x128) (k0_off4 L (BitVec.ofNat 32 (64 * r.val))) S64x128.size (k0_off4_inb L r)) (fun _ => rfl)

omit [FloatOps F] in
theorem iRect_eq : Rect.unit (s := S16384) (k0_off1 L) S512.size (k0_off1_inb L) = iPart (wL L) := by
  unfold iPart Rect.part Rect.block
  congr 1 <;> funext a
  · rw [k0_off1_eq]
    match a with
    | 0 => simp [Shape.partIx, Shape.partSize, taskOf]; omega
  · match a with
    | 0 => simp [Shape.partSize]
omit [FloatOps F] in
theorem sRect_eq : Rect.unit (s := S512x128) (k0_off2 L) S32x128.size (k0_off2_inb L) = sPart (jL L) := by
  unfold sPart Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]
omit [FloatOps F] in
theorem tRect_eq : Rect.unit (s := S1024x128) (k0_off3 L) S32x128.size (k0_off3_inb L) = tPart (wL L) := by
  unfold tPart Rect.part Rect.block
  congr 1 <;> funext a
  · rw [k0_off3_eq]
    match a with
    | 0 => simp [Shape.partIx, Shape.partSize, taskOf]; omega
    | 1 => simp [Shape.partIx, Shape.partSize]
  · match a with
    | 0 => simp [Shape.partSize]
    | 1 => simp [Shape.partSize]
omit [FloatOps F] in
theorem oRect_eq (r : Fin 8) : Rect.unit (s := S16384x128) (k0_off4 L (BitVec.ofNat 32 (64 * r.val))) S64x128.size (k0_off4_inb L r) = oPart (chunkOf (wL L) r) := by
  unfold oPart Rect.part Rect.block
  congr 1 <;> funext a
  · rw [k0_off4_eq]
    match a with
    | 0 => simp [Shape.partIx, Shape.partSize, taskOf, chunkOf]; omega
    | 1 => simp [Shape.partIx, Shape.partSize]
  · match a with
    | 0 => simp [Shape.partSize]
    | 1 => simp [Shape.partSize]

omit [FloatOps F] in
theorem set_iSlc : (iSlc L).view.set = iSet (wL L) := by
  show ((iV).view.slice (Rect.unit (s := S16384) (k0_off1 L) S512.size (k0_off1_inb L))).set = ((iV).view.slice (iPart (wL L))).set
  rw [iRect_eq]
omit [FloatOps F] in
theorem set_sSlc : (sSlc L).view.set = sSet (jL L) := by
  show ((shV).view.slice (Rect.unit (s := S512x128) (k0_off2 L) S32x128.size (k0_off2_inb L))).set = ((shV).view.slice (sPart (jL L))).set
  rw [sRect_eq]
omit [FloatOps F] in
theorem set_tSlc : (tSlc L).view.set = tSet (wL L) := by
  show ((tV).view.slice (Rect.unit (s := S1024x128) (k0_off3 L) S32x128.size (k0_off3_inb L))).set = ((tV).view.slice (tPart (wL L))).set
  rw [tRect_eq]
omit [FloatOps F] in
theorem set_oSlc (r : Fin 8) : (oSlc L r).view.set = oSet (chunkOf (wL L) r) := by
  show ((oV).view.slice (Rect.unit (s := S16384x128) (k0_off4 L (BitVec.ofNat 32 (64 * r.val))) S64x128.size (k0_off4_inb L r))).set = ((oV).view.slice (oPart (chunkOf (wL L) r))).set
  rw [oRect_eq]

omit [FloatOps F] in
theorem pts_iSlc (f : Buf (Elt F) (idxLoc d)) :
    ((iSlc L).view.loc (V d (cV L) (jV L)) ↦[(iSlc L).view.set]{fullShare} f : sProp 𝕄) = idxLoc d ↦[iSet (wL L)]{fullShare} f := by
  rw [set_iSlc]
omit [FloatOps F] in
theorem pts_tSlc (f : Buf (Elt F) (repLoc d)) :
    ((tSlc L).view.loc (V d (cV L) (jV L)) ↦[(tSlc L).view.set]{fullShare} f : sProp 𝕄) = repLoc d ↦[tSet (wL L)]{fullShare} f := by
  rw [set_tSlc]
omit [FloatOps F] in
theorem pts_sSlc (q : PosShare TreeShare) (f : Buf (Elt F) (shLoc d (cV L))) :
    ((sSlc L).view.loc (V d (cV L) (jV L)) ↦[(sSlc L).view.set]{q} f : sProp 𝕄) = shLoc d (cV L) ↦[sSet (jL L)]{q} f := by
  rw [set_sSlc]; rfl
omit [FloatOps F] in
theorem pts_oSlc (r : Fin 8) (f : Buf (Elt F) (outLoc d)) :
    ((oSlc L r).view.loc (V d (cV L) (jV L)) ↦[(oSlc L r).view.set]{fullShare} f : sProp 𝕄) = outLoc d ↦[oSet (chunkOf (wL L) r)]{fullShare} f := by
  rw [set_oSlc]

abbrev cIcell (d : Dev nD) (c : Fin τ.nSC) (i : Fin τ.nSub) : GSem nD τ sig := (V d c i, .dma cc0_scratch3.sem)
abbrev cScell (d : Dev nD) (c : Fin τ.nSC) (i : Fin τ.nSub) : GSem nD τ sig := (V d c i, .dma cc0_scratch4.sem)
abbrev cWcell (d : Dev nD) (c : Fin τ.nSC) (i : Fin τ.nSub) : GSem nD τ sig := (V d c i, .dma cc0_scratch6.sem)
abbrev gSems0 : DmaSems sig S_ := (cc0_scratch5.slice (Rect.unit (s := S8) ![0] S1.size inb_S8_S1_0)).squeeze S_ squeezes_S1_S_
abbrev cGcell0 (d : Dev nD) (c : Fin τ.nSC) (i : Fin τ.nSub) : GSem nD τ sig := (V d c i, .dma gSems0.sem)
abbrev gSems1 : DmaSems sig S_ := (cc0_scratch5.slice (Rect.unit (s := S8) ![1] S1.size inb_S8_S1_1)).squeeze S_ squeezes_S1_S_
abbrev cGcell1 (d : Dev nD) (c : Fin τ.nSC) (i : Fin τ.nSub) : GSem nD τ sig := (V d c i, .dma gSems1.sem)
abbrev gSems2 : DmaSems sig S_ := (cc0_scratch5.slice (Rect.unit (s := S8) ![2] S1.size inb_S8_S1_2)).squeeze S_ squeezes_S1_S_
abbrev cGcell2 (d : Dev nD) (c : Fin τ.nSC) (i : Fin τ.nSub) : GSem nD τ sig := (V d c i, .dma gSems2.sem)
abbrev gSems3 : DmaSems sig S_ := (cc0_scratch5.slice (Rect.unit (s := S8) ![3] S1.size inb_S8_S1_3)).squeeze S_ squeezes_S1_S_
abbrev cGcell3 (d : Dev nD) (c : Fin τ.nSC) (i : Fin τ.nSub) : GSem nD τ sig := (V d c i, .dma gSems3.sem)
abbrev gSems4 : DmaSems sig S_ := (cc0_scratch5.slice (Rect.unit (s := S8) ![4] S1.size inb_S8_S1_4)).squeeze S_ squeezes_S1_S_
abbrev cGcell4 (d : Dev nD) (c : Fin τ.nSC) (i : Fin τ.nSub) : GSem nD τ sig := (V d c i, .dma gSems4.sem)
abbrev gSems5 : DmaSems sig S_ := (cc0_scratch5.slice (Rect.unit (s := S8) ![5] S1.size inb_S8_S1_5)).squeeze S_ squeezes_S1_S_
abbrev cGcell5 (d : Dev nD) (c : Fin τ.nSC) (i : Fin τ.nSub) : GSem nD τ sig := (V d c i, .dma gSems5.sem)
abbrev gSems6 : DmaSems sig S_ := (cc0_scratch5.slice (Rect.unit (s := S8) ![6] S1.size inb_S8_S1_6)).squeeze S_ squeezes_S1_S_
abbrev cGcell6 (d : Dev nD) (c : Fin τ.nSC) (i : Fin τ.nSub) : GSem nD τ sig := (V d c i, .dma gSems6.sem)
abbrev gSems7 : DmaSems sig S_ := (cc0_scratch5.slice (Rect.unit (s := S8) ![7] S1.size inb_S8_S1_7)).squeeze S_ squeezes_S1_S_
abbrev cGcell7 (d : Dev nD) (c : Fin τ.nSC) (i : Fin τ.nSub) : GSem nD τ sig := (V d c i, .dma gSems7.sem)

omit [FloatOps F] in
theorem ne_cell (d : Dev nD) (c : Fin τ.nSC) (i : Fin τ.nSub) (a b : SemLoc sig) (h : a ≠ b) : ((V d c i, a) : GSem nD τ sig) ≠ (V d c i, b) :=
  fun e => h (Prod.mk.inj e).2

omit [FloatOps F] in
/-- The task's eleven transfer semaphores are among the subcore's own: they, at zero, and the rest. -/
theorem ownSems0_V :
    (ownSems0 (V d (cV L) (jV L)) : sProp 𝕄)
      = iprop(semVal (cIcell d (cV L) (jV L)) 0 ∗ semVal (cScell d (cV L) (jV L)) 0 ∗ semVal (cGcell0 d (cV L) (jV L)) 0 ∗ semVal (cGcell1 d (cV L) (jV L)) 0 ∗ semVal (cGcell2 d (cV L) (jV L)) 0 ∗ semVal (cGcell3 d (cV L) (jV L)) 0 ∗ semVal (cGcell4 d (cV L) (jV L)) 0 ∗ semVal (cGcell5 d (cV L) (jV L)) 0 ∗ semVal (cGcell6 d (cV L) (jV L)) 0 ∗ semVal (cGcell7 d (cV L) (jV L)) 0 ∗ semVal (cWcell d (cV L) (jV L)) 0
          ∗ bigSep ((((((((((((ownCells (V d (cV L) (jV L))).erase (cIcell d (cV L) (jV L))).erase (cScell d (cV L) (jV L))).erase (cGcell0 d (cV L) (jV L))).erase (cGcell1 d (cV L) (jV L))).erase (cGcell2 d (cV L) (jV L))).erase (cGcell3 d (cV L) (jV L))).erase (cGcell4 d (cV L) (jV L))).erase (cGcell5 d (cV L) (jV L))).erase (cGcell6 d (cV L) (jV L))).erase (cGcell7 d (cV L) (jV L))).erase (cWcell d (cV L) (jV L))) fun g => semVal g 0) := by
  unfold SparseCore.Cfg.ownSems0
  rw [SparseCore.bigSep_erase' ((mem_ownCells (g := cIcell d (cV L) (jV L))).mpr ⟨rfl, by show (SemLoc.dma cc0_scratch3.sem : SemLoc sig).isScoped .scVector = true; decide⟩),
    SparseCore.bigSep_erase' (Finset.mem_erase.mpr ⟨ne_cell d _ _ _ _ (by decide), (mem_ownCells (g := cScell d (cV L) (jV L))).mpr ⟨rfl, by show (SemLoc.dma cc0_scratch4.sem : SemLoc sig).isScoped .scVector = true; decide⟩⟩),
    SparseCore.bigSep_erase' (Finset.mem_erase.mpr ⟨ne_cell d _ _ _ _ (by decide), Finset.mem_erase.mpr ⟨ne_cell d _ _ _ _ (by decide), (mem_ownCells (g := cGcell0 d (cV L) (jV L))).mpr ⟨rfl, by show (SemLoc.dma gSems0.sem : SemLoc sig).isScoped .scVector = true; decide⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), (mem_ownCells (g := cGcell1 d (cV L) (jV L))).mpr ⟨rfl, by show (SemLoc.dma gSems1.sem : SemLoc sig).isScoped .scVector = true; decide⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell2 d (cV L) (jV L))).mpr ⟨rfl, by show (SemLoc.dma gSems2.sem : SemLoc sig).isScoped .scVector = true; decide⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell3 d (cV L) (jV L))).mpr ⟨rfl, by show (SemLoc.dma gSems3.sem : SemLoc sig).isScoped .scVector = true; decide⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell4 d (cV L) (jV L))).mpr ⟨rfl, by show (SemLoc.dma gSems4.sem : SemLoc sig).isScoped .scVector = true; decide⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell5 d (cV L) (jV L))).mpr ⟨rfl, by show (SemLoc.dma gSems5.sem : SemLoc sig).isScoped .scVector = true; decide⟩⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell6 d (cV L) (jV L))).mpr ⟨rfl, by show (SemLoc.dma gSems6.sem : SemLoc sig).isScoped .scVector = true; decide⟩⟩⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell7 d (cV L) (jV L))).mpr ⟨rfl, by show (SemLoc.dma gSems7.sem : SemLoc sig).isScoped .scVector = true; decide⟩⟩⟩⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cWcell d (cV L) (jV L))).mpr ⟨rfl, by show (SemLoc.dma cc0_scratch6.sem : SemLoc sig).isScoped .scVector = true; decide⟩⟩⟩⟩⟩⟩⟩⟩⟩⟩⟩)]

omit [FloatOps F] in
/-- The index scratch and the row scratch are among the subcore's own: they, at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f)
          ∗ bigSep (((ownRefs (τ := τ) (.scVector (cV L) (jV L))).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch1) rfl),
    SparseCore.bigSep_erase' (Finset.mem_erase.mpr ⟨(by intro e; cases e), SparseCore.Cfg.mem_ownRefs_of_owner (p := Proc.scVector (cV L) (jV L)) (b := (Proc.scVector (cV L) (jV L)).devRef cc0_scratch2) rfl⟩)]

omit [FloatOps F] in
theorem pts_ixV (f : Buf (Elt F) ((V d (cV L) (jV L)).loc cc0_scratch1)) :
    ((ixV).view.loc (V d (cV L) (jV L)) ↦{fullShare} f : sProp 𝕄) = (V d (cV L) (jV L)).loc cc0_scratch1 ↦{fullShare} f := rfl
omit [FloatOps F] in
theorem pts_rwV (f : Buf (Elt F) ((V d (cV L) (jV L)).loc cc0_scratch2)) :
    ((rwV).view.loc (V d (cV L) (jV L)) ↦{fullShare} f : sProp 𝕄) = (V d (cV L) (jV L)).loc cc0_scratch2 ↦{fullShare} f := rfl

/-- What this task's duty in tile `j`'s round hands over: read share `j` of its own rows. -/
theorem payload_out (j : Fin (grid0.bound 1)) :
    (bRd (F := F) m).payload (bcell d (cV L) (j.castLE hsub0)) 0 (jV L).val = shTok m d (cV L) (jL L) (Fin.cast bound_one j) := by
  show bPay m (bcell d (cV L) (j.castLE hsub0)) (jV L).val = _
  unfold bPay; dsimp only
  rw [dif_pos (show (jV L).val < 16 from (jL L).isLt)]
  rfl

/-- What task `s`'s duty in this tile's own round hands over: read share `jL L` of task `s`'s rows. -/
theorem payload_in (s : Fin 16) :
    (bRd (F := F) m).payload (bcell d (cV L) (jV L)) 0 s.val = shTok m d (cV L) s (jL L) := by
  show bPay m (bcell d (cV L) (jV L)) s.val = _
  unfold bPay; dsimp only
  rw [dif_pos s.isLt]
  rfl

/-- Arriving: the task's rows, split into what it keeps and a read share for each tile's round. -/
theorem pays_intro : (shLoc d (cV L) ↦[sSet (jL L)]{fullShare} shC m d (cV L) : sProp 𝕄)
    ⊢ iprop((shLoc d (cV L) ↦[sSet (jL L)]{Transfers.shareDrop fullShare 16} shC m d (cV L))
        ∗ bigSep Finset.univ fun j : Fin (grid0.bound 1) => (bRd (F := F) m).payload (bcell d (cV L) (j.castLE hsub0)) 0 (jV L).val) := by
  refine (Transfers.pointsTo_toks_split fullShare 16).trans (sep_mono (BI.Entails.refl _) (Entails.of_eq ?_))
  exact (bigSep_congr fun j _ => (payload_out m d L j).symm)

/-- Leaving: what the tile's own round collected is its read share of the whole shared table. -/
theorem pays_elim : (bigSep ((bRd (F := F) m).duties (bcell d (cV L) (jV L)) 0 \ ∅) fun n => (bRd (F := F) m).payload (bcell d (cV L) (jV L)) 0 n)
    ⊢ (shLoc d (cV L) ↦{Transfers.shareTok fullShare 16 (jL L)} shC m d (cV L) : sProp 𝕄) := by
  rw [Finset.sdiff_empty, bRd_duties₀, SparseCore.bigSep_image_of_injOn (fun a _ b _ e => Fin.val_injective e)]
  refine (Entails.of_eq ?_)
  rw [show (shLoc d (cV L) ↦{Transfers.shareTok fullShare 16 (jL L)} shC m d (cV L) : sProp 𝕄)
      = shLoc d (cV L) ↦[(Finset.univ : Finset (Fin 16)).biUnion sSet]{Transfers.shareTok fullShare 16 (jL L)} shC m d (cV L) from by rw [sSets_cover],
    pointsTo_biUnion Finset.univ (ℓ := shLoc d (cV L)) sSet sSets_disjoint]
  exact bigSep_congr fun s _ => payload_in m d L s

/-! ## The scratch buffers and the result's blocks, eight ways -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem hdivX : 8 ∣ S512.size 0 := ⟨64, rfl⟩
theorem hdivR : 8 ∣ S512x128.size 0 := ⟨64, rfl⟩
/-- Block `r` of 64 of the index scratch's 512 entries, and of the row scratch's 512 rows. -/
abbrev xPart (r : Fin 8) : Rect S512 := Rect.part (s := S512) (a₀ := 0) hdivX r
abbrev rPart (r : Fin 8) : Rect S512x128 := Rect.part (s := S512x128) (a₀ := 0) hdivR r
abbrev xSet (r : Fin 8) : Finset S512.Idx := ((ixV).view.slice (xPart r)).set
abbrev rSet (r : Fin 8) : Finset S512x128.Idx := ((rwV).view.slice (rPart r)).set

omit [FloatOps F] in
theorem xRect_eq (r : Fin 8) (hb : ∀ a, (![64 * r.val] : Fin 1 → Nat) a + S64.size a ≤ S512.size a) :
    Rect.unit (s := S512) ![64 * r.val] S64.size hb = xPart r := by
  unfold xPart Rect.part Rect.block
  congr 1 <;> funext a
  · match a with
    | 0 => simp [Shape.partIx, Shape.partSize]; omega
  · match a with
    | 0 => simp [Shape.partSize]
omit [FloatOps F] in
theorem rRect_eq (r : Fin 8) (hb : ∀ a, (![64 * r.val, 0] : Fin 2 → Nat) a + S64x128.size a ≤ S512x128.size a) :
    Rect.unit (s := S512x128) ![64 * r.val, 0] S64x128.size hb = rPart r := by
  unfold rPart Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
theorem xSet_eq (r : Fin 8) : xSet r = (xPart r).set := by
  show ((View.whole (cc0_scratch1 : Ref sig .scVector)).slice (xPart r)).set = _
  rw [View.set_slice]; exact Finset.map_refl
omit [FloatOps F] in
theorem rSet_eq (r : Fin 8) : rSet r = (rPart r).set := by
  show ((View.whole (cc0_scratch2 : Ref sig .scVector)).slice (rPart r)).set = _
  rw [View.set_slice]; exact Finset.map_refl
omit [FloatOps F] in
theorem xSets_disjoint : ∀ i ∈ (Finset.univ : Finset (Fin 8)), ∀ j ∈ (Finset.univ : Finset (Fin 8)), i ≠ j → Disjoint (xSet i) (xSet j) :=
  fun i _ j _ h => by rw [xSet_eq, xSet_eq]; exact Rect.part_disjoint hdivX h
omit [FloatOps F] in
theorem xSets_cover : (Finset.univ : Finset (Fin 8)).biUnion xSet = Finset.univ :=
  (Finset.biUnion_congr rfl fun i _ => xSet_eq i).trans (Rect.biUnion_part hdivX)
omit [FloatOps F] in
theorem rSets_disjoint : ∀ i ∈ (Finset.univ : Finset (Fin 8)), ∀ j ∈ (Finset.univ : Finset (Fin 8)), i ≠ j → Disjoint (rSet i) (rSet j) :=
  fun i _ j _ h => by rw [rSet_eq, rSet_eq]; exact Rect.part_disjoint hdivR h
omit [FloatOps F] in
theorem rSets_cover : (Finset.univ : Finset (Fin 8)).biUnion rSet = Finset.univ :=
  (Finset.biUnion_congr rfl fun i _ => rSet_eq i).trans (Rect.biUnion_part hdivR)

omit [FloatOps F] in
/-- The index scratch whole is its eight blocks; -/
theorem ixPts_blocks (f : Buf (Elt F) ((V d (cV L) (jV L)).loc cc0_scratch1)) :
    ((V d (cV L) (jV L)).loc cc0_scratch1 ↦{fullShare} f : sProp 𝕄) = bigSep Finset.univ fun r : Fin 8 => (V d (cV L) (jV L)).loc cc0_scratch1 ↦[xSet r]{fullShare} f := by
  rw [← pointsTo_biUnion Finset.univ (ℓ := (V d (cV L) (jV L)).loc cc0_scratch1) xSet xSets_disjoint, xSets_cover]; try rfl
omit [FloatOps F] in
/-- and the row scratch its eight. -/
theorem rwPts_blocks (f : Buf (Elt F) ((V d (cV L) (jV L)).loc cc0_scratch2)) :
    ((V d (cV L) (jV L)).loc cc0_scratch2 ↦{fullShare} f : sProp 𝕄) = bigSep Finset.univ fun r : Fin 8 => (V d (cV L) (jV L)).loc cc0_scratch2 ↦[rSet r]{fullShare} f := by
  rw [← pointsTo_biUnion Finset.univ (ℓ := (V d (cV L) (jV L)).loc cc0_scratch2) rSet rSets_disjoint, rSets_cover]; try rfl

/-- The blocks as the body slices them. -/
abbrev xSlc0 : Memref sig .scVector .vmem S64 .i32 := (ixV).slice (Rect.unit (s := S512) ![0] S64.size inb_S512_S64_0) (fun _ => rfl)
abbrev rSlc0 : Memref sig .scVector .vmem S64x128 .f32 := (rwV).slice (Rect.unit (s := S512x128) ![0, 0] S64x128.size inb_S512x128_S64x128_0_0) (fun _ => rfl)
abbrev oSlc0 (L : grid0.Coords) : Memref sig .scVector .hbm S64x128 .f32 := (oV).slice (Rect.unit (s := S16384x128) (k0_off4 L 0#32) S64x128.size (k0_off4_inb L 0)) (fun _ => rfl)
abbrev xSlc1 : Memref sig .scVector .vmem S64 .i32 := (ixV).slice (Rect.unit (s := S512) ![64] S64.size inb_S512_S64_64) (fun _ => rfl)
abbrev rSlc1 : Memref sig .scVector .vmem S64x128 .f32 := (rwV).slice (Rect.unit (s := S512x128) ![64, 0] S64x128.size inb_S512x128_S64x128_64_0) (fun _ => rfl)
abbrev oSlc1 (L : grid0.Coords) : Memref sig .scVector .hbm S64x128 .f32 := (oV).slice (Rect.unit (s := S16384x128) (k0_off4 L 64#32) S64x128.size (k0_off4_inb L 1)) (fun _ => rfl)
abbrev xSlc2 : Memref sig .scVector .vmem S64 .i32 := (ixV).slice (Rect.unit (s := S512) ![128] S64.size inb_S512_S64_128) (fun _ => rfl)
abbrev rSlc2 : Memref sig .scVector .vmem S64x128 .f32 := (rwV).slice (Rect.unit (s := S512x128) ![128, 0] S64x128.size inb_S512x128_S64x128_128_0) (fun _ => rfl)
abbrev oSlc2 (L : grid0.Coords) : Memref sig .scVector .hbm S64x128 .f32 := (oV).slice (Rect.unit (s := S16384x128) (k0_off4 L 128#32) S64x128.size (k0_off4_inb L 2)) (fun _ => rfl)
abbrev xSlc3 : Memref sig .scVector .vmem S64 .i32 := (ixV).slice (Rect.unit (s := S512) ![192] S64.size inb_S512_S64_192) (fun _ => rfl)
abbrev rSlc3 : Memref sig .scVector .vmem S64x128 .f32 := (rwV).slice (Rect.unit (s := S512x128) ![192, 0] S64x128.size inb_S512x128_S64x128_192_0) (fun _ => rfl)
abbrev oSlc3 (L : grid0.Coords) : Memref sig .scVector .hbm S64x128 .f32 := (oV).slice (Rect.unit (s := S16384x128) (k0_off4 L 192#32) S64x128.size (k0_off4_inb L 3)) (fun _ => rfl)
abbrev xSlc4 : Memref sig .scVector .vmem S64 .i32 := (ixV).slice (Rect.unit (s := S512) ![256] S64.size inb_S512_S64_256) (fun _ => rfl)
abbrev rSlc4 : Memref sig .scVector .vmem S64x128 .f32 := (rwV).slice (Rect.unit (s := S512x128) ![256, 0] S64x128.size inb_S512x128_S64x128_256_0) (fun _ => rfl)
abbrev oSlc4 (L : grid0.Coords) : Memref sig .scVector .hbm S64x128 .f32 := (oV).slice (Rect.unit (s := S16384x128) (k0_off4 L 256#32) S64x128.size (k0_off4_inb L 4)) (fun _ => rfl)
abbrev xSlc5 : Memref sig .scVector .vmem S64 .i32 := (ixV).slice (Rect.unit (s := S512) ![320] S64.size inb_S512_S64_320) (fun _ => rfl)
abbrev rSlc5 : Memref sig .scVector .vmem S64x128 .f32 := (rwV).slice (Rect.unit (s := S512x128) ![320, 0] S64x128.size inb_S512x128_S64x128_320_0) (fun _ => rfl)
abbrev oSlc5 (L : grid0.Coords) : Memref sig .scVector .hbm S64x128 .f32 := (oV).slice (Rect.unit (s := S16384x128) (k0_off4 L 320#32) S64x128.size (k0_off4_inb L 5)) (fun _ => rfl)
abbrev xSlc6 : Memref sig .scVector .vmem S64 .i32 := (ixV).slice (Rect.unit (s := S512) ![384] S64.size inb_S512_S64_384) (fun _ => rfl)
abbrev rSlc6 : Memref sig .scVector .vmem S64x128 .f32 := (rwV).slice (Rect.unit (s := S512x128) ![384, 0] S64x128.size inb_S512x128_S64x128_384_0) (fun _ => rfl)
abbrev oSlc6 (L : grid0.Coords) : Memref sig .scVector .hbm S64x128 .f32 := (oV).slice (Rect.unit (s := S16384x128) (k0_off4 L 384#32) S64x128.size (k0_off4_inb L 6)) (fun _ => rfl)
abbrev xSlc7 : Memref sig .scVector .vmem S64 .i32 := (ixV).slice (Rect.unit (s := S512) ![448] S64.size inb_S512_S64_448) (fun _ => rfl)
abbrev rSlc7 : Memref sig .scVector .vmem S64x128 .f32 := (rwV).slice (Rect.unit (s := S512x128) ![448, 0] S64x128.size inb_S512x128_S64x128_448_0) (fun _ => rfl)
abbrev oSlc7 (L : grid0.Coords) : Memref sig .scVector .hbm S64x128 .f32 := (oV).slice (Rect.unit (s := S16384x128) (k0_off4 L 448#32) S64x128.size (k0_off4_inb L 7)) (fun _ => rfl)

omit [FloatOps F] in
theorem set_xSlc0 : (xSlc0).view.set = xSet 0 := by
  show ((ixV).view.slice (Rect.unit (s := S512) ![0] S64.size inb_S512_S64_0)).set = ((ixV).view.slice (xPart 0)).set
  rw [show Rect.unit (s := S512) ![0] S64.size inb_S512_S64_0 = xPart 0 from xRect_eq 0 inb_S512_S64_0]
omit [FloatOps F] in
theorem set_rSlc0 : (rSlc0).view.set = rSet 0 := by
  show ((rwV).view.slice (Rect.unit (s := S512x128) ![0, 0] S64x128.size inb_S512x128_S64x128_0_0)).set = ((rwV).view.slice (rPart 0)).set
  rw [show Rect.unit (s := S512x128) ![0, 0] S64x128.size inb_S512x128_S64x128_0_0 = rPart 0 from rRect_eq 0 inb_S512x128_S64x128_0_0]
omit [FloatOps F] in
theorem set_oSlc0 : (oSlc0 L).view.set = oSet (chunkOf (wL L) 0) := set_oSlc L 0
omit [FloatOps F] in
theorem pts_xSlc0 (f : Buf (Elt F) ((V d (cV L) (jV L)).loc cc0_scratch1)) :
    ((xSlc0).view.loc (V d (cV L) (jV L)) ↦[(xSlc0).view.set]{fullShare} f : sProp 𝕄) = (V d (cV L) (jV L)).loc cc0_scratch1 ↦[xSet 0]{fullShare} f := by
  rw [set_xSlc0]
omit [FloatOps F] in
theorem pts_rSlc0 (f : Buf (Elt F) ((V d (cV L) (jV L)).loc cc0_scratch2)) :
    ((rSlc0).view.loc (V d (cV L) (jV L)) ↦[(rSlc0).view.set]{fullShare} f : sProp 𝕄) = (V d (cV L) (jV L)).loc cc0_scratch2 ↦[rSet 0]{fullShare} f := by
  rw [set_rSlc0]
omit [FloatOps F] in
theorem pts_oSlc0 (f : Buf (Elt F) (outLoc d)) :
    ((oSlc0 L).view.loc (V d (cV L) (jV L)) ↦[(oSlc0 L).view.set]{fullShare} f : sProp 𝕄) = outLoc d ↦[oSet (chunkOf (wL L) 0)]{fullShare} f := by
  rw [set_oSlc0]
omit [FloatOps F] in
theorem set_xSlc1 : (xSlc1).view.set = xSet 1 := by
  show ((ixV).view.slice (Rect.unit (s := S512) ![64] S64.size inb_S512_S64_64)).set = ((ixV).view.slice (xPart 1)).set
  rw [show Rect.unit (s := S512) ![64] S64.size inb_S512_S64_64 = xPart 1 from xRect_eq 1 inb_S512_S64_64]
omit [FloatOps F] in
theorem set_rSlc1 : (rSlc1).view.set = rSet 1 := by
  show ((rwV).view.slice (Rect.unit (s := S512x128) ![64, 0] S64x128.size inb_S512x128_S64x128_64_0)).set = ((rwV).view.slice (rPart 1)).set
  rw [show Rect.unit (s := S512x128) ![64, 0] S64x128.size inb_S512x128_S64x128_64_0 = rPart 1 from rRect_eq 1 inb_S512x128_S64x128_64_0]
omit [FloatOps F] in
theorem set_oSlc1 : (oSlc1 L).view.set = oSet (chunkOf (wL L) 1) := set_oSlc L 1
omit [FloatOps F] in
theorem pts_xSlc1 (f : Buf (Elt F) ((V d (cV L) (jV L)).loc cc0_scratch1)) :
    ((xSlc1).view.loc (V d (cV L) (jV L)) ↦[(xSlc1).view.set]{fullShare} f : sProp 𝕄) = (V d (cV L) (jV L)).loc cc0_scratch1 ↦[xSet 1]{fullShare} f := by
  rw [set_xSlc1]
omit [FloatOps F] in
theorem pts_rSlc1 (f : Buf (Elt F) ((V d (cV L) (jV L)).loc cc0_scratch2)) :
    ((rSlc1).view.loc (V d (cV L) (jV L)) ↦[(rSlc1).view.set]{fullShare} f : sProp 𝕄) = (V d (cV L) (jV L)).loc cc0_scratch2 ↦[rSet 1]{fullShare} f := by
  rw [set_rSlc1]
omit [FloatOps F] in
theorem pts_oSlc1 (f : Buf (Elt F) (outLoc d)) :
    ((oSlc1 L).view.loc (V d (cV L) (jV L)) ↦[(oSlc1 L).view.set]{fullShare} f : sProp 𝕄) = outLoc d ↦[oSet (chunkOf (wL L) 1)]{fullShare} f := by
  rw [set_oSlc1]
omit [FloatOps F] in
theorem set_xSlc2 : (xSlc2).view.set = xSet 2 := by
  show ((ixV).view.slice (Rect.unit (s := S512) ![128] S64.size inb_S512_S64_128)).set = ((ixV).view.slice (xPart 2)).set
  rw [show Rect.unit (s := S512) ![128] S64.size inb_S512_S64_128 = xPart 2 from xRect_eq 2 inb_S512_S64_128]
omit [FloatOps F] in
theorem set_rSlc2 : (rSlc2).view.set = rSet 2 := by
  show ((rwV).view.slice (Rect.unit (s := S512x128) ![128, 0] S64x128.size inb_S512x128_S64x128_128_0)).set = ((rwV).view.slice (rPart 2)).set
  rw [show Rect.unit (s := S512x128) ![128, 0] S64x128.size inb_S512x128_S64x128_128_0 = rPart 2 from rRect_eq 2 inb_S512x128_S64x128_128_0]
omit [FloatOps F] in
theorem set_oSlc2 : (oSlc2 L).view.set = oSet (chunkOf (wL L) 2) := set_oSlc L 2
omit [FloatOps F] in
theorem pts_xSlc2 (f : Buf (Elt F) ((V d (cV L) (jV L)).loc cc0_scratch1)) :
    ((xSlc2).view.loc (V d (cV L) (jV L)) ↦[(xSlc2).view.set]{fullShare} f : sProp 𝕄) = (V d (cV L) (jV L)).loc cc0_scratch1 ↦[xSet 2]{fullShare} f := by
  rw [set_xSlc2]
omit [FloatOps F] in
theorem pts_rSlc2 (f : Buf (Elt F) ((V d (cV L) (jV L)).loc cc0_scratch2)) :
    ((rSlc2).view.loc (V d (cV L) (jV L)) ↦[(rSlc2).view.set]{fullShare} f : sProp 𝕄) = (V d (cV L) (jV L)).loc cc0_scratch2 ↦[rSet 2]{fullShare} f := by
  rw [set_rSlc2]
omit [FloatOps F] in
theorem pts_oSlc2 (f : Buf (Elt F) (outLoc d)) :
    ((oSlc2 L).view.loc (V d (cV L) (jV L)) ↦[(oSlc2 L).view.set]{fullShare} f : sProp 𝕄) = outLoc d ↦[oSet (chunkOf (wL L) 2)]{fullShare} f := by
  rw [set_oSlc2]
omit [FloatOps F] in
theorem set_xSlc3 : (xSlc3).view.set = xSet 3 := by
  show ((ixV).view.slice (Rect.unit (s := S512) ![192] S64.size inb_S512_S64_192)).set = ((ixV).view.slice (xPart 3)).set
  rw [show Rect.unit (s := S512) ![192] S64.size inb_S512_S64_192 = xPart 3 from xRect_eq 3 inb_S512_S64_192]
omit [FloatOps F] in
theorem set_rSlc3 : (rSlc3).view.set = rSet 3 := by
  show ((rwV).view.slice (Rect.unit (s := S512x128) ![192, 0] S64x128.size inb_S512x128_S64x128_192_0)).set = ((rwV).view.slice (rPart 3)).set
  rw [show Rect.unit (s := S512x128) ![192, 0] S64x128.size inb_S512x128_S64x128_192_0 = rPart 3 from rRect_eq 3 inb_S512x128_S64x128_192_0]
omit [FloatOps F] in
theorem set_oSlc3 : (oSlc3 L).view.set = oSet (chunkOf (wL L) 3) := set_oSlc L 3
omit [FloatOps F] in
theorem pts_xSlc3 (f : Buf (Elt F) ((V d (cV L) (jV L)).loc cc0_scratch1)) :
    ((xSlc3).view.loc (V d (cV L) (jV L)) ↦[(xSlc3).view.set]{fullShare} f : sProp 𝕄) = (V d (cV L) (jV L)).loc cc0_scratch1 ↦[xSet 3]{fullShare} f := by
  rw [set_xSlc3]
omit [FloatOps F] in
theorem pts_rSlc3 (f : Buf (Elt F) ((V d (cV L) (jV L)).loc cc0_scratch2)) :
    ((rSlc3).view.loc (V d (cV L) (jV L)) ↦[(rSlc3).view.set]{fullShare} f : sProp 𝕄) = (V d (cV L) (jV L)).loc cc0_scratch2 ↦[rSet 3]{fullShare} f := by
  rw [set_rSlc3]
omit [FloatOps F] in
theorem pts_oSlc3 (f : Buf (Elt F) (outLoc d)) :
    ((oSlc3 L).view.loc (V d (cV L) (jV L)) ↦[(oSlc3 L).view.set]{fullShare} f : sProp 𝕄) = outLoc d ↦[oSet (chunkOf (wL L) 3)]{fullShare} f := by
  rw [set_oSlc3]
omit [FloatOps F] in
theorem set_xSlc4 : (xSlc4).view.set = xSet 4 := by
  show ((ixV).view.slice (Rect.unit (s := S512) ![256] S64.size inb_S512_S64_256)).set = ((ixV).view.slice (xPart 4)).set
  rw [show Rect.unit (s := S512) ![256] S64.size inb_S512_S64_256 = xPart 4 from xRect_eq 4 inb_S512_S64_256]
omit [FloatOps F] in
theorem set_rSlc4 : (rSlc4).view.set = rSet 4 := by
  show ((rwV).view.slice (Rect.unit (s := S512x128) ![256, 0] S64x128.size inb_S512x128_S64x128_256_0)).set = ((rwV).view.slice (rPart 4)).set
  rw [show Rect.unit (s := S512x128) ![256, 0] S64x128.size inb_S512x128_S64x128_256_0 = rPart 4 from rRect_eq 4 inb_S512x128_S64x128_256_0]
omit [FloatOps F] in
theorem set_oSlc4 : (oSlc4 L).view.set = oSet (chunkOf (wL L) 4) := set_oSlc L 4
omit [FloatOps F] in
theorem pts_xSlc4 (f : Buf (Elt F) ((V d (cV L) (jV L)).loc cc0_scratch1)) :
    ((xSlc4).view.loc (V d (cV L) (jV L)) ↦[(xSlc4).view.set]{fullShare} f : sProp 𝕄) = (V d (cV L) (jV L)).loc cc0_scratch1 ↦[xSet 4]{fullShare} f := by
  rw [set_xSlc4]
omit [FloatOps F] in
theorem pts_rSlc4 (f : Buf (Elt F) ((V d (cV L) (jV L)).loc cc0_scratch2)) :
    ((rSlc4).view.loc (V d (cV L) (jV L)) ↦[(rSlc4).view.set]{fullShare} f : sProp 𝕄) = (V d (cV L) (jV L)).loc cc0_scratch2 ↦[rSet 4]{fullShare} f := by
  rw [set_rSlc4]
omit [FloatOps F] in
theorem pts_oSlc4 (f : Buf (Elt F) (outLoc d)) :
    ((oSlc4 L).view.loc (V d (cV L) (jV L)) ↦[(oSlc4 L).view.set]{fullShare} f : sProp 𝕄) = outLoc d ↦[oSet (chunkOf (wL L) 4)]{fullShare} f := by
  rw [set_oSlc4]
omit [FloatOps F] in
theorem set_xSlc5 : (xSlc5).view.set = xSet 5 := by
  show ((ixV).view.slice (Rect.unit (s := S512) ![320] S64.size inb_S512_S64_320)).set = ((ixV).view.slice (xPart 5)).set
  rw [show Rect.unit (s := S512) ![320] S64.size inb_S512_S64_320 = xPart 5 from xRect_eq 5 inb_S512_S64_320]
omit [FloatOps F] in
theorem set_rSlc5 : (rSlc5).view.set = rSet 5 := by
  show ((rwV).view.slice (Rect.unit (s := S512x128) ![320, 0] S64x128.size inb_S512x128_S64x128_320_0)).set = ((rwV).view.slice (rPart 5)).set
  rw [show Rect.unit (s := S512x128) ![320, 0] S64x128.size inb_S512x128_S64x128_320_0 = rPart 5 from rRect_eq 5 inb_S512x128_S64x128_320_0]
omit [FloatOps F] in
theorem set_oSlc5 : (oSlc5 L).view.set = oSet (chunkOf (wL L) 5) := set_oSlc L 5
omit [FloatOps F] in
theorem pts_xSlc5 (f : Buf (Elt F) ((V d (cV L) (jV L)).loc cc0_scratch1)) :
    ((xSlc5).view.loc (V d (cV L) (jV L)) ↦[(xSlc5).view.set]{fullShare} f : sProp 𝕄) = (V d (cV L) (jV L)).loc cc0_scratch1 ↦[xSet 5]{fullShare} f := by
  rw [set_xSlc5]
omit [FloatOps F] in
theorem pts_rSlc5 (f : Buf (Elt F) ((V d (cV L) (jV L)).loc cc0_scratch2)) :
    ((rSlc5).view.loc (V d (cV L) (jV L)) ↦[(rSlc5).view.set]{fullShare} f : sProp 𝕄) = (V d (cV L) (jV L)).loc cc0_scratch2 ↦[rSet 5]{fullShare} f := by
  rw [set_rSlc5]
omit [FloatOps F] in
theorem pts_oSlc5 (f : Buf (Elt F) (outLoc d)) :
    ((oSlc5 L).view.loc (V d (cV L) (jV L)) ↦[(oSlc5 L).view.set]{fullShare} f : sProp 𝕄) = outLoc d ↦[oSet (chunkOf (wL L) 5)]{fullShare} f := by
  rw [set_oSlc5]
omit [FloatOps F] in
theorem set_xSlc6 : (xSlc6).view.set = xSet 6 := by
  show ((ixV).view.slice (Rect.unit (s := S512) ![384] S64.size inb_S512_S64_384)).set = ((ixV).view.slice (xPart 6)).set
  rw [show Rect.unit (s := S512) ![384] S64.size inb_S512_S64_384 = xPart 6 from xRect_eq 6 inb_S512_S64_384]
omit [FloatOps F] in
theorem set_rSlc6 : (rSlc6).view.set = rSet 6 := by
  show ((rwV).view.slice (Rect.unit (s := S512x128) ![384, 0] S64x128.size inb_S512x128_S64x128_384_0)).set = ((rwV).view.slice (rPart 6)).set
  rw [show Rect.unit (s := S512x128) ![384, 0] S64x128.size inb_S512x128_S64x128_384_0 = rPart 6 from rRect_eq 6 inb_S512x128_S64x128_384_0]
omit [FloatOps F] in
theorem set_oSlc6 : (oSlc6 L).view.set = oSet (chunkOf (wL L) 6) := set_oSlc L 6
omit [FloatOps F] in
theorem pts_xSlc6 (f : Buf (Elt F) ((V d (cV L) (jV L)).loc cc0_scratch1)) :
    ((xSlc6).view.loc (V d (cV L) (jV L)) ↦[(xSlc6).view.set]{fullShare} f : sProp 𝕄) = (V d (cV L) (jV L)).loc cc0_scratch1 ↦[xSet 6]{fullShare} f := by
  rw [set_xSlc6]
omit [FloatOps F] in
theorem pts_rSlc6 (f : Buf (Elt F) ((V d (cV L) (jV L)).loc cc0_scratch2)) :
    ((rSlc6).view.loc (V d (cV L) (jV L)) ↦[(rSlc6).view.set]{fullShare} f : sProp 𝕄) = (V d (cV L) (jV L)).loc cc0_scratch2 ↦[rSet 6]{fullShare} f := by
  rw [set_rSlc6]
omit [FloatOps F] in
theorem pts_oSlc6 (f : Buf (Elt F) (outLoc d)) :
    ((oSlc6 L).view.loc (V d (cV L) (jV L)) ↦[(oSlc6 L).view.set]{fullShare} f : sProp 𝕄) = outLoc d ↦[oSet (chunkOf (wL L) 6)]{fullShare} f := by
  rw [set_oSlc6]
omit [FloatOps F] in
theorem set_xSlc7 : (xSlc7).view.set = xSet 7 := by
  show ((ixV).view.slice (Rect.unit (s := S512) ![448] S64.size inb_S512_S64_448)).set = ((ixV).view.slice (xPart 7)).set
  rw [show Rect.unit (s := S512) ![448] S64.size inb_S512_S64_448 = xPart 7 from xRect_eq 7 inb_S512_S64_448]
omit [FloatOps F] in
theorem set_rSlc7 : (rSlc7).view.set = rSet 7 := by
  show ((rwV).view.slice (Rect.unit (s := S512x128) ![448, 0] S64x128.size inb_S512x128_S64x128_448_0)).set = ((rwV).view.slice (rPart 7)).set
  rw [show Rect.unit (s := S512x128) ![448, 0] S64x128.size inb_S512x128_S64x128_448_0 = rPart 7 from rRect_eq 7 inb_S512x128_S64x128_448_0]
omit [FloatOps F] in
theorem set_oSlc7 : (oSlc7 L).view.set = oSet (chunkOf (wL L) 7) := set_oSlc L 7
omit [FloatOps F] in
theorem pts_xSlc7 (f : Buf (Elt F) ((V d (cV L) (jV L)).loc cc0_scratch1)) :
    ((xSlc7).view.loc (V d (cV L) (jV L)) ↦[(xSlc7).view.set]{fullShare} f : sProp 𝕄) = (V d (cV L) (jV L)).loc cc0_scratch1 ↦[xSet 7]{fullShare} f := by
  rw [set_xSlc7]
omit [FloatOps F] in
theorem pts_rSlc7 (f : Buf (Elt F) ((V d (cV L) (jV L)).loc cc0_scratch2)) :
    ((rSlc7).view.loc (V d (cV L) (jV L)) ↦[(rSlc7).view.set]{fullShare} f : sProp 𝕄) = (V d (cV L) (jV L)).loc cc0_scratch2 ↦[rSet 7]{fullShare} f := by
  rw [set_rSlc7]
omit [FloatOps F] in
theorem pts_oSlc7 (f : Buf (Elt F) (outLoc d)) :
    ((oSlc7 L).view.loc (V d (cV L) (jV L)) ↦[(oSlc7 L).view.set]{fullShare} f : sProp 𝕄) = outLoc d ↦[oSet (chunkOf (wL L) 7)]{fullShare} f := by
  rw [set_oSlc7]

omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-- What the index scratch holds once the task's 512 indices have landed. -/
abbrev myIdx : Buf (Elt F) ((V d (cV L) (jV L)).loc cc0_scratch1) := (iSlc L).view.read (Elt F) (idxC m d)

omit [FloatOps F] in
/-- Every one of them names a row of the shared table. -/
theorem myIdx_lt (hpre : PreOK m) (i : S512.Idx) : (myIdx m d L i).toNat < 512 := by
  show ((iSlc L).view.read (Elt F) (idxC m d) i).toNat < 512
  rw [View.read_apply]
  exact Cert.Lookup.idxList_lt _ _ (hpre d _)

/-- The row scratch's eight blocks, each at contents of its own, are it whole at some contents. -/
theorem rw_join : (bigSep Finset.univ fun r : Fin 8 => iprop(∃ f, (V d (cV L) (jV L)).loc cc0_scratch2 ↦[rSet r]{fullShare} f))
    ⊢ (iprop(∃ f, (V d (cV L) (jV L)).loc cc0_scratch2 ↦{fullShare} f) : sProp 𝕄) := by
  refine (bigSep_exists_pi Finset.univ (fun r (f : Buf (Elt F) ((V d (cV L) (jV L)).loc cc0_scratch2)) => ((V d (cV L) (jV L)).loc cc0_scratch2 ↦[rSet r]{fullShare} f : sProp 𝕄))).trans ?_
  iintro ⟨%fs, H⟩
  ihave H' := (pointsTo_biUnion_join Finset.univ rSet fs (fs 0) rSets_disjoint) $$ H
  icases H' with ⟨%g, -, Hg⟩
  rw [rSets_cover]
  iexists g; iexact Hg

end Tile

end Cert.Proof.KernelIdealSc

end
-- ==== Proof.IdealValue.lean ====
/-
  What the lookup kernel's copies leave behind, index by index: the rows of the shared table a task wrote hold the
  table's rows `r mod 8`; a block of the result, after its gather and its copy out, holds the rows the lookup selects.
-/
import proofs.«207026_g3393024164394_cont_8to1_b_908_22_alg».proof.Proof.IdealViews

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

omit [FloatOps F] in
/-- Contents whose reads through a view agree, agree on the view's elements. -/
theorem eqOn_set_of_read {κ : Kind} {sp : Space} {s : Shape} {e : EltTy} (v : View sig κ sp s e) {g g' : v.ty.Contents (Elt F)}
    (hr : ∀ y, v.read (Elt F) g y = v.read (Elt F) g' y) : ∀ i ∈ v.set, g i = g' i := by
  intro i hi
  obtain ⟨y, -, rfl⟩ := Finset.mem_map.mp hi
  have h := hr y
  rw [View.read_apply, View.read_apply] at h
  exact (cast_inj _).mp h

omit [FloatOps F] in
/-- The rows of the shared table a task wrote: row `32 s + y` took row `64 s + 32 c + y` of the replicated table, and both
    are row `y mod 8` of the table. -/
theorem shared_rows_eq (fsh : Buf (Elt F) (shLoc d (cV L))) : ∀ i ∈ (sSlc L).view.set,
    ((sSlc L).view.writes (Elt F) fsh [⟨Rect.whole S32x128, ReadAs.same.apply ((tSlc L).view.read (Elt F) (repC m d))⟩]) i = shC m d (cV L) i := by
  refine eqOn_set_of_read (sSlc L).view fun y => ?_
  have hy : (Rect.whole S32x128).emb y = y := Rect.emb_whole_apply S32x128 y
  have h1 := View.read_writes_cons_emb (v := (sSlc L).view) (f := fsh) (Rect.whole S32x128) (ReadAs.same.apply ((tSlc L).view.read (Elt F) (repC m d))) [] y
  rw [hy] at h1
  rw [h1]
  show (tSlc L).view.read (Elt F) (repC m d) y = (sSlc L).view.read (Elt F) (shC m d (cV L)) y
  rw [View.read_apply, View.read_apply]
  simp only [cast_eq]
  show Cert.Lookup.repTable (m (embLoc d)) ((tSlc L).view.emb y) = Cert.Lookup.shTable (m (embLoc d)) ((sSlc L).view.emb y)
  unfold Cert.Lookup.repTable Cert.Lookup.shTable
  have e0 : (((tSlc L).view.emb y) 0).val % 8 = (((sSlc L).view.emb y) 0).val % 8 := by
    show (k0_off3 L 0 + 1 * (y 0).val) % 8 = (k0_off2 L 0 + 1 * (y 0).val) % 8
    rw [k0_off3_eq, k0_off2_eq]
    simp only [Matrix.cons_val_zero]
    omega
  have e1 : ((tSlc L).view.emb y) 1 = ((sSlc L).view.emb y) 1 := by
    apply Fin.ext
    show k0_off3 L 1 + 1 * (y 1).val = k0_off2 L 1 + 1 * (y 1).val
    rw [k0_off3_eq, k0_off2_eq]; rfl
  refine congrArg (m (embLoc d)) (funext fun a => ?_)
  match a with
  | 0 => exact Fin.ext e0
  | 1 => exact e1

/-- The index list's and the row scratch's blocks, uniformly in the block number. -/
abbrev xSlcU (r : Fin 8) (hb : ∀ a, (![64 * r.val] : Fin 1 → Nat) a + S64.size a ≤ S512.size a) : Memref sig .scVector .vmem S64 .i32 :=
  (ixV).slice (Rect.unit (s := S512) ![64 * r.val] S64.size hb) (fun _ => rfl)
abbrev rSlcU (r : Fin 8) (hb : ∀ a, (![64 * r.val, 0] : Fin 2 → Nat) a + S64x128.size a ≤ S512x128.size a) : Memref sig .scVector .vmem S64x128 .f32 :=
  (rwV).slice (Rect.unit (s := S512x128) ![64 * r.val, 0] S64x128.size hb) (fun _ => rfl)
/-- The shared table whole, as a gather names its source. -/
abbrev shW : Memref sig .scVector .shared S512x128 .f32 := (shV).slice (Rect.unit (s := S512x128) ![0, 0] S512x128.size inb_S512x128_S512x128_0_0) (fun _ => rfl)

omit [FloatOps F] in
/-- Block `r` of the task's part of the result, once its 64 rows have been gathered into the row scratch and copied out:
    row `y` of it is the row of the shared table that entry `64 r + y` of the task's index list names, which is row
    `names p` of the table for the position `p = 512 w + 64 r + y` the row stands at. -/
theorem out_block_eq (hpre : PreOK m) (r : Fin 8) (hbx : ∀ a, (![64 * r.val] : Fin 1 → Nat) a + S64.size a ≤ S512.size a)
    (hbr : ∀ a, (![64 * r.val, 0] : Fin 2 → Nat) a + S64x128.size a ≤ S512x128.size a)
    (fo : Buf (Elt F) (outLoc d)) (fr : Buf (Elt F) ((V d (cV L) (jV L)).loc cc0_scratch2))
    (hin : ∀ x, ((xSlcU r hbx).view.read (Elt F) (myIdx m d L) x).toNat < S512x128.size gathers_S512x128_S64x128.axis) :
    ∀ i ∈ (oSlc L r).view.set,
      ((oSlc L r).view.writes (Elt F) fo [⟨Rect.whole S64x128, ReadAs.same.apply ((rSlcU r hbr).view.read (Elt F)
          ((rSlcU r hbr).view.writes (Elt F) fr [⟨Rect.whole S64x128,
            SparseCore.gatherPayload gathers_S512x128_S64x128 ((shW).view.read (Elt F) (shC m d (cV L)))
              (SparseCore.rows ((xSlcU r hbx).view.read (Elt F) (myIdx m d L)) rfl hin)⟩]))⟩]) i = outC m d i := by
  refine eqOn_set_of_read (oSlc L r).view fun y => ?_
  have hy : (Rect.whole S64x128).emb y = y := Rect.emb_whole_apply S64x128 y
  have h1 := View.read_writes_cons_emb (v := (oSlc L r).view) (f := fo) (Rect.whole S64x128) (ReadAs.same.apply ((rSlcU r hbr).view.read (Elt F)
          ((rSlcU r hbr).view.writes (Elt F) fr [⟨Rect.whole S64x128,
            SparseCore.gatherPayload gathers_S512x128_S64x128 ((shW).view.read (Elt F) (shC m d (cV L)))
              (SparseCore.rows ((xSlcU r hbx).view.read (Elt F) (myIdx m d L)) rfl hin)⟩]))) [] y
  rw [hy] at h1
  rw [h1]
  have h2 := View.read_writes_cons_emb (v := (rSlcU r hbr).view) (f := fr) (Rect.whole S64x128)
      (SparseCore.gatherPayload gathers_S512x128_S64x128 ((shW).view.read (Elt F) (shC m d (cV L)))
              (SparseCore.rows ((xSlcU r hbx).view.read (Elt F) (myIdx m d L)) rfl hin)) [] y
  rw [hy] at h2
  show (rSlcU r hbr).view.read (Elt F) _ y = _
  rw [h2]
  unfold SparseCore.gatherPayload
  rw [View.read_apply, View.read_apply]
  simp only [cast_eq]
  -- the row of the shared table the gather read for row `y`, and the position that row of the result stands at
  have hz : ((S64.rowMajor.symm ((y 0).cast (show S64x128.size gathers_S512x128_S64x128.axis' = S64.numel from rfl))) 0).val = (y 0).val := by
    have h := Shape.rowMajor_val_one (S64.rowMajor.symm ((y 0).cast (show S64x128.size gathers_S512x128_S64x128.axis' = S64.numel from rfl)))
    rw [Equiv.apply_symm_apply] at h
    exact h.symm
  have hJ0 := Shape.Gathers.idx_axis gathers_S512x128_S64x128
      (SparseCore.rows (View.read (Elt F) (xSlcU r hbx).view (myIdx m d L)) rfl hin) y
  have hJ1 := Shape.Gathers.idx_of_ne gathers_S512x128_S64x128
      (SparseCore.rows (View.read (Elt F) (xSlcU r hbx).view (myIdx m d L)) rfl hin) y 1 (by decide)
  have hrow : ((gathers_S512x128_S64x128.idx (SparseCore.rows (View.read (Elt F) (xSlcU r hbx).view (myIdx m d L)) rfl hin) y) (0 : Fin 2)).val
      = (idxC m d ((iSlc L).view.emb ((xSlcU r hbx).view.emb (S64.rowMajor.symm ((y 0).cast (show S64x128.size gathers_S512x128_S64x128.axis' = S64.numel from rfl)))))).toNat := by
    exact (congrArg Fin.val hJ0).trans rfl
  have hP : (iSlc L).view.emb ((xSlcU r hbx).view.emb (S64.rowMajor.symm ((y 0).cast (show S64x128.size gathers_S512x128_S64x128.axis' = S64.numel from rfl)))) = ValueIdx.ix1 (((oSlc L r).view.emb y) 0) := by
    funext a
    match a with
    | 0 =>
      apply Fin.ext
      show k0_off1 L 0 + 1 * (64 * r.val + 1 * ((S64.rowMajor.symm ((y 0).cast (show S64x128.size gathers_S512x128_S64x128.axis' = S64.numel from rfl))) 0).val) = k0_off4 L (BitVec.ofNat 32 (64 * r.val)) 0 + 1 * (y 0).val
      rw [hz, k0_off1_eq, k0_off4_eq L r]
      simp only [Matrix.cons_val_zero]
      omega
  show Cert.Lookup.shTable (m (embLoc d)) _ = Cert.Lookup.rows (m (namesLoc d)) (m (embLoc d)) _
  unfold Cert.Lookup.shTable Cert.Lookup.rows Cert.Lookup.rowOf
  refine congrArg (m (embLoc d)) (funext fun a => ?_)
  match a with
  | 0 =>
    apply Fin.ext
    show (0 + 1 * ((gathers_S512x128_S64x128.idx (SparseCore.rows (View.read (Elt F) (xSlcU r hbx).view (myIdx m d L)) rfl hin) y) (0 : Fin 2)).val) % 8
      = (m (namesLoc d) (ValueIdx.ix1 (((oSlc L r).view.emb y) 0))).toNat % 8
    calc (0 + 1 * ((gathers_S512x128_S64x128.idx (SparseCore.rows (View.read (Elt F) (xSlcU r hbx).view (myIdx m d L)) rfl hin) y) (0 : Fin 2)).val) % 8
        = (idxC m d ((iSlc L).view.emb ((xSlcU r hbx).view.emb (S64.rowMajor.symm ((y 0).cast (show S64x128.size gathers_S512x128_S64x128.axis' = S64.numel from rfl)))))).toNat % 8 := by rw [hrow, Nat.zero_add, Nat.one_mul]
      _ = (m (namesLoc d) ((iSlc L).view.emb ((xSlcU r hbx).view.emb (S64.rowMajor.symm ((y 0).cast (show S64x128.size gathers_S512x128_S64x128.axis' = S64.numel from rfl)))))).toNat := Cert.Lookup.idxList_mod _ _ (hpre d _)
      _ = (m (namesLoc d) ((iSlc L).view.emb ((xSlcU r hbx).view.emb (S64.rowMajor.symm ((y 0).cast (show S64x128.size gathers_S512x128_S64x128.axis' = S64.numel from rfl)))))).toNat % 8 := (Nat.mod_eq_of_lt (hpre d _)).symm
      _ = (m (namesLoc d) (ValueIdx.ix1 (((oSlc L r).view.emb y) 0))).toNat % 8 :=
        congrArg (fun i => (m (namesLoc d) i).toNat % 8) hP
  | 1 =>
    apply Fin.ext
    show 0 + 1 * ((gathers_S512x128_S64x128.idx (SparseCore.rows (View.read (Elt F) (xSlcU r hbx).view (myIdx m d L)) rfl hin) y) (1 : Fin 2)).val
      = k0_off4 L (BitVec.ofNat 32 (64 * r.val)) 1 + 1 * (y 1).val
    rw [hJ1, k0_off4_eq L r]
    simp

end Tile

end Cert.Proof.KernelIdealSc

end
-- ==== Proof.IdealTile.lean ====
/-
  One task of the lookup kernel, proved once for every vector subcore `(c, s)` of both SparseCores.
-/
import proofs.«207026_g3393024164394_cont_8to1_b_908_22_alg».proof.Proof.IdealValue

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

set_option maxRecDepth 100000 in
set_option maxHeartbeats 4000000 in
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (taskIn m d (wL L) ∗ ∃ f, shLoc d (cV L) ↦[sSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__body L iV (Memref.isWhole_whole _) tV (Memref.isWhole_whole _) oV (Memref.isWhole_whole _) shV (Memref.isWhole_whole _)
            ixV (Memref.isWhole_whole _) rwV (Memref.isWhole_whole _) cc0_scratch3 cc0_scratch4 cc0_scratch5 cc0_scratch6)
          fun _ => iprop((taskOut m d (wL L) ∗ shBack m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__body_eq_skeleton]; unfold cc0__body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Hi, Ht, Ho⟩, %fsh, Hsh⟩, ⟨⟨%fi0, Hix⟩, ⟨%fr0, Hrw⟩, Hbufs⟩, ⟨HsI, HsS, HsG0, HsG1, HsG2, HsG3, HsG4, HsG5, HsG6, HsG7, HsW, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSlc (F := F) d L _).symm) $$ Hi
  ihave Ht' := (Entails.of_eq (pts_tSlc (F := F) d L _).symm) $$ Ht
  ihave Hsh' := (Entails.of_eq (pts_sSlc (F := F) d L _ _).symm) $$ Hsh
  ihave Hix' := (Entails.of_eq (pts_ixV (F := F) d L _).symm) $$ Hix
  ihave Hrw' := (Entails.of_eq (pts_rwV (F := F) d L _).symm) $$ Hrw
  sl_exec
  -- the rows of the shared table this task wrote hold the replicated table
  have hsh : ∀ i ∈ (sSlc L).view.set, ((sSlc L).view.writes (Elt F) fsh [⟨Rect.whole S32x128, tile_body.sl.dma0_1 m d L⟩]) i = shC m d (cV L) i :=
    shared_rows_eq (F := F) m d L fsh
  ihave Hsh2 := (Entails.of_eq (pointsTo_congr hsh)) $$ Hsh'
  ihave Hsh3 := (Entails.of_eq (pts_sSlc (F := F) d L _ _)) $$ Hsh2
  ihave Hsp := (pays_intro (F := F) m d L) $$ Hsh3
  icases Hsp with ⟨Hkeep, Hpays⟩
  rw [Prog.bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) m d L) $$ Hgot
  ihave Hall' := (Entails.of_eq (pts_shV (F := F) d L _ _).symm) $$ Hall
  -- one read token of the table per transfer semaphore: the eight gathers read it at once
  ihave Hsp2 := (Transfers.pointsTo_toks_split (Transfers.shareTok fullShare 16 (jL L)) 11) $$ Hall'
  icases Hsp2 with ⟨Hrem, Htk⟩
  ihave Htk2 := (Entails.of_eq (bigSep_fin11 _)) $$ Htk
  icases Htk2 with ⟨Hk0, Hk1, Hk2, Hk3, Hk4, Hk5, Hk6, Hk7, Hk8, Hk9, Hk10⟩
  -- the index scratch holds the task's indices: eight lists of 64
  have hix : View.write (Elt F) ixV.view fi0 (tile_body.sl.dma0 m d L) Finset.univ = myIdx m d L := by
    unfold tile_body.sl.dma0
    exact View.write_whole_univ _ _ _
  rw [hix]
  ihave Hix2 := (Entails.of_eq (pts_ixV (F := F) d L _)) $$ Hix'
  ihave Hix3 := (Entails.of_eq ((ixPts_blocks (F := F) d L _).trans (bigSep_fin8 _))) $$ Hix2
  icases Hix3 with ⟨Hx0, Hx1, Hx2, Hx3, Hx4, Hx5, Hx6, Hx7⟩
  ihave Hx0' := (Entails.of_eq (pts_xSlc0 (F := F) d L _).symm) $$ Hx0
  ihave Hx1' := (Entails.of_eq (pts_xSlc1 (F := F) d L _).symm) $$ Hx1
  ihave Hx2' := (Entails.of_eq (pts_xSlc2 (F := F) d L _).symm) $$ Hx2
  ihave Hx3' := (Entails.of_eq (pts_xSlc3 (F := F) d L _).symm) $$ Hx3
  ihave Hx4' := (Entails.of_eq (pts_xSlc4 (F := F) d L _).symm) $$ Hx4
  ihave Hx5' := (Entails.of_eq (pts_xSlc5 (F := F) d L _).symm) $$ Hx5
  ihave Hx6' := (Entails.of_eq (pts_xSlc6 (F := F) d L _).symm) $$ Hx6
  ihave Hx7' := (Entails.of_eq (pts_xSlc7 (F := F) d L _).symm) $$ Hx7
  ihave Hrw2 := (Entails.of_eq (pts_rwV (F := F) d L _)) $$ Hrw'
  ihave Hrw3 := (Entails.of_eq ((rwPts_blocks (F := F) d L _).trans (bigSep_fin8 _))) $$ Hrw2
  icases Hrw3 with ⟨Hr0, Hr1, Hr2, Hr3, Hr4, Hr5, Hr6, Hr7⟩
  ihave Hr0' := (Entails.of_eq (pts_rSlc0 (F := F) d L _).symm) $$ Hr0
  ihave Hr1' := (Entails.of_eq (pts_rSlc1 (F := F) d L _).symm) $$ Hr1
  ihave Hr2' := (Entails.of_eq (pts_rSlc2 (F := F) d L _).symm) $$ Hr2
  ihave Hr3' := (Entails.of_eq (pts_rSlc3 (F := F) d L _).symm) $$ Hr3
  ihave Hr4' := (Entails.of_eq (pts_rSlc4 (F := F) d L _).symm) $$ Hr4
  ihave Hr5' := (Entails.of_eq (pts_rSlc5 (F := F) d L _).symm) $$ Hr5
  ihave Hr6' := (Entails.of_eq (pts_rSlc6 (F := F) d L _).symm) $$ Hr6
  ihave Hr7' := (Entails.of_eq (pts_rSlc7 (F := F) d L _).symm) $$ Hr7
  ihave Ho2 := (Entails.of_eq (bigSep_fin8 _)) $$ Ho
  icases Ho2 with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩
  ihave Ho0' := (Entails.of_eq (pts_oSlc0 (F := F) d L _).symm) $$ Ho0
  ihave Ho1' := (Entails.of_eq (pts_oSlc1 (F := F) d L _).symm) $$ Ho1
  ihave Ho2' := (Entails.of_eq (pts_oSlc2 (F := F) d L _).symm) $$ Ho2
  ihave Ho3' := (Entails.of_eq (pts_oSlc3 (F := F) d L _).symm) $$ Ho3
  ihave Ho4' := (Entails.of_eq (pts_oSlc4 (F := F) d L _).symm) $$ Ho4
  ihave Ho5' := (Entails.of_eq (pts_oSlc5 (F := F) d L _).symm) $$ Ho5
  ihave Ho6' := (Entails.of_eq (pts_oSlc6 (F := F) d L _).symm) $$ Ho6
  ihave Ho7' := (Entails.of_eq (pts_oSlc7 (F := F) d L _).symm) $$ Ho7
  -- every list's entries name rows of the shared table
  have hin0 : ∀ x, ((xSlc0).view.read (Elt F) (myIdx m d L) x).toNat < S512x128.size gathers_S512x128_S64x128.axis := fun x => by
    rw [View.read_apply]; exact myIdx_lt m d L hpre _
  have hin1 : ∀ x, ((xSlc1).view.read (Elt F) (myIdx m d L) x).toNat < S512x128.size gathers_S512x128_S64x128.axis := fun x => by
    rw [View.read_apply]; exact myIdx_lt m d L hpre _
  have hin2 : ∀ x, ((xSlc2).view.read (Elt F) (myIdx m d L) x).toNat < S512x128.size gathers_S512x128_S64x128.axis := fun x => by
    rw [View.read_apply]; exact myIdx_lt m d L hpre _
  have hin3 : ∀ x, ((xSlc3).view.read (Elt F) (myIdx m d L) x).toNat < S512x128.size gathers_S512x128_S64x128.axis := fun x => by
    rw [View.read_apply]; exact myIdx_lt m d L hpre _
  have hin4 : ∀ x, ((xSlc4).view.read (Elt F) (myIdx m d L) x).toNat < S512x128.size gathers_S512x128_S64x128.axis := fun x => by
    rw [View.read_apply]; exact myIdx_lt m d L hpre _
  have hin5 : ∀ x, ((xSlc5).view.read (Elt F) (myIdx m d L) x).toNat < S512x128.size gathers_S512x128_S64x128.axis := fun x => by
    rw [View.read_apply]; exact myIdx_lt m d L hpre _
  have hin6 : ∀ x, ((xSlc6).view.read (Elt F) (myIdx m d L) x).toNat < S512x128.size gathers_S512x128_S64x128.axis := fun x => by
    rw [View.read_apply]; exact myIdx_lt m d L hpre _
  have hin7 : ∀ x, ((xSlc7).view.read (Elt F) (myIdx m d L) x).toNat < S512x128.size gathers_S512x128_S64x128.axis := fun x => by
    rw [View.read_apply]; exact myIdx_lt m d L hpre _
  -- the eight copies into the result all complete on one semaphore, and are drained by eight waits after the last
  have _plan : Transfers.BatchOf (V d (cV L) (jV L)) (SemLoc.dma (sig := sig) cc0_scratch6.sem) 8 := trivial
  sl_exec
  sl_step
  -- the result's blocks hold the rows the lookup selects
  have hout0 := out_block_eq (F := F) m d L hpre 0 inb_S512_S64_0 inb_S512x128_S64x128_0_0 fo0 fr0 hin0
  ihave Ho02 := (Entails.of_eq (pointsTo_congr hout0)) $$ Ho0'
  have hout1 := out_block_eq (F := F) m d L hpre 1 inb_S512_S64_64 inb_S512x128_S64x128_64_0 fo1 fr0 hin1
  ihave Ho12 := (Entails.of_eq (pointsTo_congr hout1)) $$ Ho1'
  have hout2 := out_block_eq (F := F) m d L hpre 2 inb_S512_S64_128 inb_S512x128_S64x128_128_0 fo2 fr0 hin2
  ihave Ho22 := (Entails.of_eq (pointsTo_congr hout2)) $$ Ho2'
  have hout3 := out_block_eq (F := F) m d L hpre 3 inb_S512_S64_192 inb_S512x128_S64x128_192_0 fo3 fr0 hin3
  ihave Ho32 := (Entails.of_eq (pointsTo_congr hout3)) $$ Ho3'
  have hout4 := out_block_eq (F := F) m d L hpre 4 inb_S512_S64_256 inb_S512x128_S64x128_256_0 fo4 fr0 hin4
  ihave Ho42 := (Entails.of_eq (pointsTo_congr hout4)) $$ Ho4'
  have hout5 := out_block_eq (F := F) m d L hpre 5 inb_S512_S64_320 inb_S512x128_S64x128_320_0 fo5 fr0 hin5
  ihave Ho52 := (Entails.of_eq (pointsTo_congr hout5)) $$ Ho5'
  have hout6 := out_block_eq (F := F) m d L hpre 6 inb_S512_S64_384 inb_S512x128_S64x128_384_0 fo6 fr0 hin6
  ihave Ho62 := (Entails.of_eq (pointsTo_congr hout6)) $$ Ho6'
  have hout7 := out_block_eq (F := F) m d L hpre 7 inb_S512_S64_448 inb_S512x128_S64x128_448_0 fo7 fr0 hin7
  ihave Ho72 := (Entails.of_eq (pointsTo_congr hout7)) $$ Ho7'
  isplitl [Hi' Ht' Ho02 Ho12 Ho22 Ho32 Ho42 Ho52 Ho62 Ho72 Hkeep Hrem Hk0 Hk1 Hk2 Hk3 Hk4 Hk5 Hk6 Hk7 Hk8 Hk9 Hk10]
  · isplitl [Hi' Ht' Ho02 Ho12 Ho22 Ho32 Ho42 Ho52 Ho62 Ho72]
    · isplitl [Hi']; · iapply (Entails.of_eq (pts_iSlc (F := F) d L _)); iexact Hi'
      isplitl [Ht']; · iapply (Entails.of_eq (pts_tSlc (F := F) d L _)); iexact Ht'
      rw [bigSep_fin8]
      isplitl [Ho02]; · iapply (Entails.of_eq (pts_oSlc0 (F := F) d L _)); iexact Ho02
      isplitl [Ho12]; · iapply (Entails.of_eq (pts_oSlc1 (F := F) d L _)); iexact Ho12
      isplitl [Ho22]; · iapply (Entails.of_eq (pts_oSlc2 (F := F) d L _)); iexact Ho22
      isplitl [Ho32]; · iapply (Entails.of_eq (pts_oSlc3 (F := F) d L _)); iexact Ho32
      isplitl [Ho42]; · iapply (Entails.of_eq (pts_oSlc4 (F := F) d L _)); iexact Ho42
      isplitl [Ho52]; · iapply (Entails.of_eq (pts_oSlc5 (F := F) d L _)); iexact Ho52
      isplitl [Ho62]; · iapply (Entails.of_eq (pts_oSlc6 (F := F) d L _)); iexact Ho62
      iapply (Entails.of_eq (pts_oSlc7 (F := F) d L _)); iexact Ho72
    · isplitl [Hrem Hk0 Hk1 Hk2 Hk3 Hk4 Hk5 Hk6 Hk7 Hk8 Hk9 Hk10]
      · iapply (Entails.of_eq (pts_shV (F := F) d L _ _))
        iapply (Transfers.pointsTo_toks_join (Transfers.shareTok fullShare 16 (jL L)) 11)
        isplitl [Hrem]; · iexact Hrem
        rw [bigSep_fin11]
        isplitl [Hk0]; · iexact Hk0
        isplitl [Hk1]; · iexact Hk1
        isplitl [Hk2]; · iexact Hk2
        isplitl [Hk3]; · iexact Hk3
        isplitl [Hk4]; · iexact Hk4
        isplitl [Hk5]; · iexact Hk5
        isplitl [Hk6]; · iexact Hk6
        isplitl [Hk7]; · iexact Hk7
        isplitl [Hk8]; · iexact Hk8
        isplitl [Hk9]; · iexact Hk9
        iexact Hk10
      · iexact Hkeep
  isplitl [Hx0' Hx1' Hx2' Hx3' Hx4' Hx5' Hx6' Hx7' Hr0' Hr1' Hr2' Hr3' Hr4' Hr5' Hr6' Hr7' Hbufs]
  · isplitl [Hx0' Hx1' Hx2' Hx3' Hx4' Hx5' Hx6' Hx7']
    · iexists (myIdx m d L)
      iapply (Entails.of_eq ((ixPts_blocks (F := F) d L _).trans (bigSep_fin8 _)).symm)
      isplitl [Hx0']; · iapply (Entails.of_eq (pts_xSlc0 (F := F) d L _)); iexact Hx0'
      isplitl [Hx1']; · iapply (Entails.of_eq (pts_xSlc1 (F := F) d L _)); iexact Hx1'
      isplitl [Hx2']; · iapply (Entails.of_eq (pts_xSlc2 (F := F) d L _)); iexact Hx2'
      isplitl [Hx3']; · iapply (Entails.of_eq (pts_xSlc3 (F := F) d L _)); iexact Hx3'
      isplitl [Hx4']; · iapply (Entails.of_eq (pts_xSlc4 (F := F) d L _)); iexact Hx4'
      isplitl [Hx5']; · iapply (Entails.of_eq (pts_xSlc5 (F := F) d L _)); iexact Hx5'
      isplitl [Hx6']; · iapply (Entails.of_eq (pts_xSlc6 (F := F) d L _)); iexact Hx6'
      iapply (Entails.of_eq (pts_xSlc7 (F := F) d L _)); iexact Hx7'
    isplitl [Hr0' Hr1' Hr2' Hr3' Hr4' Hr5' Hr6' Hr7']
    · iapply (rw_join (F := F) d L)
      rw [bigSep_fin8]
      isplitl [Hr0']; · iexists _; iapply (Entails.of_eq (pts_rSlc0 (F := F) d L _)); iexact Hr0'
      isplitl [Hr1']; · iexists _; iapply (Entails.of_eq (pts_rSlc1 (F := F) d L _)); iexact Hr1'
      isplitl [Hr2']; · iexists _; iapply (Entails.of_eq (pts_rSlc2 (F := F) d L _)); iexact Hr2'
      isplitl [Hr3']; · iexists _; iapply (Entails.of_eq (pts_rSlc3 (F := F) d L _)); iexact Hr3'
      isplitl [Hr4']; · iexists _; iapply (Entails.of_eq (pts_rSlc4 (F := F) d L _)); iexact Hr4'
      isplitl [Hr5']; · iexists _; iapply (Entails.of_eq (pts_rSlc5 (F := F) d L _)); iexact Hr5'
      isplitl [Hr6']; · iexists _; iapply (Entails.of_eq (pts_rSlc6 (F := F) d L _)); iexact Hr6'
      iexists _; iapply (Entails.of_eq (pts_rSlc7 (F := F) d L _)); iexact Hr7'
    iexact Hbufs
  isplitl [HsI HsS HsG0 HsG1 HsG2 HsG3 HsG4 HsG5 HsG6 HsG7 HsW Hsems]
  · isplitl [HsI]; · iexact HsI
    isplitl [HsS]; · iexact HsS
    isplitl [HsG0]; · iexact HsG0
    isplitl [HsG1]; · iexact HsG1
    isplitl [HsG2]; · iexact HsG2
    isplitl [HsG3]; · iexact HsG3
    isplitl [HsG4]; · iexact HsG4
    isplitl [HsG5]; · iexact HsG5
    isplitl [HsG6]; · iexact HsG6
    isplitl [HsG7]; · iexact HsG7
    isplitl [HsW]; · iexact HsW
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          iV (Memref.isWhole_whole _) tV (Memref.isWhole_whole _) oV (Memref.isWhole_whole _) shV (Memref.isWhole_whole _)
          ixV (Memref.isWhole_whole _) rwV (Memref.isWhole_whole _) cc0_scratch3 cc0_scratch4 cc0_scratch5 cc0_scratch6) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.KernelIdealSc

end
-- ==== Proof.IdealSplit.lean ====
/-
  The launch's side of the lookup kernel: how a SparseCore's operands split among its sixteen tasks and come back
  together, and what the launch allocates for the barrier.
-/
import proofs.«207026_g3393024164394_cont_8to1_b_908_22_alg».proof.Proof.IdealProtocol

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The shared table's rows split and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The sixteen tasks' returns of a shared table are the table whole: of each task's rows, the sixteen read shares
    (one came back with every task) and what their writer kept. -/
theorem sh_rejoin (d : Dev nD) (c : Fin τ.nSC) :
    (bigSep Finset.univ fun s : Fin 16 => shBack m d c s) ⊢ (iprop(∃ f, shLoc d c ↦{fullShare} f) : sProp 𝕄) := by
  have e1 : (bigSep Finset.univ fun s : Fin 16 => shBack m d c s)
      = iprop((bigSep Finset.univ fun j : Fin 16 => bigSep Finset.univ fun s : Fin 16 => shLoc d c ↦[sSet s]{Transfers.shareTok fullShare 16 j} shC m d c)
          ∗ bigSep Finset.univ fun s : Fin 16 => shLoc d c ↦[sSet s]{Transfers.shareDrop fullShare 16} shC m d c) := by
    rw [bigSep_sep']
    congr 1
    exact bigSep_congr fun j _ => shPts_rows (F := F) d c _ _
  rw [e1, bigSep_univ_comm, ← bigSep_sep']
  refine (bigSep_mono fun s _ => (sep_comm.1.trans (Transfers.pointsTo_toks_join fullShare 16))).trans ?_
  rw [← shPts_rows]
  exact BI.BIClass.exists_intro (Φ := fun f => (shLoc d c ↦{fullShare} f : sProp 𝕄)) (shC m d c)

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop((bigSep Finset.univ fun i : Fin 16 => taskIn m d (taskOf (Fin.cast nCore_zero c) i)) ∗ ownBufs (S d (coreOf c))) ⊢ |={Set.univ}=> iprop(
      (bigSep Finset.univ fun i : Fin ((K (F := F)).nSub 0) => iprop(taskIn m d (taskOf (Fin.cast nCore_zero c) (Fin.cast nSub_zero i))
        ∗ ∃ f, shLoc d (coreOf c) ↦[sSet (Fin.cast nSub_zero i)]{fullShare} f))
      ∗ ((bigSep Finset.univ fun i : Fin ((K (F := F)).nSub 0) => iprop(taskOut m d (taskOf (Fin.cast nCore_zero c) (Fin.cast nSub_zero i))
            ∗ shBack m d (coreOf c) (Fin.cast nSub_zero i)))
          -∗ iprop((bigSep Finset.univ fun i : Fin 16 => taskOut m d (taskOf (Fin.cast nCore_zero c) i)) ∗ ownBufs (S d (coreOf c)))))
  have eGo : (bigSep Finset.univ fun i : Fin 16 => iprop(taskIn m d (taskOf (Fin.cast nCore_zero c) i) ∗ ∃ f, shLoc d (coreOf c) ↦[sSet i]{fullShare} f) : sProp 𝕄)
      = iprop((bigSep Finset.univ fun i : Fin 16 => taskIn m d (taskOf (Fin.cast nCore_zero c) i))
          ∗ bigSep Finset.univ fun i : Fin 16 => iprop(∃ f, shLoc d (coreOf c) ↦[sSet i]{fullShare} f)) := bigSep_sep' _ _ _
  have eTd : (bigSep Finset.univ fun i : Fin 16 => iprop(taskOut m d (taskOf (Fin.cast nCore_zero c) i) ∗ shBack m d (coreOf c) i) : sProp 𝕄)
      = iprop((bigSep Finset.univ fun i : Fin 16 => taskOut m d (taskOf (Fin.cast nCore_zero c) i))
          ∗ bigSep Finset.univ fun i : Fin 16 => shBack m d (coreOf c) i) := bigSep_sep' _ _ _
  rw [bigSep_tasks (F := F) (fun i => iprop(taskIn m d (taskOf (Fin.cast nCore_zero c) i) ∗ ∃ f, shLoc d (coreOf c) ↦[sSet i]{fullShare} f)),
    bigSep_tasks (F := F) (fun i => iprop(taskOut m d (taskOf (Fin.cast nCore_zero c) i) ∗ shBack m d (coreOf c) i)),
    eGo, eTd, ownBufs_S]
  iintro ⟨Hin, ⟨%fsh, Hsh⟩, Hrest⟩; imodintro
  isplitl [Hin Hsh]
  · isplitl [Hin]; · iexact Hin
    ihave Hsh' := ((Entails.of_eq (shPts_rows (F := F) d (coreOf c) fullShare fsh)).trans (SparseCore.ent (bigSep_mono (Φ := fun i => (shLoc d (coreOf c) ↦[sSet i]{fullShare} fsh : sProp 𝕄))
      (Ψ := fun i => iprop(∃ f, shLoc d (coreOf c) ↦[sSet i]{fullShare} f))
      fun i _ => BI.BIClass.exists_intro (Φ := fun f => (shLoc d (coreOf c) ↦[sSet i]{fullShare} f : sProp 𝕄)) fsh))) $$ Hsh
    iexact Hsh'
  iintro ⟨Hout, Hsh⟩
  isplitl [Hout]; · iexact Hout
  isplitl [Hsh]; · iapply (sh_rejoin m d (coreOf c)); iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KernelIdealSc

end
-- ==== Proof.IdealMain.lean ====
/-
  The lookup kernel's @main on the TensorCore.

  Before the call the TensorCore computes two arrays from its arguments with seventy array operations: the index
  list (position `p`'s entry of `names` moved into the eight-row group `4 (p / 1024) + p mod 4` of the shared table)
  and the table repeated 128 times. It then starts the SparseCores and waits for them. The seventy operations are a
  straight line over buffers the TensorCore holds whole, so they run to the end with every buffer at the
  operations' composed value. For the call, the index list and the repeated table are cut into the thirty-two
  tasks' parts and the result into the 256 blocks of 64 rows, eight per task, and the parts are dealt to the two
  SparseCores, sixteen tasks each: task `w = 2 s + c` to vector subcore `s` of SparseCore `c`, block `k = 8 w + r`
  to task `w`. When the call returns every block of the result holds its rows of the lookup, so the blocks join to
  the whole result at the lookup; the two arguments were never written.
-/
import proofs.«207026_g3393024164394_cont_8to1_b_908_22_alg».proof.Proof.IdealProtocol

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The seventy operations before the call -/

/-- @main's operations before the call, in order, the three calls of `floor_divide` (twice) and `remainder` unfolded
    at their sites with the selects they call in turn. -/
abbrev ops : List (HloOp τ sig (Elt F)) :=
  [ StableHlo.reshape main_arg1 main_v0 rfl shapeCasts_S8x128_S1x8x1x128,
    StableHlo.unary main_v0 main_v1 (broadcastInDim S128x8x1x128 ![0, 1, 2, 3] bcast_S1x8x1x128_S128x8x1x128_0_1_2_3 : (⟨S1x8x1x128, .f32⟩ : BufTy).Contents (Elt F) → (⟨S128x8x1x128, .f32⟩ : BufTy).Contents (Elt F)),
    StableHlo.reshape main_v1 main_v2 rfl shapeCasts_S128x8x1x128_S1024x128,
    StableHlo.nullary main_v3 (iotaInDim S16384 32 0),
    StableHlo.nullary main_c (constantI S_ 32 512#32),
    StableHlo.TRef.unary (.of main_c) main_call0.v0 id,
    StableHlo.TRef.unary main_call0.v0 main_call0.v1 (broadcastInDim S16384 ![] bcast_S_S16384),
    StableHlo.TRef.binary (.of main_v3) main_call0.v1 main_call0.v2 Host.divsi,
    StableHlo.TRef.unary (.of main_v3) main_call0.v3 signi,
    StableHlo.TRef.unary main_call0.v0 main_call0.v4 signi,
    StableHlo.TRef.unary main_call0.v4 main_call0.v5 (broadcastInDim S16384 ![] bcast_S_S16384),
    StableHlo.TRef.binary main_call0.v3 main_call0.v5 main_call0.v6 (cmpi .ne),
    StableHlo.TRef.unary main_call0.v0 main_call0.v7 (broadcastInDim S16384 ![] bcast_S_S16384),
    StableHlo.TRef.binary (.of main_v3) main_call0.v7 main_call0.v8 Host.remsi,
    StableHlo.TRef.nullary main_call0.c (constantI S_ 32 0#32),
    StableHlo.TRef.unary main_call0.c main_call0.v9 (broadcastInDim S16384 ![] bcast_S_S16384),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16384 ![] bcast_S_S16384),
    StableHlo.TRef.binary main_call0.v2 main_call0.v12 main_call0.v13 subi,
    StableHlo.TRef.ternary main_call0.v11 main_call0.v13 main_call0.v2 main_call0.call0.v0 select,
    StableHlo.nullary main_c_0 (constantI S_ 32 2#32),
    StableHlo.TRef.unary (.of main_c_0) main_call1.v0 id,
    StableHlo.TRef.unary main_call1.v0 main_call1.v1 (broadcastInDim S16384 ![] bcast_S_S16384),
    StableHlo.TRef.binary (.of main_v4) main_call1.v1 main_call1.v2 Host.divsi,
    StableHlo.TRef.unary (.of main_v4) main_call1.v3 signi,
    StableHlo.TRef.unary main_call1.v0 main_call1.v4 signi,
    StableHlo.TRef.unary main_call1.v4 main_call1.v5 (broadcastInDim S16384 ![] bcast_S_S16384),
    StableHlo.TRef.binary main_call1.v3 main_call1.v5 main_call1.v6 (cmpi .ne),
    StableHlo.TRef.unary main_call1.v0 main_call1.v7 (broadcastInDim S16384 ![] bcast_S_S16384),
    StableHlo.TRef.binary (.of main_v4) main_call1.v7 main_call1.v8 Host.remsi,
    StableHlo.TRef.nullary main_call1.c (constantI S_ 32 0#32),
    StableHlo.TRef.unary main_call1.c main_call1.v9 (broadcastInDim S16384 ![] bcast_S_S16384),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16384 ![] bcast_S_S16384),
    StableHlo.TRef.binary main_call1.v2 main_call1.v12 main_call1.v13 subi,
    StableHlo.TRef.ternary main_call1.v11 main_call1.v13 main_call1.v2 main_call1.call0.v0 select,
    StableHlo.nullary main_c_1 (constantI S_ 32 4#32),
    StableHlo.unary main_c_1 main_v6 (broadcastInDim S16384 ![] bcast_S_S16384 : (⟨S_, .i32⟩ : BufTy).Contents (Elt F) → (⟨S16384, .i32⟩ : BufTy).Contents (Elt F)),
    StableHlo.binary main_v5 main_v6 main_v7 (muli : (⟨S16384, .i32⟩ : BufTy).Contents (Elt F) → (⟨S16384, .i32⟩ : BufTy).Contents (Elt F) → (⟨S16384, .i32⟩ : BufTy).Contents (Elt F)),
    StableHlo.nullary main_c_2 (constantI S_ 32 4#32),
    StableHlo.TRef.unary (.of main_c_2) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16384 ![] bcast_S_S16384),
    StableHlo.TRef.binary (.of main_v3) main_call2.v3 main_call2.v4 Host.remsi,
    StableHlo.TRef.nullary main_call2.c_1 (constantI S_ 32 0#32),
    StableHlo.TRef.unary main_call2.c_1 main_call2.v5 (broadcastInDim S16384 ![] bcast_S_S16384),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16384 ![] bcast_S_S16384),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16384 ![] bcast_S_S16384),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16384 ![] bcast_S_S16384),
    StableHlo.TRef.binary main_call2.v4 main_call2.v13 main_call2.v14 addi,
    StableHlo.TRef.ternary main_call2.v12 main_call2.v14 main_call2.v4 main_call2.v15 select,
    StableHlo.binary main_v7 main_v8 main_v9 (addi : (⟨S16384, .i32⟩ : BufTy).Contents (Elt F) → (⟨S16384, .i32⟩ : BufTy).Contents (Elt F) → (⟨S16384, .i32⟩ : BufTy).Contents (Elt F)),
    StableHlo.nullary main_c_3 (constantI S_ 32 8#32),
    StableHlo.unary main_c_3 main_v10 (broadcastInDim S16384 ![] bcast_S_S16384 : (⟨S_, .i32⟩ : BufTy).Contents (Elt F) → (⟨S16384, .i32⟩ : BufTy).Contents (Elt F)),
    StableHlo.binary main_v9 main_v10 main_v11 (muli : (⟨S16384, .i32⟩ : BufTy).Contents (Elt F) → (⟨S16384, .i32⟩ : BufTy).Contents (Elt F) → (⟨S16384, .i32⟩ : BufTy).Contents (Elt F)),
    StableHlo.binary main_arg0 main_v11 main_v12 (addi : (⟨S16384, .i32⟩ : BufTy).Contents (Elt F) → (⟨S16384, .i32⟩ : BufTy).Contents (Elt F) → (⟨S16384, .i32⟩ : BufTy).Contents (Elt F)) ]

-- seventy binds and four functions' bodies to reassociate
set_option maxHeartbeats 2000000 in
/-- @main is that straight line, then the call, then the return. -/
theorem main_eq (d : Dev nD) :
    main (F := F) d = (StableHlo.seq (ops (F := F)) >>= fun _ => (K (F := F)).run d 0 >>= fun _ => pure ⟨⟩) := by
  simp only [main, fn_floor_divide.body, fn_remainder.body, fn_where.body, fn_where_0.body, StableHlo.seq, bind_assoc, pure_bind]

theorem ops_sub : (ops : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub .., StableHlo.nullary_bufs_sub .., StableHlo.unary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.binary_bufs_sub .., StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub .., StableHlo.nullary_bufs_sub .., StableHlo.unary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.binary_bufs_sub .., StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub .., StableHlo.ternary_bufs_sub .., StableHlo.binary_bufs_sub ..,
    StableHlo.nullary_bufs_sub .., StableHlo.unary_bufs_sub .., StableHlo.binary_bufs_sub .., StableHlo.binary_bufs_sub ..⟩

/-! ## The TensorCore's buffers, held whole -/

/-- The TensorCore's buffers that are not scoped: @main's seventy-three arrays. -/
abbrev bufs : Finset (DevRef τ sig) := (StableHlo.tcRefs τ sig).filter fun b => ¬ b.isScoped

/-- The device's buffers at launch, as a valuation. -/
def V0 (d : Dev nD) : Valuation τ sig (Elt F) := fun b => m (d, b)

omit [FloatOps F] in
/-- What the launch deals the TensorCore of its arrays is `bufs` held at the launch contents. -/
theorem unscoped_held (d : Dev nD) :
    (unscopedBufs d (fun b => m ((SparseCore.T d).loc b)) : sProp 𝕄) = StableHlo.held (T d) bufs (V0 m d) := by
  unfold unscopedBufs StableHlo.held bufs StableHlo.tcRefs
  rw [Finset.filter_map, BI.bigSep_map]
  rfl

omit [FloatOps F] in
/-- An operation touches TensorCore buffers that are not scoped. -/
theorem sub_bufs (op : HloOp τ sig (Elt F)) (h : op.bufs ⊆ StableHlo.tcRefs τ sig) : op.bufs ⊆ bufs :=
  fun b hb => Finset.mem_filter.2 ⟨h hb, by rw [op.no_scoped b hb]; decide⟩

theorem ops_bufs : ∀ op ∈ (ops : List (HloOp τ sig (Elt F))), op.bufs ⊆ bufs :=
  fun op hop => sub_bufs op (List.forall_iff_forall_mem.1 ops_sub op hop)

theorem ops_fresh : ∀ op ∈ (ops : List (HloOp τ sig (Elt F))), op.fresh = ∅ := by
  intro _ h
  (repeat (cases h with | head => rfl | tail _ h => ?_))
  exact nomatch h

abbrev names' : DevRef τ sig := Proc.devRef .tc (main_arg0 : Ref sig .tc)
abbrev emb' : DevRef τ sig := Proc.devRef .tc (main_arg1 : Ref sig .tc)
abbrev idx' : DevRef τ sig := Proc.devRef .tc (main_v12 : Ref sig .tc)
abbrev rep' : DevRef τ sig := Proc.devRef .tc (main_v2 : Ref sig .tc)
abbrev out' : DevRef τ sig := Proc.devRef .tc (main_v13 : Ref sig .tc)

/-- The five arrays the call and the claim speak of. -/
abbrev five : Finset (DevRef τ sig) := {names', emb', idx', rep', out'}

omit [FloatOps F] in
theorem five_sub : five ⊆ bufs := by
  have hm : ∀ r : Ref sig .tc, (Proc.devRef (τ := τ) .tc r).isScoped = false → Proc.devRef (τ := τ) .tc r ∈ bufs :=
    fun r hr => Finset.mem_filter.2 ⟨StableHlo.devRef_mem_tcRefs r, by rw [hr]; decide⟩
  exact Finset.insert_subset (hm _ rfl) (Finset.insert_subset (hm _ rfl) (Finset.insert_subset (hm _ rfl)
    (Finset.insert_subset (hm _ rfl) (Finset.singleton_subset_iff.2 (hm _ rfl)))))

omit [FloatOps F] in
theorem held_five (d : Dev nD) (W : Valuation τ sig (Elt F)) :
    (StableHlo.held (T d) five W : sProp 𝕄)
      = iprop((namesLoc d ↦{fullShare} W names') ∗ (embLoc d ↦{fullShare} W emb') ∗ (idxLoc d ↦{fullShare} W idx')
          ∗ (repLoc d ↦{fullShare} W rep') ∗ outLoc d ↦{fullShare} W out') := by
  unfold StableHlo.held five
  rw [SparseCore.bigSep_insert' (by decide), SparseCore.bigSep_insert' (by decide), SparseCore.bigSep_insert' (by decide),
    SparseCore.bigSep_insert' (by decide), bigSep_singleton]

/-- No operation writes the first argument, -/
theorem names_after (W : Valuation τ sig (Elt F)) : StableHlo.after ops W names' = W names' := by
  after_results_simp
/-- the second argument, -/
theorem emb_after (W : Valuation τ sig (Elt F)) : StableHlo.after ops W emb' = W emb' := by
  after_results_simp
/-- or the result. -/
theorem out_after (W : Valuation τ sig (Elt F)) : StableHlo.after ops W out' = W out' := by
  after_results_simp

/-! ## The arrays cut into the tasks' parts -/

omit [FloatOps F] in
/-- The index list is its thirty-two parts. -/
theorem idx_split (d : Dev nD) (f : Buf (Elt F) (idxLoc d)) :
    (idxLoc d ↦{fullShare} f : sProp 𝕄) = bigSep Finset.univ fun w : Fin 32 => idxLoc d ↦[iSet w]{fullShare} f := by
  have hc : (Finset.univ : Finset (Fin 32)).biUnion iSet = Finset.univ := by
    have e : iSet = fun w => (iPart w).set := funext fun w => View.set_slice_whole _ _
    rw [e]; exact Rect.biUnion_part hdivI
  have hd : ∀ w ∈ (Finset.univ : Finset (Fin 32)), ∀ w' ∈ (Finset.univ : Finset (Fin 32)), w ≠ w' → Disjoint (iSet w) (iSet w') := by
    intro w _ w' _ h
    rw [show iSet w = (iPart w).set from View.set_slice_whole _ _, show iSet w' = (iPart w').set from View.set_slice_whole _ _]
    exact Rect.part_disjoint hdivI h
  rw [← pointsTo_biUnion (ℓ := idxLoc d) (q := fullShare) (f := f) Finset.univ iSet hd, hc]

omit [FloatOps F] in
/-- The repeated table is its thirty-two parts. -/
theorem rep_split (d : Dev nD) (f : Buf (Elt F) (repLoc d)) :
    (repLoc d ↦{fullShare} f : sProp 𝕄) = bigSep Finset.univ fun w : Fin 32 => repLoc d ↦[tSet w]{fullShare} f := by
  have hc : (Finset.univ : Finset (Fin 32)).biUnion tSet = Finset.univ := by
    have e : tSet = fun w => (tPart w).set := funext fun w => View.set_slice_whole _ _
    rw [e]; exact Rect.biUnion_part hdivT
  have hd : ∀ w ∈ (Finset.univ : Finset (Fin 32)), ∀ w' ∈ (Finset.univ : Finset (Fin 32)), w ≠ w' → Disjoint (tSet w) (tSet w') := by
    intro w _ w' _ h
    rw [show tSet w = (tPart w).set from View.set_slice_whole _ _, show tSet w' = (tPart w').set from View.set_slice_whole _ _]
    exact Rect.part_disjoint hdivT h
  rw [← pointsTo_biUnion (ℓ := repLoc d) (q := fullShare) (f := f) Finset.univ tSet hd, hc]

omit [FloatOps F] in
/-- The result is its 256 blocks. -/
theorem out_split (d : Dev nD) (f : Buf (Elt F) (outLoc d)) :
    (outLoc d ↦{fullShare} f : sProp 𝕄) = bigSep Finset.univ fun k : Fin 256 => outLoc d ↦[oSet k]{fullShare} f := by
  have hc : (Finset.univ : Finset (Fin 256)).biUnion oSet = Finset.univ := by
    have e : oSet = fun k => (oPart k).set := funext fun k => View.set_slice_whole _ _
    rw [e]; exact Rect.biUnion_part hdivO
  have hd : ∀ k ∈ (Finset.univ : Finset (Fin 256)), ∀ k' ∈ (Finset.univ : Finset (Fin 256)), k ≠ k' → Disjoint (oSet k) (oSet k') := by
    intro k _ k' _ h
    rw [show oSet k = (oPart k).set from View.set_slice_whole _ _, show oSet k' = (oPart k').set from View.set_slice_whole _ _]
    exact Rect.part_disjoint hdivO h
  rw [← pointsTo_biUnion (ℓ := outLoc d) (q := fullShare) (f := f) Finset.univ oSet hd, hc]

/-! ## Two reindexings: tasks by (SparseCore, subcore), blocks by (task, block of the task) -/

/-- Task `w` is subcore `w / 2` of SparseCore `w mod 2`. -/
def taskEquiv : Fin 2 × Fin 16 ≃ Fin 32 where
  toFun p := taskOf p.1 p.2
  invFun w := (⟨w.val % 2, Nat.mod_lt _ (by decide)⟩, ⟨w.val / 2, by have := w.isLt; omega⟩)
  left_inv p := by
    rcases p with ⟨c, s⟩
    refine Prod.ext (Fin.ext ?_) (Fin.ext ?_)
    · show (s.val * 2 + c.val) % 2 = c.val
      have := c.isLt; omega
    · show (s.val * 2 + c.val) / 2 = s.val
      have := c.isLt; omega
  right_inv w := Fin.ext (by show (w.val / 2) * 2 + w.val % 2 = w.val; omega)

/-- Block `k` is block `k mod 8` of task `k / 8`. -/
def chunkEquiv : Fin 32 × Fin 8 ≃ Fin 256 where
  toFun p := chunkOf p.1 p.2
  invFun k := (⟨k.val / 8, by have := k.isLt; omega⟩, ⟨k.val % 8, Nat.mod_lt _ (by decide)⟩)
  left_inv p := by
    rcases p with ⟨w, r⟩
    refine Prod.ext (Fin.ext ?_) (Fin.ext ?_)
    · show (w.val * 8 + r.val) / 8 = w.val
      have := r.isLt; omega
    · show (w.val * 8 + r.val) % 8 = r.val
      have := r.isLt; omega
  right_inv k := Fin.ext (by show (k.val / 8) * 8 + k.val % 8 = k.val; omega)

omit [FloatOps F] in
/-- Something per task, dealt SparseCore by SparseCore and subcore by subcore, is that thing for every task. -/
theorem regroup32 {n : Nat} (hn : n = 2) (X : Fin 32 → sProp 𝕄) :
    (bigSep Finset.univ fun c : Fin n => bigSep Finset.univ fun i : Fin 16 => X (taskOf (Fin.cast hn c) i)) = bigSep Finset.univ X := by
  subst hn
  exact ((bigSep_univ_equiv taskEquiv X).trans (bigSep_univ_prod _)).symm

omit [FloatOps F] in
/-- Something per block, dealt task by task, is that thing for every block. -/
theorem regroup256 (Y : Fin 256 → sProp 𝕄) :
    (bigSep Finset.univ fun w : Fin 32 => bigSep Finset.univ fun r : Fin 8 => Y (chunkOf w r)) = bigSep Finset.univ Y :=
  ((bigSep_univ_equiv chunkEquiv Y).trans (bigSep_univ_prod _)).symm

/-! ## What the call takes and brings back, as whole arrays -/

/-- What the call takes is the index list and the repeated table, whole, and every block of the result at some
    contents. -/
theorem st0_eq (d : Dev nD) :
    (bigSep Finset.univ fun c : Fin ((K (F := F)).nCore 0) => (P m).st 0 d c)
      = iprop((idxLoc d ↦{fullShare} idxC m d) ∗ (repLoc d ↦{fullShare} repC m d)
          ∗ bigSep Finset.univ fun k : Fin 256 => iprop(∃ f, outLoc d ↦[oSet k]{fullShare} f)) := by
  have h1 : (fun c : Fin ((K (F := F)).nCore 0) => (P m).st 0 d c)
      = fun c => bigSep Finset.univ fun i : Fin 16 => taskIn m d (taskOf (Fin.cast nCore_zero c) i) := rfl
  rw [h1, regroup32 nCore_zero (fun w => taskIn m d w), bigSep_sep', bigSep_sep',
    regroup256 (fun k => iprop(∃ f, outLoc d ↦[oSet k]{fullShare} f)), ← idx_split, ← rep_split]

/-- What it brings back is the three arrays whole, the result at the lookup. -/
theorem dn0_eq (d : Dev nD) :
    (bigSep Finset.univ fun c : Fin ((K (F := F)).nCore 0) => (P m).dn 0 d c)
      = iprop((idxLoc d ↦{fullShare} idxC m d) ∗ (repLoc d ↦{fullShare} repC m d) ∗ outLoc d ↦{fullShare} outC m d) := by
  have h1 : (fun c : Fin ((K (F := F)).nCore 0) => (P m).dn 0 d c)
      = fun c => bigSep Finset.univ fun i : Fin 16 => taskOut m d (taskOf (Fin.cast nCore_zero c) i) := rfl
  rw [h1, regroup32 nCore_zero (fun w => taskOut m d w), bigSep_sep', bigSep_sep',
    regroup256 (fun k => outLoc d ↦[oSet k]{fullShare} outC m d), ← idx_split, ← rep_split, ← out_split]

omit [FloatOps F] in
/-- A block held at known contents is held at some contents. -/
theorem out_some (d : Dev nD) (f : Buf (Elt F) (outLoc d)) :
    (bigSep Finset.univ fun k : Fin 256 => outLoc d ↦[oSet k]{fullShare} f : sProp 𝕄)
      ⊢ bigSep Finset.univ fun k : Fin 256 => iprop(∃ f, outLoc d ↦[oSet k]{fullShare} f) :=
  bigSep_mono fun k _ => by
    show _ ⊢ iprop(∃ f, outLoc d ↦[oSet k]{fullShare} f)
    iintro H; iexists _; iexact H

/-! ## @main -/

/-- What @main leaves the claim: the two arguments at their launch contents and the result at the lookup. -/
abbrev FIN (d : Dev nD) : sProp 𝕄 :=
  iprop((namesLoc d ↦{fullShare} m (namesLoc d)) ∗ (embLoc d ↦{fullShare} m (embLoc d)) ∗ outLoc d ↦{fullShare} outC m d)

/-- The five arrays after the seventy operations: the arguments and the result untouched, the index list and the
    repeated table at what the operations compute — given that this is the index list and the repeated table of the
    specification. -/
theorem held_after (hidx : ∀ W : Valuation τ sig (Elt F), StableHlo.after ops W idx' = Cert.Lookup.idxList (W names'))
    (hrep : ∀ W : Valuation τ sig (Elt F), StableHlo.after ops W rep' = Cert.Lookup.repTable (F := F) (W emb')) (d : Dev nD) :
    (StableHlo.held (T d) five (StableHlo.after ops (V0 m d)) : sProp 𝕄)
      = iprop((namesLoc d ↦{fullShare} m (namesLoc d)) ∗ (embLoc d ↦{fullShare} m (embLoc d)) ∗ (idxLoc d ↦{fullShare} idxC m d)
          ∗ (repLoc d ↦{fullShare} repC m d) ∗ outLoc d ↦{fullShare} m (outLoc d)) := by
  rw [held_five, names_after, emb_after, out_after, hidx, hrep]
  rfl

/-- All the TensorCore's arrays after the seventy operations: those five, and the rest. -/
theorem held_bufs_after (hidx : ∀ W : Valuation τ sig (Elt F), StableHlo.after ops W idx' = Cert.Lookup.idxList (W names'))
    (hrep : ∀ W : Valuation τ sig (Elt F), StableHlo.after ops W rep' = Cert.Lookup.repTable (F := F) (W emb')) (d : Dev nD) :
    (StableHlo.held (T d) bufs (StableHlo.after ops (V0 m d)) : sProp 𝕄)
      = iprop(((namesLoc d ↦{fullShare} m (namesLoc d)) ∗ (embLoc d ↦{fullShare} m (embLoc d)) ∗ (idxLoc d ↦{fullShare} idxC m d)
          ∗ (repLoc d ↦{fullShare} repC m d) ∗ outLoc d ↦{fullShare} m (outLoc d))
        ∗ StableHlo.held (T d) (bufs \ five) (StableHlo.after ops (V0 m d))) := by
  rw [StableHlo.held_sub_split (T d) five_sub, held_after m hidx hrep d]

-- a rule stated for the thread `d.tc` is applied at the TensorCore thread as the launch theorem spells it
set_option backward.isDefEq.respectTransparency.types false in
/-- @main on device `d`'s TensorCore: the seventy operations over its arrays held whole, the call from the index list,
    the repeated table and the result, the arguments kept. -/
theorem hmain (hidx : ∀ W : Valuation τ sig (Elt F), StableHlo.after ops W idx' = Cert.Lookup.idxList (W names'))
    (hrep : ∀ W : Valuation τ sig (Elt F), StableHlo.after ops W rep' = Cert.Lookup.repTable (F := F) (W emb'))
    (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the seventy operations
  iapply (StableHlo.wp_seq 𝒱 none Set.univ d bufs (fun _ => (K (F := F)).run d 0 >>= fun _ => pure ⟨⟩) (ops (F := F))
    ops_bufs ops_fresh (V0 m d)) $$ [Hb Hheld]
  · isplitl [Hb] <;> iassumption
  iintro ⟨Hb, Hheld⟩
  ihave Hh := (Entails.of_eq (held_bufs_after m hidx hrep d)) $$ Hheld
  icases Hh with ⟨⟨Hn, He, Hi, Hr, Ho⟩, -⟩
  -- the call
  rw [wp_bind]
  iapply ((K (F := F)).wp_run (D (F := F)) 𝒱 (EH := EH) (P := P m) κ d 0) $$ [Hst Hi Hr Ho Hn He]
  isplitr; · iexact Hctx
  isplitl [Hst]; · iexact Hst
  isplitl [Hi Hr Ho]
  · rw [st0_eq]
    isplitl [Hi]; · iexact Hi
    isplitl [Hr]; · iexact Hr
    iapply (out_some d (m (outLoc d)))
    rw [← out_split]
    iexact Ho
  iintro ⟨Hst, Hdn⟩
  ihave Hdn' := (Entails.of_eq (dn0_eq m d)) $$ Hdn
  icases Hdn' with ⟨-, -, Ho⟩
  rw [wp_pure]
  imodintro
  isplitl [Hst]; · iexact Hst
  isplitl [Hn]; · iexact Hn
  isplitl [He]; · iexact He
  iexact Ho

/-- What the claim reads off the final memory. -/
def fq (d : Dev nD) (s' : Phys nD τ sig (Elt F)) : Prop :=
  s'.mem.mem (outLoc d) = outC m d ∧ s'.mem.mem (namesLoc d) = m (namesLoc d) ∧ s'.mem.mem (embLoc d) = m (embLoc d)

omit [FloatOps F] in
theorem hfin (d : Dev nD) (s' : Phys nD τ sig (Elt F)) : iprop(FIN m d ∗ SI s') ⊢ (⌜fq m d s'⌝ : sProp 𝕄) := by
  iintro ⟨⟨Hn, He, Ho⟩, HSI⟩
  ihave H := (persistent_entails_right (SI_pointsTo_agree (st := s') (ℓ := outLoc d) (I := Finset.univ) (q := fullShare) (f := outC m d))) $$ [HSI Ho]
  · isplitl [HSI] <;> iassumption
  icases H with ⟨%h1, HSI, -⟩
  ihave H := (persistent_entails_right (SI_pointsTo_agree (st := s') (ℓ := namesLoc d) (I := Finset.univ) (q := fullShare) (f := m (namesLoc d)))) $$ [HSI Hn]
  · isplitl [HSI] <;> iassumption
  icases H with ⟨%h2, HSI, -⟩
  ihave H := (SI_pointsTo_agree (st := s') (ℓ := embLoc d) (I := Finset.univ) (q := fullShare) (f := m (embLoc d))) $$ [HSI He]
  · isplitl [HSI] <;> iassumption
  icases H with %h3
  ipureintro
  exact ⟨funext fun i => h1 i (Finset.mem_univ i), funext fun i => h2 i (Finset.mem_univ i), funext fun i => h3 i (Finset.mem_univ i)⟩

end Cert.Proof.KernelIdealSc

end
-- ==== Proof.HostIdx.lean ====
/-
  The index list the host program builds before it calls the kernel, as a pure function of the
  argument `names`, and its closed form.

  The host computes, over the positions `p = 0 … 16383`: the floor quotient of `p` by 512, the floor
  quotient of that by 2, four times it, plus the floor remainder of `p` by 4, all times eight, added
  to `names p`. Every dividend here is a nonnegative number below 2³¹ and every divisor a positive
  one, so the signed 32-bit quotient and remainder are the natural numbers' and the corrections that
  turn a truncating quotient or remainder into a floor one never fire.
-/
import proofs.«207026_g3393024164394_cont_8to1_b_908_22_alg».proof.Proof.Spec
import Idealize.ShloMosaic.PureOps
import Idealize.ShloMosaic.Lib.ValueIdx

noncomputable section

namespace Cert.HostChain

open Idealize.ShloMosaic Idealize.ShloMosaic.ValueIdx

/-! ## Words: nonnegative numbers below 2³¹ under signed division -/

/-- A number below 2³² is its own word's value. -/
theorem toNat_ofNat_of_lt {a : Nat} (h : a < 2 ^ 32) : (BitVec.ofNat 32 a).toNat = a := by
  rw [BitVec.toNat_ofNat]; exact Nat.mod_eq_of_lt h

/-- A number below 2³¹ has its word's top bit clear. -/
theorem msb_ofNat_of_lt {a : Nat} (h : a < 2 ^ 31) : (BitVec.ofNat 32 a).msb = false := by
  rw [BitVec.msb_eq_false_iff_two_mul_lt, toNat_ofNat_of_lt (by omega)]; omega

/-- Distinct numbers below 2³² are distinct words. -/
theorem ofNat_ne_of_ne {a b : Nat} (ha : a < 2 ^ 32) (hb : b < 2 ^ 32) (h : a ≠ b) :
    BitVec.ofNat 32 a ≠ BitVec.ofNat 32 b := by
  intro e
  have := congrArg BitVec.toNat e
  rw [toNat_ofNat_of_lt ha, toNat_ofNat_of_lt hb] at this
  exact h this

/-- A positive divisor below 2³¹ is not a corner of signed division: it is neither zero nor minus one. -/
theorem not_sdivCorner {n : Nat} (x : BitVec 32) (h0 : 0 < n) (hn : n < 2 ^ 31) :
    ¬ IntOp.SDivCorner x (BitVec.ofNat 32 n) := by
  unfold IntOp.SDivCorner
  rintro (h | ⟨_, h⟩)
  · exact ofNat_ne_of_ne (by omega) (by omega) (by omega : n ≠ 0) h
  · have e : (-1 : BitVec 32) = BitVec.ofNat 32 4294967295 := by decide
    rw [e] at h
    exact ofNat_ne_of_ne (by omega) (by omega) (by omega : n ≠ 4294967295) h

/-- The host's signed quotient of a nonnegative number by a positive one is the numbers' quotient. -/
theorem divsi_ofNat {a n : Nat} (ha : a < 2 ^ 31) (h0 : 0 < n) (hn : n < 2 ^ 31) :
    IntOp.divsi .host (BitVec.ofNat 32 a) (BitVec.ofNat 32 n) = BitVec.ofNat 32 (a / n) := by
  unfold IntOp.divsi
  rw [if_neg (not_sdivCorner _ h0 hn), BitVec.sdiv_eq, msb_ofNat_of_lt ha, msb_ofNat_of_lt hn]
  apply BitVec.eq_of_toNat_eq
  have hq : a / n < 2 ^ 32 := lt_of_le_of_lt (Nat.div_le_self a n) (by omega)
  show (BitVec.ofNat 32 a / BitVec.ofNat 32 n).toNat = _
  rw [BitVec.toNat_udiv, toNat_ofNat_of_lt (by omega), toNat_ofNat_of_lt (by omega), toNat_ofNat_of_lt hq]

/-- The host's signed remainder of a nonnegative number by a positive one is the numbers' remainder. -/
theorem remsi_ofNat {a n : Nat} (ha : a < 2 ^ 31) (h0 : 0 < n) (hn : n < 2 ^ 31) :
    IntOp.remsi .host (BitVec.ofNat 32 a) (BitVec.ofNat 32 n) = BitVec.ofNat 32 (a % n) := by
  unfold IntOp.remsi
  rw [if_neg (not_sdivCorner _ h0 hn), BitVec.srem_eq, msb_ofNat_of_lt ha, msb_ofNat_of_lt hn]
  apply BitVec.eq_of_toNat_eq
  have hr : a % n < 2 ^ 32 := lt_of_le_of_lt (Nat.mod_le a n) (by omega)
  show (BitVec.ofNat 32 a % BitVec.ofNat 32 n).toNat = _
  rw [BitVec.toNat_umod, toNat_ofNat_of_lt (by omega), toNat_ofNat_of_lt (by omega), toNat_ofNat_of_lt hr]

/-- The sign of a word as the host computes it: `0`, `-1` or `1`. -/
def sgn (w : BitVec 32) : BitVec 32 := if w = 0 then 0 else if w.msb then -1 else 1

/-- A positive number below 2³¹ has sign one. -/
theorem sgn_ofNat_pos {n : Nat} (h0 : 0 < n) (hn : n < 2 ^ 31) : sgn (BitVec.ofNat 32 n) = 1#32 := by
  unfold sgn
  rw [if_neg (show BitVec.ofNat 32 n ≠ (0 : BitVec 32) from
      ofNat_ne_of_ne (a := n) (b := 0) (by omega) (by omega) (by omega)),
    msb_ofNat_of_lt hn]
  rfl

/-- A word is not unequal to itself. -/
theorem cmpi_ne_self {w : Nat} (x : BitVec w) : IntOp.cmpi .ne x x = 0#1 := by
  show BitVec.ofBool (x != x) = 0#1
  rw [bne_self_eq_false]; rfl

/-- A nonnegative number below 2³¹ is not below zero as a signed word. -/
theorem cmpi_slt_zero {m : Nat} (h : m < 2 ^ 31) : IntOp.cmpi .slt (BitVec.ofNat 32 m) 0#32 = 0#1 := by
  show BitVec.ofBool ((BitVec.ofNat 32 m).slt 0#32) = 0#1
  rw [BitVec.slt_zero_eq_msb, msb_ofNat_of_lt h]; rfl

/-- A positive number below 2³² is not the zero word. -/
theorem cmpi_eq_zero {n : Nat} (h0 : 0 < n) (hn : n < 2 ^ 32) : IntOp.cmpi .eq (BitVec.ofNat 32 n) 0#32 = 0#1 := by
  show BitVec.ofBool (BitVec.ofNat 32 n == 0#32) = 0#1
  rw [beq_eq_false_iff_ne.mpr (ofNat_ne_of_ne hn (by omega) (by omega : n ≠ 0))]; rfl

/-- A select on a conjunction whose first bit is clear takes its second branch. -/
theorem select_andi_zero_left {α : Type} (c : BitVec 1) (x y : α) : Scalar.select (IntOp.andi 0#1 c) x y = y := by
  unfold IntOp.andi; rw [BitVec.zero_and]; exact select_zero x y

/-- A select on a conjunction whose second bit is clear takes its second branch. -/
theorem select_andi_zero_right {α : Type} (c : BitVec 1) (x y : α) : Scalar.select (IntOp.andi c 0#1) x y = y := by
  unfold IntOp.andi; rw [BitVec.and_zero]; exact select_zero x y

/-- The floor quotient as the host lowers it — the truncating quotient, less one where the signs differ and the
    remainder is not zero — of a nonnegative number by a positive one is the numbers' quotient: for a positive
    dividend the signs agree, and for zero the remainder is zero. -/
theorem floorDiv_word {a n : Nat} (ha : a < 2 ^ 31) (h0 : 0 < n) (hn : n < 2 ^ 31) :
    Scalar.select
      (IntOp.andi (IntOp.cmpi .ne (sgn (BitVec.ofNat 32 a)) (sgn (BitVec.ofNat 32 n)))
        (IntOp.cmpi .ne (IntOp.remsi .host (BitVec.ofNat 32 a) (BitVec.ofNat 32 n)) 0#32))
      (IntOp.subi (IntOp.divsi .host (BitVec.ofNat 32 a) (BitVec.ofNat 32 n)) 1#32)
      (IntOp.divsi .host (BitVec.ofNat 32 a) (BitVec.ofNat 32 n)) = BitVec.ofNat 32 (a / n) := by
  rw [divsi_ofNat ha h0 hn, remsi_ofNat ha h0 hn, sgn_ofNat_pos h0 hn]
  rcases Nat.eq_zero_or_pos a with rfl | hpos
  · rw [Nat.zero_mod, cmpi_ne_self]; exact select_andi_zero_right _ _ _
  · rw [sgn_ofNat_pos hpos ha, cmpi_ne_self]; exact select_andi_zero_left _ _ _

/-- The floor remainder as the host lowers it — the truncating remainder by the divisor (by one, were the divisor zero),
    plus the divisor where the remainder is not zero and its sign is not the divisor's — of a nonnegative number by a
    positive one is the numbers' remainder: neither the remainder nor the divisor is negative. -/
theorem floorRem_word {a n : Nat} (ha : a < 2 ^ 31) (h0 : 0 < n) (hn : n < 2 ^ 31) :
    Scalar.select
      (IntOp.andi
        (IntOp.cmpi .ne
          (IntOp.cmpi .slt (IntOp.remsi .host (BitVec.ofNat 32 a)
            (Scalar.select (IntOp.cmpi .eq (BitVec.ofNat 32 n) 0#32) 1#32 (BitVec.ofNat 32 n))) 0#32)
          (IntOp.cmpi .slt (Scalar.select (IntOp.cmpi .eq (BitVec.ofNat 32 n) 0#32) 1#32 (BitVec.ofNat 32 n)) 0#32))
        (IntOp.cmpi .ne (IntOp.remsi .host (BitVec.ofNat 32 a)
          (Scalar.select (IntOp.cmpi .eq (BitVec.ofNat 32 n) 0#32) 1#32 (BitVec.ofNat 32 n))) 0#32))
      (IntOp.addi (IntOp.remsi .host (BitVec.ofNat 32 a)
          (Scalar.select (IntOp.cmpi .eq (BitVec.ofNat 32 n) 0#32) 1#32 (BitVec.ofNat 32 n)))
        (Scalar.select (IntOp.cmpi .eq (BitVec.ofNat 32 n) 0#32) 1#32 (BitVec.ofNat 32 n)))
      (IntOp.remsi .host (BitVec.ofNat 32 a)
        (Scalar.select (IntOp.cmpi .eq (BitVec.ofNat 32 n) 0#32) 1#32 (BitVec.ofNat 32 n))) = BitVec.ofNat 32 (a % n) := by
  have hr : a % n < 2 ^ 31 := lt_of_le_of_lt (Nat.mod_le a n) ha
  rw [cmpi_eq_zero h0 (by omega), select_zero, remsi_ofNat ha h0 hn, cmpi_slt_zero hr, cmpi_slt_zero hn, cmpi_ne_self]
  exact select_andi_zero_left _ _ _

/-! ## The host's chain -/

/-- The positions' shape and the scalar shape. -/
abbrev PosShape : Shape := ⟨1, ![16384]⟩
@[inherit_doc PosShape] abbrev ScalarShape : Shape := ⟨0, ![]⟩

/-- jnp's `floor_divide` of a vector by a scalar as the host program states it, operation by operation. -/
def floorDiv (hb : ScalarShape.BroadcastsInDim PosShape (![] : Fin 0 → Fin 1))
    (arg0 : IVec PosShape 32) (arg1 : IVec ScalarShape 32) : IVec PosShape 32 :=
  let v0 : IVec ScalarShape 32 := id arg1
  let v1 : IVec PosShape 32 := broadcastInDim (s := ScalarShape) PosShape ![] hb v0
  let v2 : IVec PosShape 32 := Host.divsi arg0 v1
  let v3 : IVec PosShape 32 := signi arg0
  let v4 : IVec ScalarShape 32 := signi v0
  let v5 : IVec PosShape 32 := broadcastInDim (s := ScalarShape) PosShape ![] hb v4
  let v6 : IVec PosShape 1 := cmpi .ne v3 v5
  let v7 : IVec PosShape 32 := broadcastInDim (s := ScalarShape) PosShape ![] hb v0
  let v8 : IVec PosShape 32 := Host.remsi arg0 v7
  let c : IVec ScalarShape 32 := constantI ScalarShape 32 0#32
  let v9 : IVec PosShape 32 := broadcastInDim (s := ScalarShape) PosShape ![] hb c
  let v10 : IVec PosShape 1 := cmpi .ne v8 v9
  let v11 : IVec PosShape 1 := andi v6 v10
  let c_0 : IVec ScalarShape 32 := constantI ScalarShape 32 1#32
  let v12 : IVec PosShape 32 := broadcastInDim (s := ScalarShape) PosShape ![] hb c_0
  let v13 : IVec PosShape 32 := subi v2 v12
  select v11 v13 v2

/-- jnp's `remainder` of a vector by a scalar as the host program states it, operation by operation. -/
def floorRem (hb : ScalarShape.BroadcastsInDim PosShape (![] : Fin 0 → Fin 1))
    (arg0 : IVec PosShape 32) (arg1 : IVec ScalarShape 32) : IVec PosShape 32 :=
  let v0 : IVec ScalarShape 32 := id arg1
  let c : IVec ScalarShape 32 := constantI ScalarShape 32 0#32
  let v1 : IVec ScalarShape 1 := cmpi .eq v0 c
  let c_0 : IVec ScalarShape 32 := constantI ScalarShape 32 1#32
  let v2 : IVec ScalarShape 32 := select v1 c_0 v0
  let v3 : IVec PosShape 32 := broadcastInDim (s := ScalarShape) PosShape ![] hb v2
  let v4 : IVec PosShape 32 := Host.remsi arg0 v3
  let c_1 : IVec ScalarShape 32 := constantI ScalarShape 32 0#32
  let v5 : IVec PosShape 32 := broadcastInDim (s := ScalarShape) PosShape ![] hb c_1
  let v6 : IVec PosShape 1 := cmpi .ne v4 v5
  let c_2 : IVec ScalarShape 32 := constantI ScalarShape 32 0#32
  let v7 : IVec PosShape 32 := broadcastInDim (s := ScalarShape) PosShape ![] hb c_2
  let v8 : IVec PosShape 1 := cmpi .slt v4 v7
  let c_3 : IVec ScalarShape 32 := constantI ScalarShape 32 0#32
  let v9 : IVec ScalarShape 1 := cmpi .slt v2 c_3
  let v10 : IVec PosShape 1 := broadcastInDim (s := ScalarShape) PosShape ![] hb v9
  let v11 : IVec PosShape 1 := cmpi .ne v8 v10
  let v12 : IVec PosShape 1 := andi v11 v6
  let v13 : IVec PosShape 32 := broadcastInDim (s := ScalarShape) PosShape ![] hb v2
  let v14 : IVec PosShape 32 := addi v4 v13
  select v12 v14 v4

/-- The index list through the two functions above: the positions `p`, `p` floor-divided by 512 and that by 2, times
    four, plus `p` floor-modulo 4, times eight, added to `names`. -/
def hostIdxFn (hb : ScalarShape.BroadcastsInDim PosShape (![] : Fin 0 → Fin 1)) (names : IVec PosShape 32) :
    IVec PosShape 32 :=
  let v3 : IVec PosShape 32 := iotaInDim PosShape 32 0
  let c : IVec ScalarShape 32 := constantI ScalarShape 32 512#32
  let v4 : IVec PosShape 32 := floorDiv hb v3 c
  let c_0 : IVec ScalarShape 32 := constantI ScalarShape 32 2#32
  let v5 : IVec PosShape 32 := floorDiv hb v4 c_0
  let c_1 : IVec ScalarShape 32 := constantI ScalarShape 32 4#32
  let v6 : IVec PosShape 32 := broadcastInDim (s := ScalarShape) PosShape ![] hb c_1
  let v7 : IVec PosShape 32 := muli v5 v6
  let c_2 : IVec ScalarShape 32 := constantI ScalarShape 32 4#32
  let v8 : IVec PosShape 32 := floorRem hb v3 c_2
  let v9 : IVec PosShape 32 := addi v7 v8
  let c_3 : IVec ScalarShape 32 := constantI ScalarShape 32 8#32
  let v10 : IVec PosShape 32 := broadcastInDim (s := ScalarShape) PosShape ![] hb c_3
  let v11 : IVec PosShape 32 := muli v9 v10
  addi names v11

/-- The index list the host hands the kernel, operation by operation, each call of a function written out as the
    function's operations on the call's operands (`callK_…` are call `K`'s values): the value the host program's
    operations build for the list, as a function of `names`. (Each broadcast names its operand's shape, the scalar one,
    so that the empty list of axes is read at its type at once.) -/
def hostIdx (hb : ScalarShape.BroadcastsInDim PosShape (![] : Fin 0 → Fin 1)) (names : IVec PosShape 32) :
    IVec PosShape 32 :=
  let v3 : IVec PosShape 32 := iotaInDim PosShape 32 0
  let c : IVec ScalarShape 32 := constantI ScalarShape 32 512#32
  -- call 0: the floor quotient of the positions by 512
  let call0_v0 : IVec ScalarShape 32 := id c
  let call0_v1 : IVec PosShape 32 := broadcastInDim (s := ScalarShape) PosShape ![] hb call0_v0
  let call0_v2 : IVec PosShape 32 := Host.divsi v3 call0_v1
  let call0_v3 : IVec PosShape 32 := signi v3
  let call0_v4 : IVec ScalarShape 32 := signi call0_v0
  let call0_v5 : IVec PosShape 32 := broadcastInDim (s := ScalarShape) PosShape ![] hb call0_v4
  let call0_v6 : IVec PosShape 1 := cmpi .ne call0_v3 call0_v5
  let call0_v7 : IVec PosShape 32 := broadcastInDim (s := ScalarShape) PosShape ![] hb call0_v0
  let call0_v8 : IVec PosShape 32 := Host.remsi v3 call0_v7
  let call0_c : IVec ScalarShape 32 := constantI ScalarShape 32 0#32
  let call0_v9 : IVec PosShape 32 := broadcastInDim (s := ScalarShape) PosShape ![] hb call0_c
  let call0_v10 : IVec PosShape 1 := cmpi .ne call0_v8 call0_v9
  let call0_v11 : IVec PosShape 1 := andi call0_v6 call0_v10
  let call0_c_0 : IVec ScalarShape 32 := constantI ScalarShape 32 1#32
  let call0_v12 : IVec PosShape 32 := broadcastInDim (s := ScalarShape) PosShape ![] hb call0_c_0
  let call0_v13 : IVec PosShape 32 := subi call0_v2 call0_v12
  let v4 : IVec PosShape 32 := select call0_v11 call0_v13 call0_v2
  let c_0 : IVec ScalarShape 32 := constantI ScalarShape 32 2#32
  -- call 1: the floor quotient of that by 2
  let call1_v0 : IVec ScalarShape 32 := id c_0
  let call1_v1 : IVec PosShape 32 := broadcastInDim (s := ScalarShape) PosShape ![] hb call1_v0
  let call1_v2 : IVec PosShape 32 := Host.divsi v4 call1_v1
  let call1_v3 : IVec PosShape 32 := signi v4
  let call1_v4 : IVec ScalarShape 32 := signi call1_v0
  let call1_v5 : IVec PosShape 32 := broadcastInDim (s := ScalarShape) PosShape ![] hb call1_v4
  let call1_v6 : IVec PosShape 1 := cmpi .ne call1_v3 call1_v5
  let call1_v7 : IVec PosShape 32 := broadcastInDim (s := ScalarShape) PosShape ![] hb call1_v0
  let call1_v8 : IVec PosShape 32 := Host.remsi v4 call1_v7
  let call1_c : IVec ScalarShape 32 := constantI ScalarShape 32 0#32
  let call1_v9 : IVec PosShape 32 := broadcastInDim (s := ScalarShape) PosShape ![] hb call1_c
  let call1_v10 : IVec PosShape 1 := cmpi .ne call1_v8 call1_v9
  let call1_v11 : IVec PosShape 1 := andi call1_v6 call1_v10
  let call1_c_0 : IVec ScalarShape 32 := constantI ScalarShape 32 1#32
  let call1_v12 : IVec PosShape 32 := broadcastInDim (s := ScalarShape) PosShape ![] hb call1_c_0
  let call1_v13 : IVec PosShape 32 := subi call1_v2 call1_v12
  let v5 : IVec PosShape 32 := select call1_v11 call1_v13 call1_v2
  let c_1 : IVec ScalarShape 32 := constantI ScalarShape 32 4#32
  let v6 : IVec PosShape 32 := broadcastInDim (s := ScalarShape) PosShape ![] hb c_1
  let v7 : IVec PosShape 32 := muli v5 v6
  let c_2 : IVec ScalarShape 32 := constantI ScalarShape 32 4#32
  -- call 2: the floor remainder of the positions by 4
  let call2_v0 : IVec ScalarShape 32 := id c_2
  let call2_c : IVec ScalarShape 32 := constantI ScalarShape 32 0#32
  let call2_v1 : IVec ScalarShape 1 := cmpi .eq call2_v0 call2_c
  let call2_c_0 : IVec ScalarShape 32 := constantI ScalarShape 32 1#32
  let call2_v2 : IVec ScalarShape 32 := select call2_v1 call2_c_0 call2_v0
  let call2_v3 : IVec PosShape 32 := broadcastInDim (s := ScalarShape) PosShape ![] hb call2_v2
  let call2_v4 : IVec PosShape 32 := Host.remsi v3 call2_v3
  let call2_c_1 : IVec ScalarShape 32 := constantI ScalarShape 32 0#32
  let call2_v5 : IVec PosShape 32 := broadcastInDim (s := ScalarShape) PosShape ![] hb call2_c_1
  let call2_v6 : IVec PosShape 1 := cmpi .ne call2_v4 call2_v5
  let call2_c_2 : IVec ScalarShape 32 := constantI ScalarShape 32 0#32
  let call2_v7 : IVec PosShape 32 := broadcastInDim (s := ScalarShape) PosShape ![] hb call2_c_2
  let call2_v8 : IVec PosShape 1 := cmpi .slt call2_v4 call2_v7
  let call2_c_3 : IVec ScalarShape 32 := constantI ScalarShape 32 0#32
  let call2_v9 : IVec ScalarShape 1 := cmpi .slt call2_v2 call2_c_3
  let call2_v10 : IVec PosShape 1 := broadcastInDim (s := ScalarShape) PosShape ![] hb call2_v9
  let call2_v11 : IVec PosShape 1 := cmpi .ne call2_v8 call2_v10
  let call2_v12 : IVec PosShape 1 := andi call2_v11 call2_v6
  let call2_v13 : IVec PosShape 32 := broadcastInDim (s := ScalarShape) PosShape ![] hb call2_v2
  let call2_v14 : IVec PosShape 32 := addi call2_v4 call2_v13
  let v8 : IVec PosShape 32 := select call2_v12 call2_v14 call2_v4
  let v9 : IVec PosShape 32 := addi v7 v8
  let c_3 : IVec ScalarShape 32 := constantI ScalarShape 32 8#32
  let v10 : IVec PosShape 32 := broadcastInDim (s := ScalarShape) PosShape ![] hb c_3
  let v11 : IVec PosShape 32 := muli v9 v10
  addi names v11

/-- Writing the calls out changes nothing: the two forms of the list are the same function. -/
theorem hostIdx_eq_hostIdxFn (hb : ScalarShape.BroadcastsInDim PosShape (![] : Fin 0 → Fin 1))
    (names : IVec PosShape 32) : hostIdx hb names = hostIdxFn hb names := rfl

/-! ## The chain at a position -/

variable (hb : ScalarShape.BroadcastsInDim PosShape (![] : Fin 0 → Fin 1))

/-- The floor quotient of a vector by a positive constant, at a position whose entry is a nonnegative number. -/
theorem floorDiv_apply (x : IVec PosShape 32) (i : PosShape.Idx) {a n : Nat} (hx : x i = BitVec.ofNat 32 a)
    (ha : a < 2 ^ 31) (h0 : 0 < n) (hn : n < 2 ^ 31) :
    floorDiv hb x (constantI ScalarShape 32 (BitVec.ofNat 32 n)) i = BitVec.ofNat 32 (a / n) := by
  show Scalar.select
      (IntOp.andi (IntOp.cmpi .ne (sgn (x i)) (sgn (BitVec.ofNat 32 n)))
        (IntOp.cmpi .ne (IntOp.remsi .host (x i) (BitVec.ofNat 32 n)) 0#32))
      (IntOp.subi (IntOp.divsi .host (x i) (BitVec.ofNat 32 n)) 1#32)
      (IntOp.divsi .host (x i) (BitVec.ofNat 32 n)) = BitVec.ofNat 32 (a / n)
  rw [hx]; exact floorDiv_word ha h0 hn

/-- The floor remainder of a vector by a positive constant, at a position whose entry is a nonnegative number. -/
theorem floorRem_apply (x : IVec PosShape 32) (i : PosShape.Idx) {a n : Nat} (hx : x i = BitVec.ofNat 32 a)
    (ha : a < 2 ^ 31) (h0 : 0 < n) (hn : n < 2 ^ 31) :
    floorRem hb x (constantI ScalarShape 32 (BitVec.ofNat 32 n)) i = BitVec.ofNat 32 (a % n) := by
  show Scalar.select
      (IntOp.andi
        (IntOp.cmpi .ne
          (IntOp.cmpi .slt (IntOp.remsi .host (x i)
            (Scalar.select (IntOp.cmpi .eq (BitVec.ofNat 32 n) 0#32) 1#32 (BitVec.ofNat 32 n))) 0#32)
          (IntOp.cmpi .slt (Scalar.select (IntOp.cmpi .eq (BitVec.ofNat 32 n) 0#32) 1#32 (BitVec.ofNat 32 n)) 0#32))
        (IntOp.cmpi .ne (IntOp.remsi .host (x i)
          (Scalar.select (IntOp.cmpi .eq (BitVec.ofNat 32 n) 0#32) 1#32 (BitVec.ofNat 32 n))) 0#32))
      (IntOp.addi (IntOp.remsi .host (x i)
          (Scalar.select (IntOp.cmpi .eq (BitVec.ofNat 32 n) 0#32) 1#32 (BitVec.ofNat 32 n)))
        (Scalar.select (IntOp.cmpi .eq (BitVec.ofNat 32 n) 0#32) 1#32 (BitVec.ofNat 32 n)))
      (IntOp.remsi .host (x i)
        (Scalar.select (IntOp.cmpi .eq (BitVec.ofNat 32 n) 0#32) 1#32 (BitVec.ofNat 32 n))) = BitVec.ofNat 32 (a % n)
  rw [hx]; exact floorRem_word ha h0 hn

/-- The host's index list is the specification's: at position `p` it adds `((p / 1024) * 4 + p % 4) * 8` to `names p`. -/
theorem hostIdxFn_eq (names : IVec PosShape 32) : hostIdxFn hb names = Cert.Lookup.idxList names := by
  funext i
  have hp : (i 0).val < 16384 := (i 0).isLt
  have h3 : (iotaInDim PosShape 32 0 : IVec PosShape 32) i = BitVec.ofNat 32 (i 0).val := rfl
  have h4 := floorDiv_apply hb (iotaInDim PosShape 32 0) i (n := 512) h3 (by omega) (by omega) (by omega)
  have h5 := floorDiv_apply hb (floorDiv hb (iotaInDim PosShape 32 0) (constantI ScalarShape 32 512#32)) i (n := 2) h4
    (by omega) (by omega) (by omega)
  have h8 := floorRem_apply hb (iotaInDim PosShape 32 0) i (n := 4) h3 (by omega) (by omega) (by omega)
  show names i + ((floorDiv hb (floorDiv hb (iotaInDim PosShape 32 0) (constantI ScalarShape 32 512#32))
      (constantI ScalarShape 32 2#32) i * BitVec.ofNat 32 4
        + floorRem hb (iotaInDim PosShape 32 0) (constantI ScalarShape 32 4#32) i) * BitVec.ofNat 32 8)
    = names i + BitVec.ofNat 32 ((((i 0).val / 1024) * 4 + (i 0).val % 4) * 8)
  rw [h5, h8, ← BitVec.ofNat_mul, ← BitVec.ofNat_add, ← BitVec.ofNat_mul, Nat.div_div_eq_div_mul]

@[inherit_doc hostIdxFn_eq]
theorem hostIdx_eq (names : IVec PosShape 32) : hostIdx hb names = Cert.Lookup.idxList names :=
  (hostIdx_eq_hostIdxFn hb names).trans (hostIdxFn_eq hb names)

end Cert.HostChain

end
-- ==== Proof.HostRep.lean ====
/-
  The replicated table the host program builds before it calls the kernel, as a pure function of the
  argument `emb`, and its closed form.

  The host reshapes the eight-row table to `[1, 8, 1, 128]`, broadcasts it along the first axis to
  `[128, 8, 1, 128]` and reshapes that to `[1024, 128]`. Row `r = 8 a + b` of the result is entry
  `(a, b, 0, ·)` of the broadcast, which is row `b` of the table: the table repeated 128 times. Pure
  data movement, the same at every float instance.
-/
import proofs.«207026_g3393024164394_cont_8to1_b_908_22_alg».proof.Proof.Spec
import Idealize.ShloMosaic.PureOps
import Idealize.ShloMosaic.Lib.ValueIdx
import Idealize.ShloMosaic.Lib.Pipeline.Value

namespace Cert.HostChain

open Idealize.ShloMosaic Idealize.ShloMosaic.ValueIdx

/-- The replicated table, operation by operation: a reshape, a broadcast along the new leading axis, a reshape. -/
def hostRep (h1 : (⟨2, ![8, 128]⟩ : Shape).ShapeCasts ⟨4, ![1, 8, 1, 128]⟩)
    (h2 : (⟨4, ![1, 8, 1, 128]⟩ : Shape).BroadcastsInDim ⟨4, ![128, 8, 1, 128]⟩ (![0, 1, 2, 3] : Fin 4 → Fin 4))
    (h3 : (⟨4, ![128, 8, 1, 128]⟩ : Shape).ShapeCasts ⟨2, ![1024, 128]⟩)
    {F : FTy → Type} (emb : FVec F ⟨2, ![8, 128]⟩ .f32) : FVec F ⟨2, ![1024, 128]⟩ .f32 :=
  let v0 : FVec F ⟨4, ![1, 8, 1, 128]⟩ .f32 := shapeCast ⟨4, ![1, 8, 1, 128]⟩ emb h1
  let v1 : FVec F ⟨4, ![128, 8, 1, 128]⟩ .f32 := broadcastInDim ⟨4, ![128, 8, 1, 128]⟩ ![0, 1, 2, 3] h2 v0
  shapeCast ⟨2, ![1024, 128]⟩ v1 h3

/-- Row `r` of the replicated table is row `r mod 8` of the table. -/
theorem hostRep_apply (h1 : (⟨2, ![8, 128]⟩ : Shape).ShapeCasts ⟨4, ![1, 8, 1, 128]⟩)
    (h2 : (⟨4, ![1, 8, 1, 128]⟩ : Shape).BroadcastsInDim ⟨4, ![128, 8, 1, 128]⟩ (![0, 1, 2, 3] : Fin 4 → Fin 4))
    (h3 : (⟨4, ![128, 8, 1, 128]⟩ : Shape).ShapeCasts ⟨2, ![1024, 128]⟩)
    {F : FTy → Type} (emb : FVec F ⟨2, ![8, 128]⟩ .f32) (r : Fin 1024) (q : Fin 128) :
    hostRep h1 h2 h3 emb (ix2 r q) = emb (ix2 (⟨r.val % 8, Nat.mod_lt _ (by decide)⟩ : Fin 8) q) := by
  have hr : r.val < 1024 := r.isLt
  show shapeCast ⟨2, ![1024, 128]⟩
      (broadcastInDim ⟨4, ![128, 8, 1, 128]⟩ ![0, 1, 2, 3] h2 (shapeCast ⟨4, ![1, 8, 1, 128]⟩ emb h1)) h3 (ix2 r q)
    = emb (ix2 (⟨r.val % 8, Nat.mod_lt _ (by decide)⟩ : Fin 8) q)
  -- the last reshape: row `r` is entry `(r / 8, r mod 8, 0, ·)` of the broadcast
  refine (shapeCast_apply (s := ⟨4, ![128, 8, 1, 128]⟩) (t := ⟨2, ![1024, 128]⟩) _ h3 (ix2 r q)
    (ix4 (⟨r.val / 8, by omega⟩ : Fin 128) (⟨r.val % 8, Nat.mod_lt _ (by decide)⟩ : Fin 8) (0 : Fin 1) q) (by
      rw [Shape.rowMajor_val_four, Shape.rowMajor_val_two]
      show ((r.val / 8 * 8 + r.val % 8) * 1 + 0) * 128 + q.val = r.val * 128 + q.val
      rw [Nat.mul_one, Nat.add_zero, Nat.div_add_mod'])).trans ?_
  -- the broadcast: the leading coordinate is dropped
  refine (broadcastInDim_apply (s := ⟨4, ![1, 8, 1, 128]⟩) (t := ⟨4, ![128, 8, 1, 128]⟩) ![0, 1, 2, 3] h2 _ _
    (ix4 (0 : Fin 1) (⟨r.val % 8, Nat.mod_lt _ (by decide)⟩ : Fin 8) (0 : Fin 1) q) (by
      intro a
      match a with
      | ⟨0, _⟩ => rfl
      | ⟨1, _⟩ => rfl
      | ⟨2, _⟩ => rfl
      | ⟨3, _⟩ => rfl)).trans ?_
  -- the first reshape: entry `(0, b, 0, q)` is entry `(b, q)` of the table
  exact shapeCast_apply (s := ⟨2, ![8, 128]⟩) (t := ⟨4, ![1, 8, 1, 128]⟩) emb h1 _
    (ix2 (⟨r.val % 8, Nat.mod_lt _ (by decide)⟩ : Fin 8) q) (by
      rw [Shape.rowMajor_val_four, Shape.rowMajor_val_two]
      show r.val % 8 * 128 + q.val = ((0 * 8 + r.val % 8) * 1 + 0) * 128 + q.val
      rw [Nat.zero_mul, Nat.zero_add, Nat.mul_one, Nat.add_zero])

/-- The host's replicated table is the specification's. -/
theorem hostRep_eq (h1 : (⟨2, ![8, 128]⟩ : Shape).ShapeCasts ⟨4, ![1, 8, 1, 128]⟩)
    (h2 : (⟨4, ![1, 8, 1, 128]⟩ : Shape).BroadcastsInDim ⟨4, ![128, 8, 1, 128]⟩ (![0, 1, 2, 3] : Fin 4 → Fin 4))
    (h3 : (⟨4, ![128, 8, 1, 128]⟩ : Shape).ShapeCasts ⟨2, ![1024, 128]⟩)
    {F : FTy → Type} (emb : FVec F ⟨2, ![8, 128]⟩ .f32) :
    hostRep h1 h2 h3 emb = Cert.Lookup.repTable emb := by
  funext j
  obtain ⟨r, q, rfl⟩ : ∃ (r : Fin 1024) (q : Fin 128), j = ix2 r q := ⟨j 0, j 1, eq_ix2 j⟩
  rw [hostRep_apply]
  rfl

end Cert.HostChain
-- ==== Proof.IdealMainHost.lean ====
/-
  The two arrays the TensorCore hands the SparseCores are the specification's. Read at the buffer of the index list,
  the seventy operations compose to the host chain for the index list; read at the buffer of the repeated table, to
  the reshape, broadcast and reshape that repeat the table. Both chains are the specification's arrays, so @main's
  run needs no assumption about them.
-/
import proofs.«207026_g3393024164394_cont_8to1_b_908_22_alg».proof.Proof.IdealMain
import proofs.«207026_g3393024164394_cont_8to1_b_908_22_alg».proof.Proof.HostIdx
import proofs.«207026_g3393024164394_cont_8to1_b_908_22_alg».proof.Proof.HostRep

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

-- sixty operations deep, each value read back through its typed buffer
set_option maxHeartbeats 1000000 in
/-- At the index list's buffer the operations compose to the host chain for the index list: each operation's result
    read at its own buffer, the transports between a buffer's type and its value's type (identities) removed, the two
    terms are the same. -/
theorem idx_after (W : Valuation τ sig (Elt F)) :
    StableHlo.after ops W idx' = Cert.HostChain.hostIdx bcast_S_S16384 (W names') := by
  after_results_simp
  simp only [StableHlo.TRef.ofBuf, StableHlo.TRef.toBuf, cast_eq]
  rfl

/-- which is the specification's index list. -/
theorem idx_spec (W : Valuation τ sig (Elt F)) : StableHlo.after ops W idx' = Cert.Lookup.idxList (W names') :=
  (idx_after W).trans (Cert.HostChain.hostIdx_eq _ _)

/-- At the repeated table's buffer they compose to the reshape, the broadcast along the new axis and the reshape, -/
theorem rep_after (W : Valuation τ sig (Elt F)) :
    StableHlo.after ops W rep'
      = Cert.HostChain.hostRep shapeCasts_S8x128_S1x8x1x128 bcast_S1x8x1x128_S128x8x1x128_0_1_2_3
          shapeCasts_S128x8x1x128_S1024x128 (F := F) (W emb') := by
  after_results_simp
  rfl

/-- which is the specification's repeated table. -/
theorem rep_spec (W : Valuation τ sig (Elt F)) : StableHlo.after ops W rep' = Cert.Lookup.repTable (F := F) (W emb') :=
  (rep_after W).trans (Cert.HostChain.hostRep_eq _ _ _ _)

/-- @main on device `d`'s TensorCore, with nothing assumed of the two arrays. -/
theorem hmain' (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) :=
  hmain m ρ idx_spec rep_spec κ d

end Cert.Proof.KernelIdealSc

end
-- ==== Proof.IdealRun.lean ====
/-
  The lookup kernel's run: every weakly fair execution of the thirty-five threads ends, nothing faulting, with the
  result array holding the rows the lookup selects and the two argument arrays as they were.
-/
import proofs.«207026_g3393024164394_cont_8to1_b_908_22_alg».proof.Proof.IdealTile
import proofs.«207026_g3393024164394_cont_8to1_b_908_22_alg».proof.Proof.IdealSplit
import proofs.«207026_g3393024164394_cont_8to1_b_908_22_alg».proof.Proof.IdealMainHost

noncomputable section

namespace Cert.Proof.KernelIdealSc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the claim reads off the final memory: the result is the lookup of the arguments, the arguments are unchanged. -/
def QC : PUnit × MemSt nD τ sig (Elt F) → Prop := fun r => ∀ c : Dev nD,
  r.2.mem (outLoc c) = outC m c ∧ r.2.mem (namesLoc c) = m (namesLoc c) ∧ r.2.mem (embLoc c) = m (embLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain' m ρ) (fq m) (hfin m) (QC m) (fun _ h => h)

end Cert.Proof.KernelIdealSc

end
-- ==== Proof.RefRead.lean ====
/-
  The reference's value, as one function of its two arrays, and that function read at an index.

  `jnp.take(emb, names, axis=0)` first wraps a negative index once around the table (`names + 8` where
  `names < 0`), lays the indices out as a column, gathers one row of the table per index — a gather clamps its
  start index into `0 … 7` — and then replaces by a fill value every row whose index was not in `0 … 7`.
  Where every entry of `names` already lies in `0 … 7`: no index is negative, so the wrap changes nothing; every
  index is in range, so the mask is true everywhere and the fill value is never taken; and the clamp changes
  nothing either. What is left is row `names p` of the table at position `p`: the lookup. None of this looks
  at a float, so it holds at every float instance.
-/
import proofs.«207026_g3393024164394_cont_8to1_b_908_22_alg».proof.ReferenceIdeal
import proofs.«207026_g3393024164394_cont_8to1_b_908_22_alg».proof.Proof.Spec
import Idealize.ShloMosaic.Lib.Affine
import Idealize.ShloMosaic.Lib.ValueIdx
import Idealize.ShloMosaic.Lib.Pipeline.Value
import Idealize.ShloMosaic.PureOps.Reduce

noncomputable section

namespace Cert.ReferenceIdeal.RefValue

open Idealize.ShloMosaic Idealize.ShloMosaic.ValueIdx Cert.ReferenceIdeal

variable {F : FTy → Type} [FloatOps F] [Facts₀]
open Facts₀

/-! ## The value, operation by operation -/

/-- The indices with the negative ones wrapped once around the eight rows. -/
def wrapped (names : IVec S16384 32) : IVec S16384 32 :=
  select (cmpi .slt names (broadcastInDim S16384 ![] bcast_S_S16384 (constantI S_ 32 0#32)))
    (addi names (broadcastInDim S16384 ![] bcast_S_S16384 (constantI S_ 32 8#32))) names

/-- The wrapped indices as a column: one start index per position. -/
def column (names : IVec S16384 32) : IVec S16384x1 32 :=
  broadcastInDim S16384x1 ![0] bcast_S16384_S16384x1_0 (wrapped names)

/-- Which positions' start index lies in `0 … 7`: both comparisons, reduced over the column's one-entry axis. -/
def inRange (idx : IVec S16384x1 32) : IVec S16384 1 :=
  Host.reduce IntOp.andi
    (andi (cmpi .sge idx (broadcastInDim S16384x1 ![] bcast_S_S16384x1 (constantI S_ 32 0#32)))
      (cmpi .sle idx (broadcastInDim S16384x1 ![0, 1] bcast_S1x1_S16384x1_0_1
        (broadcastInDim S1x1 ![1] bcast_S1_S1x1_1 (constantI S1 32 7#32)))))
    (constantI S_ 1 1#1) reducesTo_S16384x1_S16384_d1 h_S_

/-- The reference's result: the gathered rows where the index was in range, the fill value elsewhere. -/
def value (names : IVec S16384 32) (emb : FVec F S8x128 .f32) : FVec F S16384x128 .f32 :=
  select (broadcastInDim S16384x128 ![0] bcast_S16384_S16384x128_0 (inRange (column names)))
    (Host.gather gather_S8x128_S16384x1_S16384x128_1_0_n_n_0_1_1128 emb (column names))
    (broadcastInDim S16384x128 ![] bcast_S_S16384x128 (constant S_ .f32 0x7FC00000#32))

/-! ## Words in `0 … 7` -/

/-- A word below eight reads the same signed and unsigned. -/
theorem toInt_of_lt_eight (x : BitVec 32) (h : x.toNat < 8) : x.toInt = x.toNat :=
  BitVec.toInt_eq_toNat_of_lt (by omega)

/-! ## The steps -/

/-- No index is negative: the wrap changes nothing. -/
theorem wrapped_eq (names : IVec S16384 32) (hlt : ∀ i, (names i).toNat < 8) : wrapped names = names := by
  funext i
  show Scalar.select (IntOp.cmpi .slt (names i) 0#32) (IntOp.addi (names i) 8#32) (names i) = names i
  have hn : ¬IntOp.cmpi .slt (names i) 0#32 = 1#1 := by
    rw [IntOp.cmpi_slt, toInt_of_lt_eight _ (hlt i), show (0#32 : BitVec 32).toInt = 0 from by decide]
    omega
  exact if_neg hn

/-- The column at position `p` holds `names p`. -/
theorem column_apply (names : IVec S16384 32) (hlt : ∀ i, (names i).toNat < 8) (p : Fin 16384) (z : Fin 1) :
    column names (ix2 p z) = names (ix1 p) := by
  unfold column
  rw [wrapped_eq names hlt]
  exact broadcastInDim_apply _ _ _ (ix2 p z) (ix1 p) (fun a => match a with | ⟨0, _⟩ => rfl)

/-- Every entry of the column is below eight. -/
theorem column_lt (names : IVec S16384 32) (hlt : ∀ i, (names i).toNat < 8) (j : S16384x1.Idx) :
    (column names j).toNat < 8 := by
  obtain ⟨p, z, rfl⟩ : ∃ (p : Fin 16384) (z : Fin 1), j = ix2 p z := ⟨j 0, j 1, eq_ix2 j⟩
  rw [column_apply names hlt]
  exact hlt _

/-- A left fold by `and` from 1 over words that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hf =>
    foldl_andi_one f l _ (IntOp.andi_eq_one.2 ⟨hi, hf a List.mem_cons_self⟩)
      (fun n hn => hf n (List.mem_cons_of_mem _ hn))

/-- Every start index in `0 … 7`: the mask is true at every position. -/
theorem inRange_eq (idx : IVec S16384x1 32) (h : ∀ j, (idx j).toNat < 8) : inRange idx = fun _ => 1#1 := by
  funext i
  unfold inRange
  rw [Host.reduce_eq_foldl]
  refine foldl_andi_one _ _ _ rfl (fun k _ => ?_)
  show IntOp.andi (IntOp.cmpi .sge (idx k) 0#32) (IntOp.cmpi .sle (idx k) 7#32) = 1#1
  refine IntOp.andi_eq_one.2 ⟨IntOp.cmpi_sge.2 ?_, IntOp.cmpi_sle.2 ?_⟩
  · rw [toInt_of_lt_eight _ (h k), show (0#32 : BitVec 32).toInt = 0 from by decide]
    omega
  · rw [toInt_of_lt_eight _ (h k), show (7#32 : BitVec 32).toInt = 7 from by decide]
    have := h k
    omega

/-- A start index read signed and clamped into the table's eight rows, as a gather clamps it. -/
def clampRow {w : Nat} (v : BitVec w) : Fin 8 := ⟨min v.toInt.toNat 7, by omega⟩

/-- The gather read at `(p, q)`: the table's entry `q` of the row the start index `idx[p, 0]` names, read signed
    and clamped into `0 … 7`. -/
theorem gather_apply {α : Type} {w : Nat} (x : S8x128.Idx → α) (idx : IVec S16384x1 w) (p : Fin 16384) (q : Fin 128) :
    Host.gather gather_S8x128_S16384x1_S16384x128_1_0_n_n_0_1_1128 x idx (ix2 p q)
      = x (ix2 (clampRow (idx (ix2 p (0 : Fin 1)))) q) := by
  unfold Host.gather
  refine congrArg x (funext fun a => Fin.ext ?_)
  match a with
  | ⟨0, _⟩ =>
    show gather_S8x128_S16384x1_S16384x128_1_0_n_n_0_1_1128.start (ix2 p q) idx 0 + gather_S8x128_S16384x1_S16384x128_1_0_n_n_0_1_1128.batchCoord (ix2 p q) 0 + gather_S8x128_S16384x1_S16384x128_1_0_n_n_0_1_1128.offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8x128_S16384x1_S16384x128_1_0_n_n_0_1_1128.startIndexMap from List.mem_singleton.mpr rfl)]
    have hsi : gather_S8x128_S16384x1_S16384x128_1_0_n_n_0_1_1128.siIdx (ix2 p q) ⟨List.idxOf (0 : Fin 2) gather_S8x128_S16384x1_S16384x128_1_0_n_n_0_1_1128.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show gather_S8x128_S16384x1_S16384x128_1_0_n_n_0_1_1128.start (ix2 p q) idx 1 + gather_S8x128_S16384x1_S16384x128_1_0_n_n_0_1_1128.batchCoord (ix2 p q) 1 + gather_S8x128_S16384x1_S16384x128_1_0_n_n_0_1_1128.offCoord (ix2 p q) 1 = _
    rw [GatherDims.batchCoord_eq_zero _ _ _ List.not_mem_nil]
    unfold GatherDims.start
    have hmap : ¬(1 : Fin 2) ∈ gather_S8x128_S16384x1_S16384x128_1_0_n_n_0_1_1128.startIndexMap := by
      show ¬(1 : Fin 2) ∈ ([0] : List (Fin 2))
      decide
    have hkept : (1 : Fin 2) ∈ gather_S8x128_S16384x1_S16384x128_1_0_n_n_0_1_1128.sKept :=
      (GatherDims.mem_sKept _ _).2 ⟨by show ¬(1 : Fin 2) ∈ ([0] : List (Fin 2)); decide, List.not_mem_nil⟩
    rw [dif_neg hmap]
    unfold GatherDims.offCoord
    rw [dif_pos hkept]
    simp only [Nat.zero_add]
    rfl

/-! ## The value is the lookup -/

/-- With every entry of `names` in `0 … 7` the reference's result is the lookup. -/
theorem value_eq_rows (names : IVec S16384 32) (emb : FVec F S8x128 .f32) (hlt : ∀ i, (names i).toNat < 8) :
    value names emb = Cert.Lookup.rows names emb := by
  funext j
  obtain ⟨p, q, rfl⟩ : ∃ (p : Fin 16384) (q : Fin 128), j = ix2 p q := ⟨j 0, j 1, eq_ix2 j⟩
  unfold value
  rw [inRange_eq _ (column_lt names hlt), select_apply]
  have hmask : broadcastInDim (s := S16384) S16384x128 ![0] bcast_S16384_S16384x128_0 (fun _ => (1#1 : BitVec 1)) (ix2 p q)
      = 1#1 := rfl
  rw [hmask, select_one, gather_apply, column_apply names hlt, Cert.Lookup.rows_apply]
  refine congrArg emb (congrArg (fun r : Fin 8 => ix2 r q) (Fin.ext ?_))
  show min (names (ix1 p)).toInt.toNat 7 = (Cert.Lookup.rowOf names p).val
  rw [Cert.Lookup.rowOf_val names p (hlt _), toInt_of_lt_eight _ (hlt _)]
  have := hlt (ix1 p)
  omega

end Cert.ReferenceIdeal.RefValue

end
-- ==== Proof.RefRun.lean ====
/-
  The reference's run. The reference program is one call of the function `_take`, which itself calls `_where`.
  A call executes the callee's body on its operands, each value of the body in a buffer of its own, so the program
  is a straight line of twenty-three operations. Listed in order with the calls unfolded at their sites, they are
  the program by unfolding its definitions;
  a straight line run from any memory ends with every buffer at the operations' composed value of the launch
  contents. At the result buffer that composed value is the function `RefValue.value` of the two argument
  arrays, and where every entry of `names` lies in `0 … 7` that function is the lookup.
-/
import proofs.«207026_g3393024164394_cont_8to1_b_908_22_alg».proof.Defs
import proofs.«207026_g3393024164394_cont_8to1_b_908_22_alg».proof.Proof.Spec
import proofs.«207026_g3393024164394_cont_8to1_b_908_22_alg».proof.Proof.RefRead
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Facts₀

variable {F : FTy → Type} [FloatOps F] [Facts]

/-- @main's operations in order, the calls unfolded: `_take`'s twenty-two with `_where`'s one select in the place
    of its call (the seventh), over the buffers of the one call @main makes. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 8#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 7#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S8x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

/-- @main is that straight line: the two functions' definitions unfolded at their calls, both sides are one chain of
    steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

-- the reduction and the gather are folds and searches over their operand's elements: kept folded, the equation never
-- looks inside them
attribute [local irreducible] Host.reduce Host.gather in
/-- The composed value at the result buffer is `value` of the two argument arrays: the fold unrolled, each operation's
    result read at its own buffer and passed over at every other; what is left is `value` with its definitions
    unfolded. -/
theorem out_eq (V : Valuation τ sig (Elt F)) :
    after ops V (main_v0 : DevRef τ sig) = value (V (main_arg0 : DevRef τ sig)) (V (main_arg1 : DevRef τ sig)) := by
  after_results
  rfl

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

/-- From any memory whose `names` lie in `0 … 7` on every device: every weakly fair execution of the reference
    terminates with the lookup in its result buffer and its two arguments unchanged. -/
theorem run (m : (ℓ : Loc Cert.ReferenceIdeal.nD Cert.ReferenceIdeal.τ Cert.ReferenceIdeal.sig) → Buf (Elt Ideal) ℓ)
    (g : Dev Cert.ReferenceIdeal.nD → PrngReg)
    (hlt : ∀ (c : Dev Cert.ReferenceIdeal.nD) i,
      (m ((c.tc : Thread Cert.ReferenceIdeal.nD Cert.ReferenceIdeal.τ).loc Cert.ReferenceIdeal.main_arg0) i).toNat < 8) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Lookup.rows (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v0).trans ((out_eq _).trans (value_eq_rows _ _ (hlt c))),
      (h c main_arg0).trans (arg0_eq _), (h c main_arg1).trans (arg1_eq _)⟩)
    (run_seq scopedRefs_eq scopedSems_eq (Cert.ReferenceIdeal.defs (F := Ideal)) (Cert.ReferenceIdeal.main (F := Ideal))
      (fun _ => ops) main_eq (fun _ => ops_sub) m g)

end Cert.ReferenceIdeal.RefValue

end
-- ==== Proof.PreDomain.lean ====
/-
  The precondition read back. The claim's precondition is a conjunction of two `jnp.all`s: every entry of the
  table is finite, and every entry of `names` lies between 0 and 7, both compared as signed 32-bit integers.
  Only the second half is opened here. A word whose signed reading is at least 0 has its top bit clear, so its
  signed and unsigned readings agree; being at most 7 as well, it is below eight as a natural number. The fact
  holds whatever the float instance is: the integer half never looks at a float.
-/
import proofs.«207026_g3393024164394_cont_8to1_b_908_22_alg».proof.Pre_input_domain
import Idealize.ShloMosaic.Lib.ReduceAll
import Idealize.ShloMosaic.Lib.ValueIdx

namespace Cert.PreDomain

open Idealize.ShloMosaic

/-- The rank-zero shape has one index. -/
instance : Subsingleton Cert.Pre_input_domain.S_.Idx := ⟨fun a b => funext fun d => d.elim0⟩

/-- A 32-bit word that reads, signed, between the words 0 and 7 is below eight read unsigned. -/
theorem toNat_lt_eight (x : BitVec 32) (h0 : (0#32 : BitVec 32).toInt ≤ x.toInt)
    (h7 : x.toInt ≤ (7#32 : BitVec 32).toInt) : x.toNat < 8 := by
  have e0 : (0#32 : BitVec 32).toInt = 0 := by decide
  have e7 : (7#32 : BitVec 32).toInt = 7 := by decide
  rw [e0] at h0
  rw [e7] at h7
  have hc := BitVec.toInt_eq_toNat_cond x
  split at hc <;> omega

/-- Under the precondition every entry of `names` is below eight. -/
theorem names_lt {F : FTy → Type} [FloatOps F] [Cert.Pre_input_domain.Facts]
    (names : IVec Cert.Pre_input_domain.S16384 32) (emb : FVec F Cert.Pre_input_domain.S8x128 .f32)
    (h : Cert.Pre_input_domain.fn (F := F) names emb = fun _ => 1#1) : ∀ i, (names i).toNat < 8 := by
  intro i
  -- the predicate's one element is 1
  have h0 := congrFun h ValueIdx.ix0
  dsimp only [Cert.Pre_input_domain.fn] at h0
  -- it is the conjunction of the two `all`s: keep the one over `names`
  have hall := (IntOp.andi_eq_one.1 h0).2
  -- an `all` that is 1 has a 1 at every index
  have hi := Host.reduce_andi_all _ _ _ _ _ hall i
  -- that 1 is the conjunction of the two comparisons at `i`
  obtain ⟨hge, hle⟩ := IntOp.andi_eq_one.1 hi
  exact toNat_lt_eight (names i) (IntOp.cmpi_sge.1 hge) (IntOp.cmpi_sle.1 hle)

end Cert.PreDomain
-- ==== Proof.Claims.lean ====
/-
  The claims about the idealized kernel and the reference.

  Under the precondition every entry of `names` lies in `0 … 7`. The kernel's run then ends with the result array at
  the lookup — position `p` holds row `names p` of the table — and both arguments as they were; the reference's run
  ends the same way. So each program's frame is its run with the result forgotten, and the two results, both the
  lookup of arguments that agree, are equal element by element: no arithmetic is done on the table's entries, so
  nothing depends on what an entry is.
-/
import proofs.«207026_g3393024164394_cont_8to1_b_908_22_alg».proof.Defs
import proofs.«207026_g3393024164394_cont_8to1_b_908_22_alg».proof.Proof.Gen.KernelIdeal
import proofs.«207026_g3393024164394_cont_8to1_b_908_22_alg».proof.Proof.Gen.ReferenceIdeal
import proofs.«207026_g3393024164394_cont_8to1_b_908_22_alg».proof.Proof.Gen.Pre_input_domain
import proofs.«207026_g3393024164394_cont_8to1_b_908_22_alg».proof.Proof.IdealRun
import proofs.«207026_g3393024164394_cont_8to1_b_908_22_alg».proof.Proof.RefRun
import proofs.«207026_g3393024164394_cont_8to1_b_908_22_alg».proof.Proof.PreDomain

noncomputable section

namespace Cert.Proof

open Idealize.ShloMosaic Idealize.SL.Sem

/-- Under the precondition the kernel's `names` lie in `0 … 7` on every device. -/
theorem preOK_KernelIdeal (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    Cert.Proof.KernelIdealSc.PreOK m :=
  fun d i => Cert.PreDomain.names_lt _ _ (hpre d) i

/-- The idealized kernel runs and leaves its arguments unchanged: its run with the result forgotten. -/
theorem frame_KernelIdeal :
    Cert.frame_KernelIdeal (hKernelIdeal := Cert.KernelIdeal.Gen.facts) (hPre_input_domain := Cert.Pre_input_domain.Gen.facts) :=
  fun m g hpre =>
    (θ_run (Cert.KernelIdeal.defs (F := Ideal)) _ _).mono (fun _ h c => ⟨(h c).2.1, (h c).2.2⟩)
      (Cert.Proof.KernelIdealSc.run_main (F := Ideal) m g (preOK_KernelIdeal m hpre))

/-- The reference runs and leaves its arguments unchanged: its run with the result forgotten. -/
theorem frame_ReferenceIdeal :
    Cert.frame_ReferenceIdeal (hReferenceIdeal := Cert.ReferenceIdeal.Gen.facts) (hPre_input_domain := Cert.Pre_input_domain.Gen.facts) :=
  fun m g hpre =>
    (θ_run (Cert.ReferenceIdeal.defs (F := Ideal)) _ _).mono (fun _ h c => (h c).2)
      (Cert.ReferenceIdeal.RefValue.run m g (fun c i => Cert.PreDomain.names_lt _ _ (hpre c) i))

/-- From memories that agree on the arguments both programs end with the lookup of those arguments. -/
theorem algebraic :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  have hlt : Cert.Proof.KernelIdealSc.PreOK m := preOK_KernelIdeal m hpre
  -- the reference's `names` are the kernel's
  have hlt' : ∀ (c : Dev Cert.ReferenceIdeal.nD) i,
      (m' ((c.tc : Thread Cert.ReferenceIdeal.nD Cert.ReferenceIdeal.τ).loc Cert.ReferenceIdeal.main_arg0) i).toNat < 8 := by
    intro c i
    rw [(hagree c).1]
    exact hlt c i
  refine ⟨fun c => Cert.Proof.KernelIdealSc.outC m c, ?_, ?_⟩
  · exact (θ_run (Cert.KernelIdeal.defs (F := Ideal)) _ _).mono (fun _ h c => h c)
      (Cert.Proof.KernelIdealSc.run_main (F := Ideal) m g hlt)
  · refine (θ_run (Cert.ReferenceIdeal.defs (F := Ideal)) _ _).mono (fun _ h c => ⟨?_, (h c).2.1, (h c).2.2⟩)
      (Cert.ReferenceIdeal.RefValue.run m' g' hlt')
    -- the reference's result is the lookup of its own arguments, which are the kernel's
    rw [(h c).1, (hagree c).1, (hagree c).2]

end Cert.Proof

end
-- ==== Proof.BitsProtocol.lean ====
/-
  The lookup kernel on the SparseCores: who holds what, and what the barrier carries.

  Thirty-two tasks run at once, one per vector subcore `(c, s)` of the two SparseCores; task `w = 2 s + c` serves the
  512 positions `512 w … 512 w + 511`. Each task copies its 512 indices into its own index scratch and 32 rows of the
  replicated table (rows `32 w … 32 w + 31`) into rows `32 s … 32 s + 31` of its SparseCore's shared table, waits for
  both, meets the fifteen other tasks of its SparseCore at the subcore barrier, gathers its 512 rows out of the shared
  table in eight lists of 64, and copies each gathered block to its place in the result.

  A gather reads the WHOLE shared table, of which a task wrote one sixteenth. So the barrier carries data: arriving,
  task `s` splits what it holds of its own rows into sixteen read shares and hands share `j` to task `j`'s round;
  leaving, task `j` has collected share `j` of every task's rows, that is share `j` of the whole table, at the
  contents every task wrote: row `r` of the shared table is row `r mod 8` of the table `emb`.
-/
import proofs.«207026_g3393024164394_cont_8to1_b_908_22_alg».proof.Defs
import proofs.«207026_g3393024164394_cont_8to1_b_908_22_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207026_g3393024164394_cont_8to1_b_908_22_alg».proof.Proof.Gen.Kernel
import proofs.«207026_g3393024164394_cont_8to1_b_908_22_alg».proof.Proof.Gen.Kernel.Skeleton

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
theorem nSub_eq : τ.nSub = 16 := rfl
theorem nSC_eq : τ.nSC = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the barrier cells', the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds library: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The launch memory, the arrays and the slices -/

variable (m : (ℓ : Loc nD τ sig) → Buf (Elt F) ℓ) (ρ : Dev nD → PrngReg)

abbrev namesLoc (d : Dev nD) : Loc nD τ sig := (SparseCore.T d).loc main_arg0
abbrev embLoc (d : Dev nD) : Loc nD τ sig := (SparseCore.T d).loc main_arg1
abbrev idxLoc (d : Dev nD) : Loc nD τ sig := (SparseCore.T d).loc main_v12
abbrev repLoc (d : Dev nD) : Loc nD τ sig := (SparseCore.T d).loc main_v2
abbrev outLoc (d : Dev nD) : Loc nD τ sig := (SparseCore.T d).loc main_v13
/-- SparseCore `c`'s shared table, as every tile of it addresses it. -/
abbrev shRef (c : Fin τ.nSC) : DevRef τ sig := ⟨.shared, ⟨0, by decide⟩, c⟩
abbrev shLoc (d : Dev nD) (c : Fin τ.nSC) : Loc nD τ sig := (d, shRef c)

abbrev iV : Memref sig .scVector .hbm S16384 .i32 := Memref.whole main_v12_scv
abbrev tV : Memref sig .scVector .hbm S1024x128 .f32 := Memref.whole main_v2_scv
abbrev oV : Memref sig .scVector .hbm S16384x128 .f32 := Memref.whole main_v13_scv
abbrev shV : Memref sig .scVector .shared S512x128 .f32 := Memref.whole cc0_scratch0
abbrev ixV : Memref sig .scVector .vmem S512 .i32 := Memref.whole cc0_scratch1
abbrev rwV : Memref sig .scVector .vmem S512x128 .f32 := Memref.whole cc0_scratch2

theorem hdivI : 32 ∣ S16384.size 0 := ⟨512, rfl⟩
theorem hdivT : 32 ∣ S1024x128.size 0 := ⟨32, rfl⟩
theorem hdivO : 256 ∣ S16384x128.size 0 := ⟨64, rfl⟩
theorem hdivS : 16 ∣ S512x128.size 0 := ⟨32, rfl⟩
/-- Task `w`'s 512 positions of the index list, its 32 rows of the replicated table, its 512 rows of the result; and
    task `s`'s 32 rows of its SparseCore's shared table. -/
abbrev iPart (w : Fin 32) : Rect S16384 := Rect.part (s := S16384) (a₀ := 0) hdivI w
abbrev tPart (w : Fin 32) : Rect S1024x128 := Rect.part (s := S1024x128) (a₀ := 0) hdivT w
abbrev oPart (k : Fin 256) : Rect S16384x128 := Rect.part (s := S16384x128) (a₀ := 0) hdivO k
abbrev sPart (s : Fin 16) : Rect S512x128 := Rect.part (s := S512x128) (a₀ := 0) hdivS s
abbrev iSet (w : Fin 32) : Finset S16384.Idx := ((iV).view.slice (iPart w)).set
abbrev tSet (w : Fin 32) : Finset S1024x128.Idx := ((tV).view.slice (tPart w)).set
abbrev oSet (k : Fin 256) : Finset S16384x128.Idx := ((oV).view.slice (oPart k)).set
abbrev sSet (s : Fin 16) : Finset S512x128.Idx := ((shV).view.slice (sPart s)).set

/-- The task of vector subcore `s` of SparseCore `c`: number `2 s + c`. -/
def taskOf (c : Fin 2) (s : Fin 16) : Fin 32 := ⟨s.val * 2 + c.val, by omega⟩
/-- The `r`-th block of 64 rows of task `w`'s part of the result: block `8 w + r` of the 256. -/
def chunkOf (w : Fin 32) (r : Fin 8) : Fin 256 := ⟨w.val * 8 + r.val, by omega⟩

/-! ## What the arrays hold -/

abbrev idxC (d : Dev nD) : Buf (Elt F) (idxLoc d) := Cert.Lookup.idxList (m (namesLoc d))
abbrev repC (d : Dev nD) : Buf (Elt F) (repLoc d) := Cert.Lookup.repTable (F := F) (m (embLoc d))
abbrev shC (d : Dev nD) (c : Fin τ.nSC) : Buf (Elt F) (shLoc d c) := Cert.Lookup.shTable (F := F) (m (embLoc d))
abbrev outC (d : Dev nD) : Buf (Elt F) (outLoc d) := Cert.Lookup.rows (F := F) (m (namesLoc d)) (m (embLoc d))

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Read share `j` of task `s`'s rows of SparseCore `c`'s shared table, at the replicated contents. -/
abbrev shTok (d : Dev nD) (c : Fin τ.nSC) (s j : Fin 16) : sProp 𝕄 :=
  shLoc d c ↦[sSet s]{Transfers.shareTok fullShare 16 j} shC m d c

/-- What task `n`'s duty in tile `j`'s round hands over: share `j` of task `n`'s rows. -/
def bPay (g : GSem nD τ sig) (n : ℕ) : sProp 𝕄 :=
  match g with
  | ((d, .scVector c j), _) => if h : n < 16 then shTok m d c ⟨n, h⟩ (Fin.cast nSub_eq j) else iprop(emp)
  | _ => iprop(emp)

/-- The barrier cells' schedule: one round on each, of one unit duty per tile of the SparseCore (named by its number),
    each handing over its share of its rows. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd (F := F) m).duties (bcell d c j) 0 = (Finset.univ : Finset (Fin τ.nSub)).image Fin.val := by
  simp [bRd, isBar]
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has a tile of SparseCore `c` owe for the barrier: a unit on every tile's cell of its SparseCore,
    at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-! ## The tile's own cells for the barrier: what the launch deals its proof -/

/-- Tile `(c, i)`'s barrier kit: every tile's cell invariant of its SparseCore and that each has reached round 0, its
    own position at the origin of round 0, its duty token in every tile's round 0, and the credit for the sixteen units
    of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- What task `w` takes of the three HBM arrays: its positions of the index list and its rows of the replicated table,
    to read; its eight blocks of the result, to write. -/
abbrev taskIn (d : Dev nD) (w : Fin 32) : sProp 𝕄 :=
  iprop((idxLoc d ↦[iSet w]{fullShare} idxC m d) ∗ (repLoc d ↦[tSet w]{fullShare} repC m d)
    ∗ bigSep Finset.univ fun r : Fin 8 => iprop(∃ f, outLoc d ↦[oSet (chunkOf w r)]{fullShare} f))
/-- What it brings back: the same, its blocks of the result now the rows the lookup selects. -/
abbrev taskOut (d : Dev nD) (w : Fin 32) : sProp 𝕄 :=
  iprop((idxLoc d ↦[iSet w]{fullShare} idxC m d) ∗ (repLoc d ↦[tSet w]{fullShare} repC m d)
    ∗ bigSep Finset.univ fun r : Fin 8 => outLoc d ↦[oSet (chunkOf w r)]{fullShare} outC m d)
/-- What task `s` brings back of its SparseCore's shared table: read share `s` of the whole, and what is left of its
    own rows after the sixteen shares it gave. -/
abbrev shBack (d : Dev nD) (c : Fin τ.nSC) (s : Fin 16) : sProp 𝕄 :=
  iprop((shLoc d c ↦{Transfers.shareTok fullShare 16 s} shC m d c) ∗ shLoc d c ↦[sSet s]{Transfers.shareDrop fullShare 16} shC m d c)

/-- The one call takes, for SparseCore `c`, its sixteen tasks' parts of the three arrays; each task its own and its rows
    of the shared table; each task's proof consumes its barrier kit; each tile owes its arrivals. -/
def P : (K (F := F)).Pay (nD := nD) (Val := Elt F) (Name := ℕ) (U := UU) where
  st := fun q d c => match q with | 0 => bigSep Finset.univ fun i : Fin 16 => taskIn m d (taskOf (Fin.cast nCore_zero c) i)
  dn := fun q d c => match q with | 0 => bigSep Finset.univ fun i : Fin 16 => taskOut m d (taskOf (Fin.cast nCore_zero c) i)
  go := fun q d c i => match q with
    | 0 => iprop(taskIn m d (taskOf (Fin.cast nCore_zero c) (Fin.cast nSub_zero i)) ∗ ∃ f, shLoc d (coreOf c) ↦[sSet (Fin.cast nSub_zero i)]{fullShare} f)
  td := fun q d c i => match q with
    | 0 => iprop(taskOut m d (taskOf (Fin.cast nCore_zero c) (Fin.cast nSub_zero i)) ∗ shBack m d (coreOf c) (Fin.cast nSub_zero i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i h
    obtain rfl : q = 0 := Subsingleton.elim _ _
    exact ⟨rfl, c.isLt, i.isLt⟩

instance P_storable : (P (F := F) m).IsStorable where
  st q d c := match q with
    | 0 => (inferInstance : BI.Storable (upEmb : UEmb _ 𝕄) (bigSep Finset.univ fun i : Fin 16 => taskIn m d (taskOf (Fin.cast nCore_zero c) i)))
  dn q d c := match q with
    | 0 => (inferInstance : BI.Storable (upEmb : UEmb _ 𝕄) (bigSep Finset.univ fun i : Fin 16 => taskOut m d (taskOf (Fin.cast nCore_zero c) i)))
  go q d c i := match q with
    | 0 => (inferInstance : BI.Storable (upEmb : UEmb _ 𝕄)
      iprop(taskIn m d (taskOf (Fin.cast nCore_zero c) (Fin.cast nSub_zero i)) ∗ ∃ f, shLoc d (coreOf c) ↦[sSet (Fin.cast nSub_zero i)]{fullShare} f))
  td q d c i := match q with
    | 0 => (inferInstance : BI.Storable (upEmb : UEmb _ 𝕄)
      iprop(taskOut m d (taskOf (Fin.cast nCore_zero c) (Fin.cast nSub_zero i)) ∗ shBack m d (coreOf c) (Fin.cast nSub_zero i)))

omit [FloatOps F] in
theorem sSet_eq (s : Fin 16) : sSet s = (sPart s).set := by
  show ((View.whole (cc0_scratch0 : Ref sig .scVector)).slice (sPart s)).set = _
  rw [View.set_slice]; exact Finset.map_refl
omit [FloatOps F] in
theorem sSets_disjoint : ∀ i ∈ (Finset.univ : Finset (Fin 16)), ∀ j ∈ (Finset.univ : Finset (Fin 16)), i ≠ j → Disjoint (sSet i) (sSet j) :=
  fun i _ j _ h => by rw [sSet_eq, sSet_eq]; exact Rect.part_disjoint hdivS h
omit [FloatOps F] in
theorem sSets_cover : (Finset.univ : Finset (Fin 16)).biUnion sSet = Finset.univ :=
  (Finset.biUnion_congr rfl fun i _ => sSet_eq i).trans (Rect.biUnion_part hdivS)

omit [FloatOps F] in
/-- A SparseCore's shared table, at any share, is its sixteen tasks' rows. -/
theorem shPts_rows (d : Dev nD) (c : Fin τ.nSC) (q : PosShare TreeShare) (f : Buf (Elt F) (shLoc d c)) :
    (shLoc d c ↦{q} f : sProp 𝕄) = bigSep Finset.univ fun s : Fin 16 => shLoc d c ↦[sSet s]{q} f := by
  rw [← pointsTo_biUnion Finset.univ (ℓ := shLoc d c) sSet sSets_disjoint, sSets_cover]; try rfl

end Cert.Proof.KernelSc

end
-- ==== Proof.BitsViews.lean ====
/-
  The pieces of the arrays one task of the lookup kernel works on, as its body slices them, and how they sit in the
  arrays the handshakes carry.
-/
import proofs.«207026_g3393024164394_cont_8to1_b_908_22_alg».proof.Proof.BitsProtocol

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- The claim's precondition, as the task uses it: every entry of `names` is one of the table's eight rows. -/
def PreOK : Prop := ∀ (d : Dev nD) (i : S16384.Idx), (m (namesLoc d) i).toNat < 8

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
omit [FloatOps F] in
theorem bound_zero : grid0.bound 0 = 2 := rfl
abbrev jL (L : grid0.Coords) : Fin 16 := Fin.cast bound_one (L 1)
abbrev cL (L : grid0.Coords) : Fin 2 := Fin.cast bound_zero (L 0)
abbrev wL (L : grid0.Coords) : Fin 32 := taskOf (cL L) (jL L)

/-- The task's pieces of the arrays, as the body slices them. -/
abbrev iSlc (L : grid0.Coords) : Memref sig .scVector .hbm S512 .i32 := (iV).slice (Rect.unit (s := S16384) (k0_off1 L) S512.size (k0_off1_inb L)) (fun _ => rfl)
abbrev sSlc (L : grid0.Coords) : Memref sig .scVector .shared S32x128 .f32 := (shV).slice (Rect.unit (s := S512x128) (k0_off2 L) S32x128.size (k0_off2_inb L)) (fun _ => rfl)
abbrev tSlc (L : grid0.Coords) : Memref sig .scVector .hbm S32x128 .f32 := (tV).slice (Rect.unit (s := S1024x128) (k0_off3 L) S32x128.size (k0_off3_inb L)) (fun _ => rfl)
abbrev oSlc (L : grid0.Coords) (r : Fin 8) : Memref sig .scVector .hbm S64x128 .f32 :=
  (oV).slice (Rect.unit (s := S16384x128) (k0_off4 L (BitVec.ofNat 32 (64 * r.val))) S64x128.size (k0_off4_inb L r)) (fun _ => rfl)

omit [FloatOps F] in
theorem iRect_eq : Rect.unit (s := S16384) (k0_off1 L) S512.size (k0_off1_inb L) = iPart (wL L) := by
  unfold iPart Rect.part Rect.block
  congr 1 <;> funext a
  · rw [k0_off1_eq]
    match a with
    | 0 => simp [Shape.partIx, Shape.partSize, taskOf]; omega
  · match a with
    | 0 => simp [Shape.partSize]
omit [FloatOps F] in
theorem sRect_eq : Rect.unit (s := S512x128) (k0_off2 L) S32x128.size (k0_off2_inb L) = sPart (jL L) := by
  unfold sPart Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]
omit [FloatOps F] in
theorem tRect_eq : Rect.unit (s := S1024x128) (k0_off3 L) S32x128.size (k0_off3_inb L) = tPart (wL L) := by
  unfold tPart Rect.part Rect.block
  congr 1 <;> funext a
  · rw [k0_off3_eq]
    match a with
    | 0 => simp [Shape.partIx, Shape.partSize, taskOf]; omega
    | 1 => simp [Shape.partIx, Shape.partSize]
  · match a with
    | 0 => simp [Shape.partSize]
    | 1 => simp [Shape.partSize]
omit [FloatOps F] in
theorem oRect_eq (r : Fin 8) : Rect.unit (s := S16384x128) (k0_off4 L (BitVec.ofNat 32 (64 * r.val))) S64x128.size (k0_off4_inb L r) = oPart (chunkOf (wL L) r) := by
  unfold oPart Rect.part Rect.block
  congr 1 <;> funext a
  · rw [k0_off4_eq]
    match a with
    | 0 => simp [Shape.partIx, Shape.partSize, taskOf, chunkOf]; omega
    | 1 => simp [Shape.partIx, Shape.partSize]
  · match a with
    | 0 => simp [Shape.partSize]
    | 1 => simp [Shape.partSize]

omit [FloatOps F] in
theorem set_iSlc : (iSlc L).view.set = iSet (wL L) := by
  show ((iV).view.slice (Rect.unit (s := S16384) (k0_off1 L) S512.size (k0_off1_inb L))).set = ((iV).view.slice (iPart (wL L))).set
  rw [iRect_eq]
omit [FloatOps F] in
theorem set_sSlc : (sSlc L).view.set = sSet (jL L) := by
  show ((shV).view.slice (Rect.unit (s := S512x128) (k0_off2 L) S32x128.size (k0_off2_inb L))).set = ((shV).view.slice (sPart (jL L))).set
  rw [sRect_eq]
omit [FloatOps F] in
theorem set_tSlc : (tSlc L).view.set = tSet (wL L) := by
  show ((tV).view.slice (Rect.unit (s := S1024x128) (k0_off3 L) S32x128.size (k0_off3_inb L))).set = ((tV).view.slice (tPart (wL L))).set
  rw [tRect_eq]
omit [FloatOps F] in
theorem set_oSlc (r : Fin 8) : (oSlc L r).view.set = oSet (chunkOf (wL L) r) := by
  show ((oV).view.slice (Rect.unit (s := S16384x128) (k0_off4 L (BitVec.ofNat 32 (64 * r.val))) S64x128.size (k0_off4_inb L r))).set = ((oV).view.slice (oPart (chunkOf (wL L) r))).set
  rw [oRect_eq]

omit [FloatOps F] in
theorem pts_iSlc (f : Buf (Elt F) (idxLoc d)) :
    ((iSlc L).view.loc (V d (cV L) (jV L)) ↦[(iSlc L).view.set]{fullShare} f : sProp 𝕄) = idxLoc d ↦[iSet (wL L)]{fullShare} f := by
  rw [set_iSlc]
omit [FloatOps F] in
theorem pts_tSlc (f : Buf (Elt F) (repLoc d)) :
    ((tSlc L).view.loc (V d (cV L) (jV L)) ↦[(tSlc L).view.set]{fullShare} f : sProp 𝕄) = repLoc d ↦[tSet (wL L)]{fullShare} f := by
  rw [set_tSlc]
omit [FloatOps F] in
theorem pts_sSlc (q : PosShare TreeShare) (f : Buf (Elt F) (shLoc d (cV L))) :
    ((sSlc L).view.loc (V d (cV L) (jV L)) ↦[(sSlc L).view.set]{q} f : sProp 𝕄) = shLoc d (cV L) ↦[sSet (jL L)]{q} f := by
  rw [set_sSlc]; rfl
omit [FloatOps F] in
theorem pts_oSlc (r : Fin 8) (f : Buf (Elt F) (outLoc d)) :
    ((oSlc L r).view.loc (V d (cV L) (jV L)) ↦[(oSlc L r).view.set]{fullShare} f : sProp 𝕄) = outLoc d ↦[oSet (chunkOf (wL L) r)]{fullShare} f := by
  rw [set_oSlc]

abbrev cIcell (d : Dev nD) (c : Fin τ.nSC) (i : Fin τ.nSub) : GSem nD τ sig := (V d c i, .dma cc0_scratch3.sem)
abbrev cScell (d : Dev nD) (c : Fin τ.nSC) (i : Fin τ.nSub) : GSem nD τ sig := (V d c i, .dma cc0_scratch4.sem)
abbrev cWcell (d : Dev nD) (c : Fin τ.nSC) (i : Fin τ.nSub) : GSem nD τ sig := (V d c i, .dma cc0_scratch6.sem)
abbrev gSems0 : DmaSems sig S_ := (cc0_scratch5.slice (Rect.unit (s := S8) ![0] S1.size inb_S8_S1_0)).squeeze S_ squeezes_S1_S_
abbrev cGcell0 (d : Dev nD) (c : Fin τ.nSC) (i : Fin τ.nSub) : GSem nD τ sig := (V d c i, .dma gSems0.sem)
abbrev gSems1 : DmaSems sig S_ := (cc0_scratch5.slice (Rect.unit (s := S8) ![1] S1.size inb_S8_S1_1)).squeeze S_ squeezes_S1_S_
abbrev cGcell1 (d : Dev nD) (c : Fin τ.nSC) (i : Fin τ.nSub) : GSem nD τ sig := (V d c i, .dma gSems1.sem)
abbrev gSems2 : DmaSems sig S_ := (cc0_scratch5.slice (Rect.unit (s := S8) ![2] S1.size inb_S8_S1_2)).squeeze S_ squeezes_S1_S_
abbrev cGcell2 (d : Dev nD) (c : Fin τ.nSC) (i : Fin τ.nSub) : GSem nD τ sig := (V d c i, .dma gSems2.sem)
abbrev gSems3 : DmaSems sig S_ := (cc0_scratch5.slice (Rect.unit (s := S8) ![3] S1.size inb_S8_S1_3)).squeeze S_ squeezes_S1_S_
abbrev cGcell3 (d : Dev nD) (c : Fin τ.nSC) (i : Fin τ.nSub) : GSem nD τ sig := (V d c i, .dma gSems3.sem)
abbrev gSems4 : DmaSems sig S_ := (cc0_scratch5.slice (Rect.unit (s := S8) ![4] S1.size inb_S8_S1_4)).squeeze S_ squeezes_S1_S_
abbrev cGcell4 (d : Dev nD) (c : Fin τ.nSC) (i : Fin τ.nSub) : GSem nD τ sig := (V d c i, .dma gSems4.sem)
abbrev gSems5 : DmaSems sig S_ := (cc0_scratch5.slice (Rect.unit (s := S8) ![5] S1.size inb_S8_S1_5)).squeeze S_ squeezes_S1_S_
abbrev cGcell5 (d : Dev nD) (c : Fin τ.nSC) (i : Fin τ.nSub) : GSem nD τ sig := (V d c i, .dma gSems5.sem)
abbrev gSems6 : DmaSems sig S_ := (cc0_scratch5.slice (Rect.unit (s := S8) ![6] S1.size inb_S8_S1_6)).squeeze S_ squeezes_S1_S_
abbrev cGcell6 (d : Dev nD) (c : Fin τ.nSC) (i : Fin τ.nSub) : GSem nD τ sig := (V d c i, .dma gSems6.sem)
abbrev gSems7 : DmaSems sig S_ := (cc0_scratch5.slice (Rect.unit (s := S8) ![7] S1.size inb_S8_S1_7)).squeeze S_ squeezes_S1_S_
abbrev cGcell7 (d : Dev nD) (c : Fin τ.nSC) (i : Fin τ.nSub) : GSem nD τ sig := (V d c i, .dma gSems7.sem)

omit [FloatOps F] in
theorem ne_cell (d : Dev nD) (c : Fin τ.nSC) (i : Fin τ.nSub) (a b : SemLoc sig) (h : a ≠ b) : ((V d c i, a) : GSem nD τ sig) ≠ (V d c i, b) :=
  fun e => h (Prod.mk.inj e).2

omit [FloatOps F] in
/-- The task's eleven transfer semaphores are among the subcore's own: they, at zero, and the rest. -/
theorem ownSems0_V :
    (ownSems0 (V d (cV L) (jV L)) : sProp 𝕄)
      = iprop(semVal (cIcell d (cV L) (jV L)) 0 ∗ semVal (cScell d (cV L) (jV L)) 0 ∗ semVal (cGcell0 d (cV L) (jV L)) 0 ∗ semVal (cGcell1 d (cV L) (jV L)) 0 ∗ semVal (cGcell2 d (cV L) (jV L)) 0 ∗ semVal (cGcell3 d (cV L) (jV L)) 0 ∗ semVal (cGcell4 d (cV L) (jV L)) 0 ∗ semVal (cGcell5 d (cV L) (jV L)) 0 ∗ semVal (cGcell6 d (cV L) (jV L)) 0 ∗ semVal (cGcell7 d (cV L) (jV L)) 0 ∗ semVal (cWcell d (cV L) (jV L)) 0
          ∗ bigSep ((((((((((((ownCells (V d (cV L) (jV L))).erase (cIcell d (cV L) (jV L))).erase (cScell d (cV L) (jV L))).erase (cGcell0 d (cV L) (jV L))).erase (cGcell1 d (cV L) (jV L))).erase (cGcell2 d (cV L) (jV L))).erase (cGcell3 d (cV L) (jV L))).erase (cGcell4 d (cV L) (jV L))).erase (cGcell5 d (cV L) (jV L))).erase (cGcell6 d (cV L) (jV L))).erase (cGcell7 d (cV L) (jV L))).erase (cWcell d (cV L) (jV L))) fun g => semVal g 0) := by
  unfold SparseCore.Cfg.ownSems0
  rw [SparseCore.bigSep_erase' ((mem_ownCells (g := cIcell d (cV L) (jV L))).mpr ⟨rfl, by show (SemLoc.dma cc0_scratch3.sem : SemLoc sig).isScoped .scVector = true; decide⟩),
    SparseCore.bigSep_erase' (Finset.mem_erase.mpr ⟨ne_cell d _ _ _ _ (by decide), (mem_ownCells (g := cScell d (cV L) (jV L))).mpr ⟨rfl, by show (SemLoc.dma cc0_scratch4.sem : SemLoc sig).isScoped .scVector = true; decide⟩⟩),
    SparseCore.bigSep_erase' (Finset.mem_erase.mpr ⟨ne_cell d _ _ _ _ (by decide), Finset.mem_erase.mpr ⟨ne_cell d _ _ _ _ (by decide), (mem_ownCells (g := cGcell0 d (cV L) (jV L))).mpr ⟨rfl, by show (SemLoc.dma gSems0.sem : SemLoc sig).isScoped .scVector = true; decide⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), (mem_ownCells (g := cGcell1 d (cV L) (jV L))).mpr ⟨rfl, by show (SemLoc.dma gSems1.sem : SemLoc sig).isScoped .scVector = true; decide⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell2 d (cV L) (jV L))).mpr ⟨rfl, by show (SemLoc.dma gSems2.sem : SemLoc sig).isScoped .scVector = true; decide⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell3 d (cV L) (jV L))).mpr ⟨rfl, by show (SemLoc.dma gSems3.sem : SemLoc sig).isScoped .scVector = true; decide⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell4 d (cV L) (jV L))).mpr ⟨rfl, by show (SemLoc.dma gSems4.sem : SemLoc sig).isScoped .scVector = true; decide⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell5 d (cV L) (jV L))).mpr ⟨rfl, by show (SemLoc.dma gSems5.sem : SemLoc sig).isScoped .scVector = true; decide⟩⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell6 d (cV L) (jV L))).mpr ⟨rfl, by show (SemLoc.dma gSems6.sem : SemLoc sig).isScoped .scVector = true; decide⟩⟩⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cGcell7 d (cV L) (jV L))).mpr ⟨rfl, by show (SemLoc.dma gSems7.sem : SemLoc sig).isScoped .scVector = true; decide⟩⟩⟩⟩⟩⟩⟩⟩⟩⟩),
    SparseCore.bigSep_erase' (Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), Finset.mem_erase.mpr ⟨ne_cell d _ _ _ _ (by decide), (mem_ownCells (g := cWcell d (cV L) (jV L))).mpr ⟨rfl, by show (SemLoc.dma cc0_scratch6.sem : SemLoc sig).isScoped .scVector = true; decide⟩⟩⟩⟩⟩⟩⟩⟩⟩⟩⟩)]

omit [FloatOps F] in
/-- The index scratch and the row scratch are among the subcore's own: they, at some contents, and the rest. -/
theorem ownBufs_V :
    (ownBufs (V d (cV L) (jV L)) : sProp 𝕄)
      = iprop((∃ f, (V d (cV L) (jV L)).loc cc0_scratch1 ↦{fullShare} f) ∗ (∃ f, (V d (cV L) (jV L)).loc cc0_scratch2 ↦{fullShare} f)
          ∗ bigSep (((ownRefs (τ := τ) (.scVector (cV L) (jV L))).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch1) rfl),
    SparseCore.bigSep_erase' (Finset.mem_erase.mpr ⟨(by intro e; cases e), SparseCore.Cfg.mem_ownRefs_of_owner (p := Proc.scVector (cV L) (jV L)) (b := (Proc.scVector (cV L) (jV L)).devRef cc0_scratch2) rfl⟩)]

omit [FloatOps F] in
theorem pts_ixV (f : Buf (Elt F) ((V d (cV L) (jV L)).loc cc0_scratch1)) :
    ((ixV).view.loc (V d (cV L) (jV L)) ↦{fullShare} f : sProp 𝕄) = (V d (cV L) (jV L)).loc cc0_scratch1 ↦{fullShare} f := rfl
omit [FloatOps F] in
theorem pts_rwV (f : Buf (Elt F) ((V d (cV L) (jV L)).loc cc0_scratch2)) :
    ((rwV).view.loc (V d (cV L) (jV L)) ↦{fullShare} f : sProp 𝕄) = (V d (cV L) (jV L)).loc cc0_scratch2 ↦{fullShare} f := rfl

/-- What this task's duty in tile `j`'s round hands over: read share `j` of its own rows. -/
theorem payload_out (j : Fin (grid0.bound 1)) :
    (bRd (F := F) m).payload (bcell d (cV L) (j.castLE hsub0)) 0 (jV L).val = shTok m d (cV L) (jL L) (Fin.cast bound_one j) := by
  show bPay m (bcell d (cV L) (j.castLE hsub0)) (jV L).val = _
  unfold bPay; dsimp only
  rw [dif_pos (show (jV L).val < 16 from (jL L).isLt)]
  rfl

/-- What task `s`'s duty in this tile's own round hands over: read share `jL L` of task `s`'s rows. -/
theorem payload_in (s : Fin 16) :
    (bRd (F := F) m).payload (bcell d (cV L) (jV L)) 0 s.val = shTok m d (cV L) s (jL L) := by
  show bPay m (bcell d (cV L) (jV L)) s.val = _
  unfold bPay; dsimp only
  rw [dif_pos s.isLt]
  rfl

/-- Arriving: the task's rows, split into what it keeps and a read share for each tile's round. -/
theorem pays_intro : (shLoc d (cV L) ↦[sSet (jL L)]{fullShare} shC m d (cV L) : sProp 𝕄)
    ⊢ iprop((shLoc d (cV L) ↦[sSet (jL L)]{Transfers.shareDrop fullShare 16} shC m d (cV L))
        ∗ bigSep Finset.univ fun j : Fin (grid0.bound 1) => (bRd (F := F) m).payload (bcell d (cV L) (j.castLE hsub0)) 0 (jV L).val) := by
  refine (Transfers.pointsTo_toks_split fullShare 16).trans (sep_mono (BI.Entails.refl _) (Entails.of_eq ?_))
  exact (bigSep_congr fun j _ => (payload_out m d L j).symm)

/-- Leaving: what the tile's own round collected is its read share of the whole shared table. -/
theorem pays_elim : (bigSep ((bRd (F := F) m).duties (bcell d (cV L) (jV L)) 0 \ ∅) fun n => (bRd (F := F) m).payload (bcell d (cV L) (jV L)) 0 n)
    ⊢ (shLoc d (cV L) ↦{Transfers.shareTok fullShare 16 (jL L)} shC m d (cV L) : sProp 𝕄) := by
  rw [Finset.sdiff_empty, bRd_duties₀, SparseCore.bigSep_image_of_injOn (fun a _ b _ e => Fin.val_injective e)]
  refine (Entails.of_eq ?_)
  rw [show (shLoc d (cV L) ↦{Transfers.shareTok fullShare 16 (jL L)} shC m d (cV L) : sProp 𝕄)
      = shLoc d (cV L) ↦[(Finset.univ : Finset (Fin 16)).biUnion sSet]{Transfers.shareTok fullShare 16 (jL L)} shC m d (cV L) from by rw [sSets_cover],
    pointsTo_biUnion Finset.univ (ℓ := shLoc d (cV L)) sSet sSets_disjoint]
  exact bigSep_congr fun s _ => payload_in m d L s

/-! ## The scratch buffers and the result's blocks, eight ways -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem bigSep_fin11 (Φ : Fin 11 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem hdivX : 8 ∣ S512.size 0 := ⟨64, rfl⟩
theorem hdivR : 8 ∣ S512x128.size 0 := ⟨64, rfl⟩
/-- Block `r` of 64 of the index scratch's 512 entries, and of the row scratch's 512 rows. -/
abbrev xPart (r : Fin 8) : Rect S512 := Rect.part (s := S512) (a₀ := 0) hdivX r
abbrev rPart (r : Fin 8) : Rect S512x128 := Rect.part (s := S512x128) (a₀ := 0) hdivR r
abbrev xSet (r : Fin 8) : Finset S512.Idx := ((ixV).view.slice (xPart r)).set
abbrev rSet (r : Fin 8) : Finset S512x128.Idx := ((rwV).view.slice (rPart r)).set

omit [FloatOps F] in
theorem xRect_eq (r : Fin 8) (hb : ∀ a, (![64 * r.val] : Fin 1 → Nat) a + S64.size a ≤ S512.size a) :
    Rect.unit (s := S512) ![64 * r.val] S64.size hb = xPart r := by
  unfold xPart Rect.part Rect.block
  congr 1 <;> funext a
  · match a with
    | 0 => simp [Shape.partIx, Shape.partSize]; omega
  · match a with
    | 0 => simp [Shape.partSize]
omit [FloatOps F] in
theorem rRect_eq (r : Fin 8) (hb : ∀ a, (![64 * r.val, 0] : Fin 2 → Nat) a + S64x128.size a ≤ S512x128.size a) :
    Rect.unit (s := S512x128) ![64 * r.val, 0] S64x128.size hb = rPart r := by
  unfold rPart Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

omit [FloatOps F] in
theorem xSet_eq (r : Fin 8) : xSet r = (xPart r).set := by
  show ((View.whole (cc0_scratch1 : Ref sig .scVector)).slice (xPart r)).set = _
  rw [View.set_slice]; exact Finset.map_refl
omit [FloatOps F] in
theorem rSet_eq (r : Fin 8) : rSet r = (rPart r).set := by
  show ((View.whole (cc0_scratch2 : Ref sig .scVector)).slice (rPart r)).set = _
  rw [View.set_slice]; exact Finset.map_refl
omit [FloatOps F] in
theorem xSets_disjoint : ∀ i ∈ (Finset.univ : Finset (Fin 8)), ∀ j ∈ (Finset.univ : Finset (Fin 8)), i ≠ j → Disjoint (xSet i) (xSet j) :=
  fun i _ j _ h => by rw [xSet_eq, xSet_eq]; exact Rect.part_disjoint hdivX h
omit [FloatOps F] in
theorem xSets_cover : (Finset.univ : Finset (Fin 8)).biUnion xSet = Finset.univ :=
  (Finset.biUnion_congr rfl fun i _ => xSet_eq i).trans (Rect.biUnion_part hdivX)
omit [FloatOps F] in
theorem rSets_disjoint : ∀ i ∈ (Finset.univ : Finset (Fin 8)), ∀ j ∈ (Finset.univ : Finset (Fin 8)), i ≠ j → Disjoint (rSet i) (rSet j) :=
  fun i _ j _ h => by rw [rSet_eq, rSet_eq]; exact Rect.part_disjoint hdivR h
omit [FloatOps F] in
theorem rSets_cover : (Finset.univ : Finset (Fin 8)).biUnion rSet = Finset.univ :=
  (Finset.biUnion_congr rfl fun i _ => rSet_eq i).trans (Rect.biUnion_part hdivR)

omit [FloatOps F] in
/-- The index scratch whole is its eight blocks; -/
theorem ixPts_blocks (f : Buf (Elt F) ((V d (cV L) (jV L)).loc cc0_scratch1)) :
    ((V d (cV L) (jV L)).loc cc0_scratch1 ↦{fullShare} f : sProp 𝕄) = bigSep Finset.univ fun r : Fin 8 => (V d (cV L) (jV L)).loc cc0_scratch1 ↦[xSet r]{fullShare} f := by
  rw [← pointsTo_biUnion Finset.univ (ℓ := (V d (cV L) (jV L)).loc cc0_scratch1) xSet xSets_disjoint, xSets_cover]; try rfl
omit [FloatOps F] in
/-- and the row scratch its eight. -/
theorem rwPts_blocks (f : Buf (Elt F) ((V d (cV L) (jV L)).loc cc0_scratch2)) :
    ((V d (cV L) (jV L)).loc cc0_scratch2 ↦{fullShare} f : sProp 𝕄) = bigSep Finset.univ fun r : Fin 8 => (V d (cV L) (jV L)).loc cc0_scratch2 ↦[rSet r]{fullShare} f := by
  rw [← pointsTo_biUnion Finset.univ (ℓ := (V d (cV L) (jV L)).loc cc0_scratch2) rSet rSets_disjoint, rSets_cover]; try rfl

/-- The blocks as the body slices them. -/
abbrev xSlc0 : Memref sig .scVector .vmem S64 .i32 := (ixV).slice (Rect.unit (s := S512) ![0] S64.size inb_S512_S64_0) (fun _ => rfl)
abbrev rSlc0 : Memref sig .scVector .vmem S64x128 .f32 := (rwV).slice (Rect.unit (s := S512x128) ![0, 0] S64x128.size inb_S512x128_S64x128_0_0) (fun _ => rfl)
abbrev oSlc0 (L : grid0.Coords) : Memref sig .scVector .hbm S64x128 .f32 := (oV).slice (Rect.unit (s := S16384x128) (k0_off4 L 0#32) S64x128.size (k0_off4_inb L 0)) (fun _ => rfl)
abbrev xSlc1 : Memref sig .scVector .vmem S64 .i32 := (ixV).slice (Rect.unit (s := S512) ![64] S64.size inb_S512_S64_64) (fun _ => rfl)
abbrev rSlc1 : Memref sig .scVector .vmem S64x128 .f32 := (rwV).slice (Rect.unit (s := S512x128) ![64, 0] S64x128.size inb_S512x128_S64x128_64_0) (fun _ => rfl)
abbrev oSlc1 (L : grid0.Coords) : Memref sig .scVector .hbm S64x128 .f32 := (oV).slice (Rect.unit (s := S16384x128) (k0_off4 L 64#32) S64x128.size (k0_off4_inb L 1)) (fun _ => rfl)
abbrev xSlc2 : Memref sig .scVector .vmem S64 .i32 := (ixV).slice (Rect.unit (s := S512) ![128] S64.size inb_S512_S64_128) (fun _ => rfl)
abbrev rSlc2 : Memref sig .scVector .vmem S64x128 .f32 := (rwV).slice (Rect.unit (s := S512x128) ![128, 0] S64x128.size inb_S512x128_S64x128_128_0) (fun _ => rfl)
abbrev oSlc2 (L : grid0.Coords) : Memref sig .scVector .hbm S64x128 .f32 := (oV).slice (Rect.unit (s := S16384x128) (k0_off4 L 128#32) S64x128.size (k0_off4_inb L 2)) (fun _ => rfl)
abbrev xSlc3 : Memref sig .scVector .vmem S64 .i32 := (ixV).slice (Rect.unit (s := S512) ![192] S64.size inb_S512_S64_192) (fun _ => rfl)
abbrev rSlc3 : Memref sig .scVector .vmem S64x128 .f32 := (rwV).slice (Rect.unit (s := S512x128) ![192, 0] S64x128.size inb_S512x128_S64x128_192_0) (fun _ => rfl)
abbrev oSlc3 (L : grid0.Coords) : Memref sig .scVector .hbm S64x128 .f32 := (oV).slice (Rect.unit (s := S16384x128) (k0_off4 L 192#32) S64x128.size (k0_off4_inb L 3)) (fun _ => rfl)
abbrev xSlc4 : Memref sig .scVector .vmem S64 .i32 := (ixV).slice (Rect.unit (s := S512) ![256] S64.size inb_S512_S64_256) (fun _ => rfl)
abbrev rSlc4 : Memref sig .scVector .vmem S64x128 .f32 := (rwV).slice (Rect.unit (s := S512x128) ![256, 0] S64x128.size inb_S512x128_S64x128_256_0) (fun _ => rfl)
abbrev oSlc4 (L : grid0.Coords) : Memref sig .scVector .hbm S64x128 .f32 := (oV).slice (Rect.unit (s := S16384x128) (k0_off4 L 256#32) S64x128.size (k0_off4_inb L 4)) (fun _ => rfl)
abbrev xSlc5 : Memref sig .scVector .vmem S64 .i32 := (ixV).slice (Rect.unit (s := S512) ![320] S64.size inb_S512_S64_320) (fun _ => rfl)
abbrev rSlc5 : Memref sig .scVector .vmem S64x128 .f32 := (rwV).slice (Rect.unit (s := S512x128) ![320, 0] S64x128.size inb_S512x128_S64x128_320_0) (fun _ => rfl)
abbrev oSlc5 (L : grid0.Coords) : Memref sig .scVector .hbm S64x128 .f32 := (oV).slice (Rect.unit (s := S16384x128) (k0_off4 L 320#32) S64x128.size (k0_off4_inb L 5)) (fun _ => rfl)
abbrev xSlc6 : Memref sig .scVector .vmem S64 .i32 := (ixV).slice (Rect.unit (s := S512) ![384] S64.size inb_S512_S64_384) (fun _ => rfl)
abbrev rSlc6 : Memref sig .scVector .vmem S64x128 .f32 := (rwV).slice (Rect.unit (s := S512x128) ![384, 0] S64x128.size inb_S512x128_S64x128_384_0) (fun _ => rfl)
abbrev oSlc6 (L : grid0.Coords) : Memref sig .scVector .hbm S64x128 .f32 := (oV).slice (Rect.unit (s := S16384x128) (k0_off4 L 384#32) S64x128.size (k0_off4_inb L 6)) (fun _ => rfl)
abbrev xSlc7 : Memref sig .scVector .vmem S64 .i32 := (ixV).slice (Rect.unit (s := S512) ![448] S64.size inb_S512_S64_448) (fun _ => rfl)
abbrev rSlc7 : Memref sig .scVector .vmem S64x128 .f32 := (rwV).slice (Rect.unit (s := S512x128) ![448, 0] S64x128.size inb_S512x128_S64x128_448_0) (fun _ => rfl)
abbrev oSlc7 (L : grid0.Coords) : Memref sig .scVector .hbm S64x128 .f32 := (oV).slice (Rect.unit (s := S16384x128) (k0_off4 L 448#32) S64x128.size (k0_off4_inb L 7)) (fun _ => rfl)

omit [FloatOps F] in
theorem set_xSlc0 : (xSlc0).view.set = xSet 0 := by
  show ((ixV).view.slice (Rect.unit (s := S512) ![0] S64.size inb_S512_S64_0)).set = ((ixV).view.slice (xPart 0)).set
  rw [show Rect.unit (s := S512) ![0] S64.size inb_S512_S64_0 = xPart 0 from xRect_eq 0 inb_S512_S64_0]
omit [FloatOps F] in
theorem set_rSlc0 : (rSlc0).view.set = rSet 0 := by
  show ((rwV).view.slice (Rect.unit (s := S512x128) ![0, 0] S64x128.size inb_S512x128_S64x128_0_0)).set = ((rwV).view.slice (rPart 0)).set
  rw [show Rect.unit (s := S512x128) ![0, 0] S64x128.size inb_S512x128_S64x128_0_0 = rPart 0 from rRect_eq 0 inb_S512x128_S64x128_0_0]
omit [FloatOps F] in
theorem set_oSlc0 : (oSlc0 L).view.set = oSet (chunkOf (wL L) 0) := set_oSlc L 0
omit [FloatOps F] in
theorem pts_xSlc0 (f : Buf (Elt F) ((V d (cV L) (jV L)).loc cc0_scratch1)) :
    ((xSlc0).view.loc (V d (cV L) (jV L)) ↦[(xSlc0).view.set]{fullShare} f : sProp 𝕄) = (V d (cV L) (jV L)).loc cc0_scratch1 ↦[xSet 0]{fullShare} f := by
  rw [set_xSlc0]
omit [FloatOps F] in
theorem pts_rSlc0 (f : Buf (Elt F) ((V d (cV L) (jV L)).loc cc0_scratch2)) :
    ((rSlc0).view.loc (V d (cV L) (jV L)) ↦[(rSlc0).view.set]{fullShare} f : sProp 𝕄) = (V d (cV L) (jV L)).loc cc0_scratch2 ↦[rSet 0]{fullShare} f := by
  rw [set_rSlc0]
omit [FloatOps F] in
theorem pts_oSlc0 (f : Buf (Elt F) (outLoc d)) :
    ((oSlc0 L).view.loc (V d (cV L) (jV L)) ↦[(oSlc0 L).view.set]{fullShare} f : sProp 𝕄) = outLoc d ↦[oSet (chunkOf (wL L) 0)]{fullShare} f := by
  rw [set_oSlc0]
omit [FloatOps F] in
theorem set_xSlc1 : (xSlc1).view.set = xSet 1 := by
  show ((ixV).view.slice (Rect.unit (s := S512) ![64] S64.size inb_S512_S64_64)).set = ((ixV).view.slice (xPart 1)).set
  rw [show Rect.unit (s := S512) ![64] S64.size inb_S512_S64_64 = xPart 1 from xRect_eq 1 inb_S512_S64_64]
omit [FloatOps F] in
theorem set_rSlc1 : (rSlc1).view.set = rSet 1 := by
  show ((rwV).view.slice (Rect.unit (s := S512x128) ![64, 0] S64x128.size inb_S512x128_S64x128_64_0)).set = ((rwV).view.slice (rPart 1)).set
  rw [show Rect.unit (s := S512x128) ![64, 0] S64x128.size inb_S512x128_S64x128_64_0 = rPart 1 from rRect_eq 1 inb_S512x128_S64x128_64_0]
omit [FloatOps F] in
theorem set_oSlc1 : (oSlc1 L).view.set = oSet (chunkOf (wL L) 1) := set_oSlc L 1
omit [FloatOps F] in
theorem pts_xSlc1 (f : Buf (Elt F) ((V d (cV L) (jV L)).loc cc0_scratch1)) :
    ((xSlc1).view.loc (V d (cV L) (jV L)) ↦[(xSlc1).view.set]{fullShare} f : sProp 𝕄) = (V d (cV L) (jV L)).loc cc0_scratch1 ↦[xSet 1]{fullShare} f := by
  rw [set_xSlc1]
omit [FloatOps F] in
theorem pts_rSlc1 (f : Buf (Elt F) ((V d (cV L) (jV L)).loc cc0_scratch2)) :
    ((rSlc1).view.loc (V d (cV L) (jV L)) ↦[(rSlc1).view.set]{fullShare} f : sProp 𝕄) = (V d (cV L) (jV L)).loc cc0_scratch2 ↦[rSet 1]{fullShare} f := by
  rw [set_rSlc1]
omit [FloatOps F] in
theorem pts_oSlc1 (f : Buf (Elt F) (outLoc d)) :
    ((oSlc1 L).view.loc (V d (cV L) (jV L)) ↦[(oSlc1 L).view.set]{fullShare} f : sProp 𝕄) = outLoc d ↦[oSet (chunkOf (wL L) 1)]{fullShare} f := by
  rw [set_oSlc1]
omit [FloatOps F] in
theorem set_xSlc2 : (xSlc2).view.set = xSet 2 := by
  show ((ixV).view.slice (Rect.unit (s := S512) ![128] S64.size inb_S512_S64_128)).set = ((ixV).view.slice (xPart 2)).set
  rw [show Rect.unit (s := S512) ![128] S64.size inb_S512_S64_128 = xPart 2 from xRect_eq 2 inb_S512_S64_128]
omit [FloatOps F] in
theorem set_rSlc2 : (rSlc2).view.set = rSet 2 := by
  show ((rwV).view.slice (Rect.unit (s := S512x128) ![128, 0] S64x128.size inb_S512x128_S64x128_128_0)).set = ((rwV).view.slice (rPart 2)).set
  rw [show Rect.unit (s := S512x128) ![128, 0] S64x128.size inb_S512x128_S64x128_128_0 = rPart 2 from rRect_eq 2 inb_S512x128_S64x128_128_0]
omit [FloatOps F] in
theorem set_oSlc2 : (oSlc2 L).view.set = oSet (chunkOf (wL L) 2) := set_oSlc L 2
omit [FloatOps F] in
theorem pts_xSlc2 (f : Buf (Elt F) ((V d (cV L) (jV L)).loc cc0_scratch1)) :
    ((xSlc2).view.loc (V d (cV L) (jV L)) ↦[(xSlc2).view.set]{fullShare} f : sProp 𝕄) = (V d (cV L) (jV L)).loc cc0_scratch1 ↦[xSet 2]{fullShare} f := by
  rw [set_xSlc2]
omit [FloatOps F] in
theorem pts_rSlc2 (f : Buf (Elt F) ((V d (cV L) (jV L)).loc cc0_scratch2)) :
    ((rSlc2).view.loc (V d (cV L) (jV L)) ↦[(rSlc2).view.set]{fullShare} f : sProp 𝕄) = (V d (cV L) (jV L)).loc cc0_scratch2 ↦[rSet 2]{fullShare} f := by
  rw [set_rSlc2]
omit [FloatOps F] in
theorem pts_oSlc2 (f : Buf (Elt F) (outLoc d)) :
    ((oSlc2 L).view.loc (V d (cV L) (jV L)) ↦[(oSlc2 L).view.set]{fullShare} f : sProp 𝕄) = outLoc d ↦[oSet (chunkOf (wL L) 2)]{fullShare} f := by
  rw [set_oSlc2]
omit [FloatOps F] in
theorem set_xSlc3 : (xSlc3).view.set = xSet 3 := by
  show ((ixV).view.slice (Rect.unit (s := S512) ![192] S64.size inb_S512_S64_192)).set = ((ixV).view.slice (xPart 3)).set
  rw [show Rect.unit (s := S512) ![192] S64.size inb_S512_S64_192 = xPart 3 from xRect_eq 3 inb_S512_S64_192]
omit [FloatOps F] in
theorem set_rSlc3 : (rSlc3).view.set = rSet 3 := by
  show ((rwV).view.slice (Rect.unit (s := S512x128) ![192, 0] S64x128.size inb_S512x128_S64x128_192_0)).set = ((rwV).view.slice (rPart 3)).set
  rw [show Rect.unit (s := S512x128) ![192, 0] S64x128.size inb_S512x128_S64x128_192_0 = rPart 3 from rRect_eq 3 inb_S512x128_S64x128_192_0]
omit [FloatOps F] in
theorem set_oSlc3 : (oSlc3 L).view.set = oSet (chunkOf (wL L) 3) := set_oSlc L 3
omit [FloatOps F] in
theorem pts_xSlc3 (f : Buf (Elt F) ((V d (cV L) (jV L)).loc cc0_scratch1)) :
    ((xSlc3).view.loc (V d (cV L) (jV L)) ↦[(xSlc3).view.set]{fullShare} f : sProp 𝕄) = (V d (cV L) (jV L)).loc cc0_scratch1 ↦[xSet 3]{fullShare} f := by
  rw [set_xSlc3]
omit [FloatOps F] in
theorem pts_rSlc3 (f : Buf (Elt F) ((V d (cV L) (jV L)).loc cc0_scratch2)) :
    ((rSlc3).view.loc (V d (cV L) (jV L)) ↦[(rSlc3).view.set]{fullShare} f : sProp 𝕄) = (V d (cV L) (jV L)).loc cc0_scratch2 ↦[rSet 3]{fullShare} f := by
  rw [set_rSlc3]
omit [FloatOps F] in
theorem pts_oSlc3 (f : Buf (Elt F) (outLoc d)) :
    ((oSlc3 L).view.loc (V d (cV L) (jV L)) ↦[(oSlc3 L).view.set]{fullShare} f : sProp 𝕄) = outLoc d ↦[oSet (chunkOf (wL L) 3)]{fullShare} f := by
  rw [set_oSlc3]
omit [FloatOps F] in
theorem set_xSlc4 : (xSlc4).view.set = xSet 4 := by
  show ((ixV).view.slice (Rect.unit (s := S512) ![256] S64.size inb_S512_S64_256)).set = ((ixV).view.slice (xPart 4)).set
  rw [show Rect.unit (s := S512) ![256] S64.size inb_S512_S64_256 = xPart 4 from xRect_eq 4 inb_S512_S64_256]
omit [FloatOps F] in
theorem set_rSlc4 : (rSlc4).view.set = rSet 4 := by
  show ((rwV).view.slice (Rect.unit (s := S512x128) ![256, 0] S64x128.size inb_S512x128_S64x128_256_0)).set = ((rwV).view.slice (rPart 4)).set
  rw [show Rect.unit (s := S512x128) ![256, 0] S64x128.size inb_S512x128_S64x128_256_0 = rPart 4 from rRect_eq 4 inb_S512x128_S64x128_256_0]
omit [FloatOps F] in
theorem set_oSlc4 : (oSlc4 L).view.set = oSet (chunkOf (wL L) 4) := set_oSlc L 4
omit [FloatOps F] in
theorem pts_xSlc4 (f : Buf (Elt F) ((V d (cV L) (jV L)).loc cc0_scratch1)) :
    ((xSlc4).view.loc (V d (cV L) (jV L)) ↦[(xSlc4).view.set]{fullShare} f : sProp 𝕄) = (V d (cV L) (jV L)).loc cc0_scratch1 ↦[xSet 4]{fullShare} f := by
  rw [set_xSlc4]
omit [FloatOps F] in
theorem pts_rSlc4 (f : Buf (Elt F) ((V d (cV L) (jV L)).loc cc0_scratch2)) :
    ((rSlc4).view.loc (V d (cV L) (jV L)) ↦[(rSlc4).view.set]{fullShare} f : sProp 𝕄) = (V d (cV L) (jV L)).loc cc0_scratch2 ↦[rSet 4]{fullShare} f := by
  rw [set_rSlc4]
omit [FloatOps F] in
theorem pts_oSlc4 (f : Buf (Elt F) (outLoc d)) :
    ((oSlc4 L).view.loc (V d (cV L) (jV L)) ↦[(oSlc4 L).view.set]{fullShare} f : sProp 𝕄) = outLoc d ↦[oSet (chunkOf (wL L) 4)]{fullShare} f := by
  rw [set_oSlc4]
omit [FloatOps F] in
theorem set_xSlc5 : (xSlc5).view.set = xSet 5 := by
  show ((ixV).view.slice (Rect.unit (s := S512) ![320] S64.size inb_S512_S64_320)).set = ((ixV).view.slice (xPart 5)).set
  rw [show Rect.unit (s := S512) ![320] S64.size inb_S512_S64_320 = xPart 5 from xRect_eq 5 inb_S512_S64_320]
omit [FloatOps F] in
theorem set_rSlc5 : (rSlc5).view.set = rSet 5 := by
  show ((rwV).view.slice (Rect.unit (s := S512x128) ![320, 0] S64x128.size inb_S512x128_S64x128_320_0)).set = ((rwV).view.slice (rPart 5)).set
  rw [show Rect.unit (s := S512x128) ![320, 0] S64x128.size inb_S512x128_S64x128_320_0 = rPart 5 from rRect_eq 5 inb_S512x128_S64x128_320_0]
omit [FloatOps F] in
theorem set_oSlc5 : (oSlc5 L).view.set = oSet (chunkOf (wL L) 5) := set_oSlc L 5
omit [FloatOps F] in
theorem pts_xSlc5 (f : Buf (Elt F) ((V d (cV L) (jV L)).loc cc0_scratch1)) :
    ((xSlc5).view.loc (V d (cV L) (jV L)) ↦[(xSlc5).view.set]{fullShare} f : sProp 𝕄) = (V d (cV L) (jV L)).loc cc0_scratch1 ↦[xSet 5]{fullShare} f := by
  rw [set_xSlc5]
omit [FloatOps F] in
theorem pts_rSlc5 (f : Buf (Elt F) ((V d (cV L) (jV L)).loc cc0_scratch2)) :
    ((rSlc5).view.loc (V d (cV L) (jV L)) ↦[(rSlc5).view.set]{fullShare} f : sProp 𝕄) = (V d (cV L) (jV L)).loc cc0_scratch2 ↦[rSet 5]{fullShare} f := by
  rw [set_rSlc5]
omit [FloatOps F] in
theorem pts_oSlc5 (f : Buf (Elt F) (outLoc d)) :
    ((oSlc5 L).view.loc (V d (cV L) (jV L)) ↦[(oSlc5 L).view.set]{fullShare} f : sProp 𝕄) = outLoc d ↦[oSet (chunkOf (wL L) 5)]{fullShare} f := by
  rw [set_oSlc5]
omit [FloatOps F] in
theorem set_xSlc6 : (xSlc6).view.set = xSet 6 := by
  show ((ixV).view.slice (Rect.unit (s := S512) ![384] S64.size inb_S512_S64_384)).set = ((ixV).view.slice (xPart 6)).set
  rw [show Rect.unit (s := S512) ![384] S64.size inb_S512_S64_384 = xPart 6 from xRect_eq 6 inb_S512_S64_384]
omit [FloatOps F] in
theorem set_rSlc6 : (rSlc6).view.set = rSet 6 := by
  show ((rwV).view.slice (Rect.unit (s := S512x128) ![384, 0] S64x128.size inb_S512x128_S64x128_384_0)).set = ((rwV).view.slice (rPart 6)).set
  rw [show Rect.unit (s := S512x128) ![384, 0] S64x128.size inb_S512x128_S64x128_384_0 = rPart 6 from rRect_eq 6 inb_S512x128_S64x128_384_0]
omit [FloatOps F] in
theorem set_oSlc6 : (oSlc6 L).view.set = oSet (chunkOf (wL L) 6) := set_oSlc L 6
omit [FloatOps F] in
theorem pts_xSlc6 (f : Buf (Elt F) ((V d (cV L) (jV L)).loc cc0_scratch1)) :
    ((xSlc6).view.loc (V d (cV L) (jV L)) ↦[(xSlc6).view.set]{fullShare} f : sProp 𝕄) = (V d (cV L) (jV L)).loc cc0_scratch1 ↦[xSet 6]{fullShare} f := by
  rw [set_xSlc6]
omit [FloatOps F] in
theorem pts_rSlc6 (f : Buf (Elt F) ((V d (cV L) (jV L)).loc cc0_scratch2)) :
    ((rSlc6).view.loc (V d (cV L) (jV L)) ↦[(rSlc6).view.set]{fullShare} f : sProp 𝕄) = (V d (cV L) (jV L)).loc cc0_scratch2 ↦[rSet 6]{fullShare} f := by
  rw [set_rSlc6]
omit [FloatOps F] in
theorem pts_oSlc6 (f : Buf (Elt F) (outLoc d)) :
    ((oSlc6 L).view.loc (V d (cV L) (jV L)) ↦[(oSlc6 L).view.set]{fullShare} f : sProp 𝕄) = outLoc d ↦[oSet (chunkOf (wL L) 6)]{fullShare} f := by
  rw [set_oSlc6]
omit [FloatOps F] in
theorem set_xSlc7 : (xSlc7).view.set = xSet 7 := by
  show ((ixV).view.slice (Rect.unit (s := S512) ![448] S64.size inb_S512_S64_448)).set = ((ixV).view.slice (xPart 7)).set
  rw [show Rect.unit (s := S512) ![448] S64.size inb_S512_S64_448 = xPart 7 from xRect_eq 7 inb_S512_S64_448]
omit [FloatOps F] in
theorem set_rSlc7 : (rSlc7).view.set = rSet 7 := by
  show ((rwV).view.slice (Rect.unit (s := S512x128) ![448, 0] S64x128.size inb_S512x128_S64x128_448_0)).set = ((rwV).view.slice (rPart 7)).set
  rw [show Rect.unit (s := S512x128) ![448, 0] S64x128.size inb_S512x128_S64x128_448_0 = rPart 7 from rRect_eq 7 inb_S512x128_S64x128_448_0]
omit [FloatOps F] in
theorem set_oSlc7 : (oSlc7 L).view.set = oSet (chunkOf (wL L) 7) := set_oSlc L 7
omit [FloatOps F] in
theorem pts_xSlc7 (f : Buf (Elt F) ((V d (cV L) (jV L)).loc cc0_scratch1)) :
    ((xSlc7).view.loc (V d (cV L) (jV L)) ↦[(xSlc7).view.set]{fullShare} f : sProp 𝕄) = (V d (cV L) (jV L)).loc cc0_scratch1 ↦[xSet 7]{fullShare} f := by
  rw [set_xSlc7]
omit [FloatOps F] in
theorem pts_rSlc7 (f : Buf (Elt F) ((V d (cV L) (jV L)).loc cc0_scratch2)) :
    ((rSlc7).view.loc (V d (cV L) (jV L)) ↦[(rSlc7).view.set]{fullShare} f : sProp 𝕄) = (V d (cV L) (jV L)).loc cc0_scratch2 ↦[rSet 7]{fullShare} f := by
  rw [set_rSlc7]
omit [FloatOps F] in
theorem pts_oSlc7 (f : Buf (Elt F) (outLoc d)) :
    ((oSlc7 L).view.loc (V d (cV L) (jV L)) ↦[(oSlc7 L).view.set]{fullShare} f : sProp 𝕄) = outLoc d ↦[oSet (chunkOf (wL L) 7)]{fullShare} f := by
  rw [set_oSlc7]

omit [FloatOps F] in
theorem pts_shV (q : PosShare TreeShare) (f : Buf (Elt F) (shLoc d (cV L))) :
    ((shV).view.loc (V d (cV L) (jV L)) ↦{q} f : sProp 𝕄) = shLoc d (cV L) ↦{q} f := rfl

/-- What the index scratch holds once the task's 512 indices have landed. -/
abbrev myIdx : Buf (Elt F) ((V d (cV L) (jV L)).loc cc0_scratch1) := (iSlc L).view.read (Elt F) (idxC m d)

omit [FloatOps F] in
/-- Every one of them names a row of the shared table. -/
theorem myIdx_lt (hpre : PreOK m) (i : S512.Idx) : (myIdx m d L i).toNat < 512 := by
  show ((iSlc L).view.read (Elt F) (idxC m d) i).toNat < 512
  rw [View.read_apply]
  exact Cert.Lookup.idxList_lt _ _ (hpre d _)

/-- The row scratch's eight blocks, each at contents of its own, are it whole at some contents. -/
theorem rw_join : (bigSep Finset.univ fun r : Fin 8 => iprop(∃ f, (V d (cV L) (jV L)).loc cc0_scratch2 ↦[rSet r]{fullShare} f))
    ⊢ (iprop(∃ f, (V d (cV L) (jV L)).loc cc0_scratch2 ↦{fullShare} f) : sProp 𝕄) := by
  refine (bigSep_exists_pi Finset.univ (fun r (f : Buf (Elt F) ((V d (cV L) (jV L)).loc cc0_scratch2)) => ((V d (cV L) (jV L)).loc cc0_scratch2 ↦[rSet r]{fullShare} f : sProp 𝕄))).trans ?_
  iintro ⟨%fs, H⟩
  ihave H' := (pointsTo_biUnion_join Finset.univ rSet fs (fs 0) rSets_disjoint) $$ H
  icases H' with ⟨%g, -, Hg⟩
  rw [rSets_cover]
  iexists g; iexact Hg

end Tile

end Cert.Proof.KernelSc

end
-- ==== Proof.BitsValue.lean ====
/-
  What the lookup kernel's copies leave behind, index by index: the rows of the shared table a task wrote hold the
  table's rows `r mod 8`; a block of the result, after its gather and its copy out, holds the rows the lookup selects.
-/
import proofs.«207026_g3393024164394_cont_8to1_b_908_22_alg».proof.Proof.BitsViews

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

omit [FloatOps F] in
/-- Contents whose reads through a view agree, agree on the view's elements. -/
theorem eqOn_set_of_read {κ : Kind} {sp : Space} {s : Shape} {e : EltTy} (v : View sig κ sp s e) {g g' : v.ty.Contents (Elt F)}
    (hr : ∀ y, v.read (Elt F) g y = v.read (Elt F) g' y) : ∀ i ∈ v.set, g i = g' i := by
  intro i hi
  obtain ⟨y, -, rfl⟩ := Finset.mem_map.mp hi
  have h := hr y
  rw [View.read_apply, View.read_apply] at h
  exact (cast_inj _).mp h

omit [FloatOps F] in
/-- The rows of the shared table a task wrote: row `32 s + y` took row `64 s + 32 c + y` of the replicated table, and both
    are row `y mod 8` of the table. -/
theorem shared_rows_eq (fsh : Buf (Elt F) (shLoc d (cV L))) : ∀ i ∈ (sSlc L).view.set,
    ((sSlc L).view.writes (Elt F) fsh [⟨Rect.whole S32x128, ReadAs.same.apply ((tSlc L).view.read (Elt F) (repC m d))⟩]) i = shC m d (cV L) i := by
  refine eqOn_set_of_read (sSlc L).view fun y => ?_
  have hy : (Rect.whole S32x128).emb y = y := Rect.emb_whole_apply S32x128 y
  have h1 := View.read_writes_cons_emb (v := (sSlc L).view) (f := fsh) (Rect.whole S32x128) (ReadAs.same.apply ((tSlc L).view.read (Elt F) (repC m d))) [] y
  rw [hy] at h1
  rw [h1]
  show (tSlc L).view.read (Elt F) (repC m d) y = (sSlc L).view.read (Elt F) (shC m d (cV L)) y
  rw [View.read_apply, View.read_apply]
  simp only [cast_eq]
  show Cert.Lookup.repTable (m (embLoc d)) ((tSlc L).view.emb y) = Cert.Lookup.shTable (m (embLoc d)) ((sSlc L).view.emb y)
  unfold Cert.Lookup.repTable Cert.Lookup.shTable
  have e0 : (((tSlc L).view.emb y) 0).val % 8 = (((sSlc L).view.emb y) 0).val % 8 := by
    show (k0_off3 L 0 + 1 * (y 0).val) % 8 = (k0_off2 L 0 + 1 * (y 0).val) % 8
    rw [k0_off3_eq, k0_off2_eq]
    simp only [Matrix.cons_val_zero]
    omega
  have e1 : ((tSlc L).view.emb y) 1 = ((sSlc L).view.emb y) 1 := by
    apply Fin.ext
    show k0_off3 L 1 + 1 * (y 1).val = k0_off2 L 1 + 1 * (y 1).val
    rw [k0_off3_eq, k0_off2_eq]; rfl
  refine congrArg (m (embLoc d)) (funext fun a => ?_)
  match a with
  | 0 => exact Fin.ext e0
  | 1 => exact e1

/-- The index list's and the row scratch's blocks, uniformly in the block number. -/
abbrev xSlcU (r : Fin 8) (hb : ∀ a, (![64 * r.val] : Fin 1 → Nat) a + S64.size a ≤ S512.size a) : Memref sig .scVector .vmem S64 .i32 :=
  (ixV).slice (Rect.unit (s := S512) ![64 * r.val] S64.size hb) (fun _ => rfl)
abbrev rSlcU (r : Fin 8) (hb : ∀ a, (![64 * r.val, 0] : Fin 2 → Nat) a + S64x128.size a ≤ S512x128.size a) : Memref sig .scVector .vmem S64x128 .f32 :=
  (rwV).slice (Rect.unit (s := S512x128) ![64 * r.val, 0] S64x128.size hb) (fun _ => rfl)
/-- The shared table whole, as a gather names its source. -/
abbrev shW : Memref sig .scVector .shared S512x128 .f32 := (shV).slice (Rect.unit (s := S512x128) ![0, 0] S512x128.size inb_S512x128_S512x128_0_0) (fun _ => rfl)

omit [FloatOps F] in
/-- Block `r` of the task's part of the result, once its 64 rows have been gathered into the row scratch and copied out:
    row `y` of it is the row of the shared table that entry `64 r + y` of the task's index list names, which is row
    `names p` of the table for the position `p = 512 w + 64 r + y` the row stands at. -/
theorem out_block_eq (hpre : PreOK m) (r : Fin 8) (hbx : ∀ a, (![64 * r.val] : Fin 1 → Nat) a + S64.size a ≤ S512.size a)
    (hbr : ∀ a, (![64 * r.val, 0] : Fin 2 → Nat) a + S64x128.size a ≤ S512x128.size a)
    (fo : Buf (Elt F) (outLoc d)) (fr : Buf (Elt F) ((V d (cV L) (jV L)).loc cc0_scratch2))
    (hin : ∀ x, ((xSlcU r hbx).view.read (Elt F) (myIdx m d L) x).toNat < S512x128.size gathers_S512x128_S64x128.axis) :
    ∀ i ∈ (oSlc L r).view.set,
      ((oSlc L r).view.writes (Elt F) fo [⟨Rect.whole S64x128, ReadAs.same.apply ((rSlcU r hbr).view.read (Elt F)
          ((rSlcU r hbr).view.writes (Elt F) fr [⟨Rect.whole S64x128,
            SparseCore.gatherPayload gathers_S512x128_S64x128 ((shW).view.read (Elt F) (shC m d (cV L)))
              (SparseCore.rows ((xSlcU r hbx).view.read (Elt F) (myIdx m d L)) rfl hin)⟩]))⟩]) i = outC m d i := by
  refine eqOn_set_of_read (oSlc L r).view fun y => ?_
  have hy : (Rect.whole S64x128).emb y = y := Rect.emb_whole_apply S64x128 y
  have h1 := View.read_writes_cons_emb (v := (oSlc L r).view) (f := fo) (Rect.whole S64x128) (ReadAs.same.apply ((rSlcU r hbr).view.read (Elt F)
          ((rSlcU r hbr).view.writes (Elt F) fr [⟨Rect.whole S64x128,
            SparseCore.gatherPayload gathers_S512x128_S64x128 ((shW).view.read (Elt F) (shC m d (cV L)))
              (SparseCore.rows ((xSlcU r hbx).view.read (Elt F) (myIdx m d L)) rfl hin)⟩]))) [] y
  rw [hy] at h1
  rw [h1]
  have h2 := View.read_writes_cons_emb (v := (rSlcU r hbr).view) (f := fr) (Rect.whole S64x128)
      (SparseCore.gatherPayload gathers_S512x128_S64x128 ((shW).view.read (Elt F) (shC m d (cV L)))
              (SparseCore.rows ((xSlcU r hbx).view.read (Elt F) (myIdx m d L)) rfl hin)) [] y
  rw [hy] at h2
  show (rSlcU r hbr).view.read (Elt F) _ y = _
  rw [h2]
  unfold SparseCore.gatherPayload
  rw [View.read_apply, View.read_apply]
  simp only [cast_eq]
  -- the row of the shared table the gather read for row `y`, and the position that row of the result stands at
  have hz : ((S64.rowMajor.symm ((y 0).cast (show S64x128.size gathers_S512x128_S64x128.axis' = S64.numel from rfl))) 0).val = (y 0).val := by
    have h := Shape.rowMajor_val_one (S64.rowMajor.symm ((y 0).cast (show S64x128.size gathers_S512x128_S64x128.axis' = S64.numel from rfl)))
    rw [Equiv.apply_symm_apply] at h
    exact h.symm
  have hJ0 := Shape.Gathers.idx_axis gathers_S512x128_S64x128
      (SparseCore.rows (View.read (Elt F) (xSlcU r hbx).view (myIdx m d L)) rfl hin) y
  have hJ1 := Shape.Gathers.idx_of_ne gathers_S512x128_S64x128
      (SparseCore.rows (View.read (Elt F) (xSlcU r hbx).view (myIdx m d L)) rfl hin) y 1 (by decide)
  have hrow : ((gathers_S512x128_S64x128.idx (SparseCore.rows (View.read (Elt F) (xSlcU r hbx).view (myIdx m d L)) rfl hin) y) (0 : Fin 2)).val
      = (idxC m d ((iSlc L).view.emb ((xSlcU r hbx).view.emb (S64.rowMajor.symm ((y 0).cast (show S64x128.size gathers_S512x128_S64x128.axis' = S64.numel from rfl)))))).toNat := by
    exact (congrArg Fin.val hJ0).trans rfl
  have hP : (iSlc L).view.emb ((xSlcU r hbx).view.emb (S64.rowMajor.symm ((y 0).cast (show S64x128.size gathers_S512x128_S64x128.axis' = S64.numel from rfl)))) = ValueIdx.ix1 (((oSlc L r).view.emb y) 0) := by
    funext a
    match a with
    | 0 =>
      apply Fin.ext
      show k0_off1 L 0 + 1 * (64 * r.val + 1 * ((S64.rowMajor.symm ((y 0).cast (show S64x128.size gathers_S512x128_S64x128.axis' = S64.numel from rfl))) 0).val) = k0_off4 L (BitVec.ofNat 32 (64 * r.val)) 0 + 1 * (y 0).val
      rw [hz, k0_off1_eq, k0_off4_eq L r]
      simp only [Matrix.cons_val_zero]
      omega
  show Cert.Lookup.shTable (m (embLoc d)) _ = Cert.Lookup.rows (m (namesLoc d)) (m (embLoc d)) _
  unfold Cert.Lookup.shTable Cert.Lookup.rows Cert.Lookup.rowOf
  refine congrArg (m (embLoc d)) (funext fun a => ?_)
  match a with
  | 0 =>
    apply Fin.ext
    show (0 + 1 * ((gathers_S512x128_S64x128.idx (SparseCore.rows (View.read (Elt F) (xSlcU r hbx).view (myIdx m d L)) rfl hin) y) (0 : Fin 2)).val) % 8
      = (m (namesLoc d) (ValueIdx.ix1 (((oSlc L r).view.emb y) 0))).toNat % 8
    calc (0 + 1 * ((gathers_S512x128_S64x128.idx (SparseCore.rows (View.read (Elt F) (xSlcU r hbx).view (myIdx m d L)) rfl hin) y) (0 : Fin 2)).val) % 8
        = (idxC m d ((iSlc L).view.emb ((xSlcU r hbx).view.emb (S64.rowMajor.symm ((y 0).cast (show S64x128.size gathers_S512x128_S64x128.axis' = S64.numel from rfl)))))).toNat % 8 := by rw [hrow, Nat.zero_add, Nat.one_mul]
      _ = (m (namesLoc d) ((iSlc L).view.emb ((xSlcU r hbx).view.emb (S64.rowMajor.symm ((y 0).cast (show S64x128.size gathers_S512x128_S64x128.axis' = S64.numel from rfl)))))).toNat := Cert.Lookup.idxList_mod _ _ (hpre d _)
      _ = (m (namesLoc d) ((iSlc L).view.emb ((xSlcU r hbx).view.emb (S64.rowMajor.symm ((y 0).cast (show S64x128.size gathers_S512x128_S64x128.axis' = S64.numel from rfl)))))).toNat % 8 := (Nat.mod_eq_of_lt (hpre d _)).symm
      _ = (m (namesLoc d) (ValueIdx.ix1 (((oSlc L r).view.emb y) 0))).toNat % 8 :=
        congrArg (fun i => (m (namesLoc d) i).toNat % 8) hP
  | 1 =>
    apply Fin.ext
    show 0 + 1 * ((gathers_S512x128_S64x128.idx (SparseCore.rows (View.read (Elt F) (xSlcU r hbx).view (myIdx m d L)) rfl hin) y) (1 : Fin 2)).val
      = k0_off4 L (BitVec.ofNat 32 (64 * r.val)) 1 + 1 * (y 1).val
    rw [hJ1, k0_off4_eq L r]
    simp

end Tile

end Cert.Proof.KernelSc

end
-- ==== Proof.BitsTile.lean ====
/-
  One task of the lookup kernel, proved once for every vector subcore `(c, s)` of both SparseCores.
-/
import proofs.«207026_g3393024164394_cont_8to1_b_908_22_alg».proof.Proof.BitsValue

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

section Tile

variable (d : Dev nD) (L : grid0.Coords)

set_option maxRecDepth 100000 in
set_option maxHeartbeats 4000000 in
theorem tile_body (hF : (K (F := F)).Facts) (hpre : PreOK m) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (taskIn m d (wL L) ∗ ∃ f, shLoc d (cV L) ↦[sSet (jL L)]{fullShare} f)
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__body L iV (Memref.isWhole_whole _) tV (Memref.isWhole_whole _) oV (Memref.isWhole_whole _) shV (Memref.isWhole_whole _)
            ixV (Memref.isWhole_whole _) rwV (Memref.isWhole_whole _) cc0_scratch3 cc0_scratch4 cc0_scratch5 cc0_scratch6)
          fun _ => iprop((taskOut m d (wL L) ∗ shBack m d (cV L) (jL L))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc0__body_eq_skeleton]; unfold cc0__body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨⟨Hi, Ht, Ho⟩, %fsh, Hsh⟩, ⟨⟨%fi0, Hix⟩, ⟨%fr0, Hrw⟩, Hbufs⟩, ⟨HsI, HsS, HsG0, HsG1, HsG2, HsG3, HsG4, HsG5, HsG6, HsG7, HsW, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iSlc (F := F) d L _).symm) $$ Hi
  ihave Ht' := (Entails.of_eq (pts_tSlc (F := F) d L _).symm) $$ Ht
  ihave Hsh' := (Entails.of_eq (pts_sSlc (F := F) d L _ _).symm) $$ Hsh
  ihave Hix' := (Entails.of_eq (pts_ixV (F := F) d L _).symm) $$ Hix
  ihave Hrw' := (Entails.of_eq (pts_rwV (F := F) d L _).symm) $$ Hrw
  sl_exec
  -- the rows of the shared table this task wrote hold the replicated table
  have hsh : ∀ i ∈ (sSlc L).view.set, ((sSlc L).view.writes (Elt F) fsh [⟨Rect.whole S32x128, tile_body.sl.dma0_1 m d L⟩]) i = shC m d (cV L) i :=
    shared_rows_eq (F := F) m d L fsh
  ihave Hsh2 := (Entails.of_eq (pointsTo_congr hsh)) $$ Hsh'
  ihave Hsh3 := (Entails.of_eq (pts_sSlc (F := F) d L _ _)) $$ Hsh2
  ihave Hsp := (pays_intro (F := F) m d L) $$ Hsh3
  icases Hsp with ⟨Hkeep, Hpays⟩
  rw [Prog.bind_assoc]
  iapply (SparseCore.wp_subcoreBarrier 𝒱₀ none EB (bRd (F := F) m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  ihave Hall := (pays_elim (F := F) m d L) $$ Hgot
  ihave Hall' := (Entails.of_eq (pts_shV (F := F) d L _ _).symm) $$ Hall
  -- one read token of the table per transfer semaphore: the eight gathers read it at once
  ihave Hsp2 := (Transfers.pointsTo_toks_split (Transfers.shareTok fullShare 16 (jL L)) 11) $$ Hall'
  icases Hsp2 with ⟨Hrem, Htk⟩
  ihave Htk2 := (Entails.of_eq (bigSep_fin11 _)) $$ Htk
  icases Htk2 with ⟨Hk0, Hk1, Hk2, Hk3, Hk4, Hk5, Hk6, Hk7, Hk8, Hk9, Hk10⟩
  -- the index scratch holds the task's indices: eight lists of 64
  have hix : View.write (Elt F) ixV.view fi0 (tile_body.sl.dma0 m d L) Finset.univ = myIdx m d L := by
    unfold tile_body.sl.dma0
    exact View.write_whole_univ _ _ _
  rw [hix]
  ihave Hix2 := (Entails.of_eq (pts_ixV (F := F) d L _)) $$ Hix'
  ihave Hix3 := (Entails.of_eq ((ixPts_blocks (F := F) d L _).trans (bigSep_fin8 _))) $$ Hix2
  icases Hix3 with ⟨Hx0, Hx1, Hx2, Hx3, Hx4, Hx5, Hx6, Hx7⟩
  ihave Hx0' := (Entails.of_eq (pts_xSlc0 (F := F) d L _).symm) $$ Hx0
  ihave Hx1' := (Entails.of_eq (pts_xSlc1 (F := F) d L _).symm) $$ Hx1
  ihave Hx2' := (Entails.of_eq (pts_xSlc2 (F := F) d L _).symm) $$ Hx2
  ihave Hx3' := (Entails.of_eq (pts_xSlc3 (F := F) d L _).symm) $$ Hx3
  ihave Hx4' := (Entails.of_eq (pts_xSlc4 (F := F) d L _).symm) $$ Hx4
  ihave Hx5' := (Entails.of_eq (pts_xSlc5 (F := F) d L _).symm) $$ Hx5
  ihave Hx6' := (Entails.of_eq (pts_xSlc6 (F := F) d L _).symm) $$ Hx6
  ihave Hx7' := (Entails.of_eq (pts_xSlc7 (F := F) d L _).symm) $$ Hx7
  ihave Hrw2 := (Entails.of_eq (pts_rwV (F := F) d L _)) $$ Hrw'
  ihave Hrw3 := (Entails.of_eq ((rwPts_blocks (F := F) d L _).trans (bigSep_fin8 _))) $$ Hrw2
  icases Hrw3 with ⟨Hr0, Hr1, Hr2, Hr3, Hr4, Hr5, Hr6, Hr7⟩
  ihave Hr0' := (Entails.of_eq (pts_rSlc0 (F := F) d L _).symm) $$ Hr0
  ihave Hr1' := (Entails.of_eq (pts_rSlc1 (F := F) d L _).symm) $$ Hr1
  ihave Hr2' := (Entails.of_eq (pts_rSlc2 (F := F) d L _).symm) $$ Hr2
  ihave Hr3' := (Entails.of_eq (pts_rSlc3 (F := F) d L _).symm) $$ Hr3
  ihave Hr4' := (Entails.of_eq (pts_rSlc4 (F := F) d L _).symm) $$ Hr4
  ihave Hr5' := (Entails.of_eq (pts_rSlc5 (F := F) d L _).symm) $$ Hr5
  ihave Hr6' := (Entails.of_eq (pts_rSlc6 (F := F) d L _).symm) $$ Hr6
  ihave Hr7' := (Entails.of_eq (pts_rSlc7 (F := F) d L _).symm) $$ Hr7
  ihave Ho2 := (Entails.of_eq (bigSep_fin8 _)) $$ Ho
  icases Ho2 with ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩
  ihave Ho0' := (Entails.of_eq (pts_oSlc0 (F := F) d L _).symm) $$ Ho0
  ihave Ho1' := (Entails.of_eq (pts_oSlc1 (F := F) d L _).symm) $$ Ho1
  ihave Ho2' := (Entails.of_eq (pts_oSlc2 (F := F) d L _).symm) $$ Ho2
  ihave Ho3' := (Entails.of_eq (pts_oSlc3 (F := F) d L _).symm) $$ Ho3
  ihave Ho4' := (Entails.of_eq (pts_oSlc4 (F := F) d L _).symm) $$ Ho4
  ihave Ho5' := (Entails.of_eq (pts_oSlc5 (F := F) d L _).symm) $$ Ho5
  ihave Ho6' := (Entails.of_eq (pts_oSlc6 (F := F) d L _).symm) $$ Ho6
  ihave Ho7' := (Entails.of_eq (pts_oSlc7 (F := F) d L _).symm) $$ Ho7
  -- every list's entries name rows of the shared table
  have hin0 : ∀ x, ((xSlc0).view.read (Elt F) (myIdx m d L) x).toNat < S512x128.size gathers_S512x128_S64x128.axis := fun x => by
    rw [View.read_apply]; exact myIdx_lt m d L hpre _
  have hin1 : ∀ x, ((xSlc1).view.read (Elt F) (myIdx m d L) x).toNat < S512x128.size gathers_S512x128_S64x128.axis := fun x => by
    rw [View.read_apply]; exact myIdx_lt m d L hpre _
  have hin2 : ∀ x, ((xSlc2).view.read (Elt F) (myIdx m d L) x).toNat < S512x128.size gathers_S512x128_S64x128.axis := fun x => by
    rw [View.read_apply]; exact myIdx_lt m d L hpre _
  have hin3 : ∀ x, ((xSlc3).view.read (Elt F) (myIdx m d L) x).toNat < S512x128.size gathers_S512x128_S64x128.axis := fun x => by
    rw [View.read_apply]; exact myIdx_lt m d L hpre _
  have hin4 : ∀ x, ((xSlc4).view.read (Elt F) (myIdx m d L) x).toNat < S512x128.size gathers_S512x128_S64x128.axis := fun x => by
    rw [View.read_apply]; exact myIdx_lt m d L hpre _
  have hin5 : ∀ x, ((xSlc5).view.read (Elt F) (myIdx m d L) x).toNat < S512x128.size gathers_S512x128_S64x128.axis := fun x => by
    rw [View.read_apply]; exact myIdx_lt m d L hpre _
  have hin6 : ∀ x, ((xSlc6).view.read (Elt F) (myIdx m d L) x).toNat < S512x128.size gathers_S512x128_S64x128.axis := fun x => by
    rw [View.read_apply]; exact myIdx_lt m d L hpre _
  have hin7 : ∀ x, ((xSlc7).view.read (Elt F) (myIdx m d L) x).toNat < S512x128.size gathers_S512x128_S64x128.axis := fun x => by
    rw [View.read_apply]; exact myIdx_lt m d L hpre _
  -- the eight copies into the result all complete on one semaphore, and are drained by eight waits after the last
  have _plan : Transfers.BatchOf (V d (cV L) (jV L)) (SemLoc.dma (sig := sig) cc0_scratch6.sem) 8 := trivial
  sl_exec
  sl_step
  -- the result's blocks hold the rows the lookup selects
  have hout0 := out_block_eq (F := F) m d L hpre 0 inb_S512_S64_0 inb_S512x128_S64x128_0_0 fo0 fr0 hin0
  ihave Ho02 := (Entails.of_eq (pointsTo_congr hout0)) $$ Ho0'
  have hout1 := out_block_eq (F := F) m d L hpre 1 inb_S512_S64_64 inb_S512x128_S64x128_64_0 fo1 fr0 hin1
  ihave Ho12 := (Entails.of_eq (pointsTo_congr hout1)) $$ Ho1'
  have hout2 := out_block_eq (F := F) m d L hpre 2 inb_S512_S64_128 inb_S512x128_S64x128_128_0 fo2 fr0 hin2
  ihave Ho22 := (Entails.of_eq (pointsTo_congr hout2)) $$ Ho2'
  have hout3 := out_block_eq (F := F) m d L hpre 3 inb_S512_S64_192 inb_S512x128_S64x128_192_0 fo3 fr0 hin3
  ihave Ho32 := (Entails.of_eq (pointsTo_congr hout3)) $$ Ho3'
  have hout4 := out_block_eq (F := F) m d L hpre 4 inb_S512_S64_256 inb_S512x128_S64x128_256_0 fo4 fr0 hin4
  ihave Ho42 := (Entails.of_eq (pointsTo_congr hout4)) $$ Ho4'
  have hout5 := out_block_eq (F := F) m d L hpre 5 inb_S512_S64_320 inb_S512x128_S64x128_320_0 fo5 fr0 hin5
  ihave Ho52 := (Entails.of_eq (pointsTo_congr hout5)) $$ Ho5'
  have hout6 := out_block_eq (F := F) m d L hpre 6 inb_S512_S64_384 inb_S512x128_S64x128_384_0 fo6 fr0 hin6
  ihave Ho62 := (Entails.of_eq (pointsTo_congr hout6)) $$ Ho6'
  have hout7 := out_block_eq (F := F) m d L hpre 7 inb_S512_S64_448 inb_S512x128_S64x128_448_0 fo7 fr0 hin7
  ihave Ho72 := (Entails.of_eq (pointsTo_congr hout7)) $$ Ho7'
  isplitl [Hi' Ht' Ho02 Ho12 Ho22 Ho32 Ho42 Ho52 Ho62 Ho72 Hkeep Hrem Hk0 Hk1 Hk2 Hk3 Hk4 Hk5 Hk6 Hk7 Hk8 Hk9 Hk10]
  · isplitl [Hi' Ht' Ho02 Ho12 Ho22 Ho32 Ho42 Ho52 Ho62 Ho72]
    · isplitl [Hi']; · iapply (Entails.of_eq (pts_iSlc (F := F) d L _)); iexact Hi'
      isplitl [Ht']; · iapply (Entails.of_eq (pts_tSlc (F := F) d L _)); iexact Ht'
      rw [bigSep_fin8]
      isplitl [Ho02]; · iapply (Entails.of_eq (pts_oSlc0 (F := F) d L _)); iexact Ho02
      isplitl [Ho12]; · iapply (Entails.of_eq (pts_oSlc1 (F := F) d L _)); iexact Ho12
      isplitl [Ho22]; · iapply (Entails.of_eq (pts_oSlc2 (F := F) d L _)); iexact Ho22
      isplitl [Ho32]; · iapply (Entails.of_eq (pts_oSlc3 (F := F) d L _)); iexact Ho32
      isplitl [Ho42]; · iapply (Entails.of_eq (pts_oSlc4 (F := F) d L _)); iexact Ho42
      isplitl [Ho52]; · iapply (Entails.of_eq (pts_oSlc5 (F := F) d L _)); iexact Ho52
      isplitl [Ho62]; · iapply (Entails.of_eq (pts_oSlc6 (F := F) d L _)); iexact Ho62
      iapply (Entails.of_eq (pts_oSlc7 (F := F) d L _)); iexact Ho72
    · isplitl [Hrem Hk0 Hk1 Hk2 Hk3 Hk4 Hk5 Hk6 Hk7 Hk8 Hk9 Hk10]
      · iapply (Entails.of_eq (pts_shV (F := F) d L _ _))
        iapply (Transfers.pointsTo_toks_join (Transfers.shareTok fullShare 16 (jL L)) 11)
        isplitl [Hrem]; · iexact Hrem
        rw [bigSep_fin11]
        isplitl [Hk0]; · iexact Hk0
        isplitl [Hk1]; · iexact Hk1
        isplitl [Hk2]; · iexact Hk2
        isplitl [Hk3]; · iexact Hk3
        isplitl [Hk4]; · iexact Hk4
        isplitl [Hk5]; · iexact Hk5
        isplitl [Hk6]; · iexact Hk6
        isplitl [Hk7]; · iexact Hk7
        isplitl [Hk8]; · iexact Hk8
        isplitl [Hk9]; · iexact Hk9
        iexact Hk10
      · iexact Hkeep
  isplitl [Hx0' Hx1' Hx2' Hx3' Hx4' Hx5' Hx6' Hx7' Hr0' Hr1' Hr2' Hr3' Hr4' Hr5' Hr6' Hr7' Hbufs]
  · isplitl [Hx0' Hx1' Hx2' Hx3' Hx4' Hx5' Hx6' Hx7']
    · iexists (myIdx m d L)
      iapply (Entails.of_eq ((ixPts_blocks (F := F) d L _).trans (bigSep_fin8 _)).symm)
      isplitl [Hx0']; · iapply (Entails.of_eq (pts_xSlc0 (F := F) d L _)); iexact Hx0'
      isplitl [Hx1']; · iapply (Entails.of_eq (pts_xSlc1 (F := F) d L _)); iexact Hx1'
      isplitl [Hx2']; · iapply (Entails.of_eq (pts_xSlc2 (F := F) d L _)); iexact Hx2'
      isplitl [Hx3']; · iapply (Entails.of_eq (pts_xSlc3 (F := F) d L _)); iexact Hx3'
      isplitl [Hx4']; · iapply (Entails.of_eq (pts_xSlc4 (F := F) d L _)); iexact Hx4'
      isplitl [Hx5']; · iapply (Entails.of_eq (pts_xSlc5 (F := F) d L _)); iexact Hx5'
      isplitl [Hx6']; · iapply (Entails.of_eq (pts_xSlc6 (F := F) d L _)); iexact Hx6'
      iapply (Entails.of_eq (pts_xSlc7 (F := F) d L _)); iexact Hx7'
    isplitl [Hr0' Hr1' Hr2' Hr3' Hr4' Hr5' Hr6' Hr7']
    · iapply (rw_join (F := F) d L)
      rw [bigSep_fin8]
      isplitl [Hr0']; · iexists _; iapply (Entails.of_eq (pts_rSlc0 (F := F) d L _)); iexact Hr0'
      isplitl [Hr1']; · iexists _; iapply (Entails.of_eq (pts_rSlc1 (F := F) d L _)); iexact Hr1'
      isplitl [Hr2']; · iexists _; iapply (Entails.of_eq (pts_rSlc2 (F := F) d L _)); iexact Hr2'
      isplitl [Hr3']; · iexists _; iapply (Entails.of_eq (pts_rSlc3 (F := F) d L _)); iexact Hr3'
      isplitl [Hr4']; · iexists _; iapply (Entails.of_eq (pts_rSlc4 (F := F) d L _)); iexact Hr4'
      isplitl [Hr5']; · iexists _; iapply (Entails.of_eq (pts_rSlc5 (F := F) d L _)); iexact Hr5'
      isplitl [Hr6']; · iexists _; iapply (Entails.of_eq (pts_rSlc6 (F := F) d L _)); iexact Hr6'
      iexists _; iapply (Entails.of_eq (pts_rSlc7 (F := F) d L _)); iexact Hr7'
    iexact Hbufs
  isplitl [HsI HsS HsG0 HsG1 HsG2 HsG3 HsG4 HsG5 HsG6 HsG7 HsW Hsems]
  · isplitl [HsI]; · iexact HsI
    isplitl [HsS]; · iexact HsS
    isplitl [HsG0]; · iexact HsG0
    isplitl [HsG1]; · iexact HsG1
    isplitl [HsG2]; · iexact HsG2
    isplitl [HsG3]; · iexact HsG3
    isplitl [HsG4]; · iexact HsG4
    isplitl [HsG5]; · iexact HsG5
    isplitl [HsG6]; · iexact HsG6
    isplitl [HsG7]; · iexact HsG7
    isplitl [HsW]; · iexact HsW
    iexact Hsems
  iexists _; isplitr
  swap; · iexact HO
  ipureintro; intro p hp
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inl (hp ▸ rfl))
  rcases Finset.mem_insert.mp hp with hp | hp; · exact .inr (.inr (hp ▸ rfl))
  rcases Finset.mem_insert.mp hp with hp | hp; · exact .inr (.inl (hp ▸ rfl))
  rcases Finset.mem_insert.mp hp with hp | hp; · exact .inr (.inl (hp ▸ rfl))
  exact .inl hp

end Tile

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          iV (Memref.isWhole_whole _) tV (Memref.isWhole_whole _) oV (Memref.isWhole_whole _) shV (Memref.isWhole_whole _)
          ixV (Memref.isWhole_whole _) rwV (Memref.isWhole_whole _) cc0_scratch3 cc0_scratch4 cc0_scratch5 cc0_scratch6) ⟨⟩ c s := rfl

set_option maxRecDepth 16384 in
theorem tileObl (hF : (K (F := F)).Facts) (hpre : PreOK m) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO hOlev

end Cert.Proof.KernelSc

end
-- ==== Proof.BitsSplit.lean ====
/-
  The launch's side of the lookup kernel: how a SparseCore's operands split among its sixteen tasks and come back
  together, and what the launch allocates for the barrier.
-/
import proofs.«207026_g3393024164394_cont_8to1_b_908_22_alg».proof.Proof.BitsProtocol

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The shared table's rows split and join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The sixteen tasks' returns of a shared table are the table whole: of each task's rows, the sixteen read shares
    (one came back with every task) and what their writer kept. -/
theorem sh_rejoin (d : Dev nD) (c : Fin τ.nSC) :
    (bigSep Finset.univ fun s : Fin 16 => shBack m d c s) ⊢ (iprop(∃ f, shLoc d c ↦{fullShare} f) : sProp 𝕄) := by
  have e1 : (bigSep Finset.univ fun s : Fin 16 => shBack m d c s)
      = iprop((bigSep Finset.univ fun j : Fin 16 => bigSep Finset.univ fun s : Fin 16 => shLoc d c ↦[sSet s]{Transfers.shareTok fullShare 16 j} shC m d c)
          ∗ bigSep Finset.univ fun s : Fin 16 => shLoc d c ↦[sSet s]{Transfers.shareDrop fullShare 16} shC m d c) := by
    rw [bigSep_sep']
    congr 1
    exact bigSep_congr fun j _ => shPts_rows (F := F) d c _ _
  rw [e1, bigSep_univ_comm, ← bigSep_sep']
  refine (bigSep_mono fun s _ => (sep_comm.1.trans (Transfers.pointsTo_toks_join fullShare 16))).trans ?_
  rw [← shPts_rows]
  exact BI.BIClass.exists_intro (Φ := fun f => (shLoc d c ↦{fullShare} f : sProp 𝕄)) (shC m d c)

omit [FloatOps F] in
/-- The shared table is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

theorem vecSplit : (K (F := F)).VecSplit (P m) 0 := by
  intro d c
  show iprop((bigSep Finset.univ fun i : Fin 16 => taskIn m d (taskOf (Fin.cast nCore_zero c) i)) ∗ ownBufs (S d (coreOf c))) ⊢ |={Set.univ}=> iprop(
      (bigSep Finset.univ fun i : Fin ((K (F := F)).nSub 0) => iprop(taskIn m d (taskOf (Fin.cast nCore_zero c) (Fin.cast nSub_zero i))
        ∗ ∃ f, shLoc d (coreOf c) ↦[sSet (Fin.cast nSub_zero i)]{fullShare} f))
      ∗ ((bigSep Finset.univ fun i : Fin ((K (F := F)).nSub 0) => iprop(taskOut m d (taskOf (Fin.cast nCore_zero c) (Fin.cast nSub_zero i))
            ∗ shBack m d (coreOf c) (Fin.cast nSub_zero i)))
          -∗ iprop((bigSep Finset.univ fun i : Fin 16 => taskOut m d (taskOf (Fin.cast nCore_zero c) i)) ∗ ownBufs (S d (coreOf c)))))
  have eGo : (bigSep Finset.univ fun i : Fin 16 => iprop(taskIn m d (taskOf (Fin.cast nCore_zero c) i) ∗ ∃ f, shLoc d (coreOf c) ↦[sSet i]{fullShare} f) : sProp 𝕄)
      = iprop((bigSep Finset.univ fun i : Fin 16 => taskIn m d (taskOf (Fin.cast nCore_zero c) i))
          ∗ bigSep Finset.univ fun i : Fin 16 => iprop(∃ f, shLoc d (coreOf c) ↦[sSet i]{fullShare} f)) := bigSep_sep' _ _ _
  have eTd : (bigSep Finset.univ fun i : Fin 16 => iprop(taskOut m d (taskOf (Fin.cast nCore_zero c) i) ∗ shBack m d (coreOf c) i) : sProp 𝕄)
      = iprop((bigSep Finset.univ fun i : Fin 16 => taskOut m d (taskOf (Fin.cast nCore_zero c) i))
          ∗ bigSep Finset.univ fun i : Fin 16 => shBack m d (coreOf c) i) := bigSep_sep' _ _ _
  rw [bigSep_tasks (F := F) (fun i => iprop(taskIn m d (taskOf (Fin.cast nCore_zero c) i) ∗ ∃ f, shLoc d (coreOf c) ↦[sSet i]{fullShare} f)),
    bigSep_tasks (F := F) (fun i => iprop(taskOut m d (taskOf (Fin.cast nCore_zero c) i) ∗ shBack m d (coreOf c) i)),
    eGo, eTd, ownBufs_S]
  iintro ⟨Hin, ⟨%fsh, Hsh⟩, Hrest⟩; imodintro
  isplitl [Hin Hsh]
  · isplitl [Hin]; · iexact Hin
    ihave Hsh' := ((Entails.of_eq (shPts_rows (F := F) d (coreOf c) fullShare fsh)).trans (SparseCore.ent (bigSep_mono (Φ := fun i => (shLoc d (coreOf c) ↦[sSet i]{fullShare} fsh : sProp 𝕄))
      (Ψ := fun i => iprop(∃ f, shLoc d (coreOf c) ↦[sSet i]{fullShare} f))
      fun i _ => BI.BIClass.exists_intro (Φ := fun f => (shLoc d (coreOf c) ↦[sSet i]{fullShare} f : sProp 𝕄)) fsh))) $$ Hsh
    iexact Hsh'
  iintro ⟨Hout, Hsh⟩
  isplitl [Hout]; · iexact Hout
  isplitl [Hsh]; · iapply (sh_rejoin m d (coreOf c)); iexact Hsh
  iexact Hrest

/-! ## The launch element of the ghost state, and what the launch hands over -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernel's own debts, regrouped: each tile the sixteen units of its own cell. -/
theorem creds_b : ((P (F := F) m).oxCred : sProp 𝕄)
    ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

end Cert.Proof.KernelSc

end
-- ==== Proof.BitsMain.lean ====
/-
  The lookup kernel's @main on the TensorCore.

  Before the call the TensorCore computes two arrays from its arguments with seventy array operations: the index
  list (position `p`'s entry of `names` moved into the eight-row group `4 (p / 1024) + p mod 4` of the shared table)
  and the table repeated 128 times. It then starts the SparseCores and waits for them. The seventy operations are a
  straight line over buffers the TensorCore holds whole, so they run to the end with every buffer at the
  operations' composed value. For the call, the index list and the repeated table are cut into the thirty-two
  tasks' parts and the result into the 256 blocks of 64 rows, eight per task, and the parts are dealt to the two
  SparseCores, sixteen tasks each: task `w = 2 s + c` to vector subcore `s` of SparseCore `c`, block `k = 8 w + r`
  to task `w`. When the call returns every block of the result holds its rows of the lookup, so the blocks join to
  the whole result at the lookup; the two arguments were never written.
-/
import proofs.«207026_g3393024164394_cont_8to1_b_908_22_alg».proof.Proof.BitsProtocol

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The seventy operations before the call -/

/-- @main's operations before the call, in order, the three calls of `floor_divide` (twice) and `remainder` unfolded
    at their sites with the selects they call in turn. -/
abbrev ops : List (HloOp τ sig (Elt F)) :=
  [ StableHlo.reshape main_arg1 main_v0 rfl shapeCasts_S8x128_S1x8x1x128,
    StableHlo.unary main_v0 main_v1 (broadcastInDim S128x8x1x128 ![0, 1, 2, 3] bcast_S1x8x1x128_S128x8x1x128_0_1_2_3 : (⟨S1x8x1x128, .f32⟩ : BufTy).Contents (Elt F) → (⟨S128x8x1x128, .f32⟩ : BufTy).Contents (Elt F)),
    StableHlo.reshape main_v1 main_v2 rfl shapeCasts_S128x8x1x128_S1024x128,
    StableHlo.nullary main_v3 (iotaInDim S16384 32 0),
    StableHlo.nullary main_c (constantI S_ 32 512#32),
    StableHlo.TRef.unary (.of main_c) main_call0.v0 id,
    StableHlo.TRef.unary main_call0.v0 main_call0.v1 (broadcastInDim S16384 ![] bcast_S_S16384),
    StableHlo.TRef.binary (.of main_v3) main_call0.v1 main_call0.v2 Host.divsi,
    StableHlo.TRef.unary (.of main_v3) main_call0.v3 signi,
    StableHlo.TRef.unary main_call0.v0 main_call0.v4 signi,
    StableHlo.TRef.unary main_call0.v4 main_call0.v5 (broadcastInDim S16384 ![] bcast_S_S16384),
    StableHlo.TRef.binary main_call0.v3 main_call0.v5 main_call0.v6 (cmpi .ne),
    StableHlo.TRef.unary main_call0.v0 main_call0.v7 (broadcastInDim S16384 ![] bcast_S_S16384),
    StableHlo.TRef.binary (.of main_v3) main_call0.v7 main_call0.v8 Host.remsi,
    StableHlo.TRef.nullary main_call0.c (constantI S_ 32 0#32),
    StableHlo.TRef.unary main_call0.c main_call0.v9 (broadcastInDim S16384 ![] bcast_S_S16384),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S16384 ![] bcast_S_S16384),
    StableHlo.TRef.binary main_call0.v2 main_call0.v12 main_call0.v13 subi,
    StableHlo.TRef.ternary main_call0.v11 main_call0.v13 main_call0.v2 main_call0.call0.v0 select,
    StableHlo.nullary main_c_0 (constantI S_ 32 2#32),
    StableHlo.TRef.unary (.of main_c_0) main_call1.v0 id,
    StableHlo.TRef.unary main_call1.v0 main_call1.v1 (broadcastInDim S16384 ![] bcast_S_S16384),
    StableHlo.TRef.binary (.of main_v4) main_call1.v1 main_call1.v2 Host.divsi,
    StableHlo.TRef.unary (.of main_v4) main_call1.v3 signi,
    StableHlo.TRef.unary main_call1.v0 main_call1.v4 signi,
    StableHlo.TRef.unary main_call1.v4 main_call1.v5 (broadcastInDim S16384 ![] bcast_S_S16384),
    StableHlo.TRef.binary main_call1.v3 main_call1.v5 main_call1.v6 (cmpi .ne),
    StableHlo.TRef.unary main_call1.v0 main_call1.v7 (broadcastInDim S16384 ![] bcast_S_S16384),
    StableHlo.TRef.binary (.of main_v4) main_call1.v7 main_call1.v8 Host.remsi,
    StableHlo.TRef.nullary main_call1.c (constantI S_ 32 0#32),
    StableHlo.TRef.unary main_call1.c main_call1.v9 (broadcastInDim S16384 ![] bcast_S_S16384),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S16384 ![] bcast_S_S16384),
    StableHlo.TRef.binary main_call1.v2 main_call1.v12 main_call1.v13 subi,
    StableHlo.TRef.ternary main_call1.v11 main_call1.v13 main_call1.v2 main_call1.call0.v0 select,
    StableHlo.nullary main_c_1 (constantI S_ 32 4#32),
    StableHlo.unary main_c_1 main_v6 (broadcastInDim S16384 ![] bcast_S_S16384 : (⟨S_, .i32⟩ : BufTy).Contents (Elt F) → (⟨S16384, .i32⟩ : BufTy).Contents (Elt F)),
    StableHlo.binary main_v5 main_v6 main_v7 (muli : (⟨S16384, .i32⟩ : BufTy).Contents (Elt F) → (⟨S16384, .i32⟩ : BufTy).Contents (Elt F) → (⟨S16384, .i32⟩ : BufTy).Contents (Elt F)),
    StableHlo.nullary main_c_2 (constantI S_ 32 4#32),
    StableHlo.TRef.unary (.of main_c_2) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S16384 ![] bcast_S_S16384),
    StableHlo.TRef.binary (.of main_v3) main_call2.v3 main_call2.v4 Host.remsi,
    StableHlo.TRef.nullary main_call2.c_1 (constantI S_ 32 0#32),
    StableHlo.TRef.unary main_call2.c_1 main_call2.v5 (broadcastInDim S16384 ![] bcast_S_S16384),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S16384 ![] bcast_S_S16384),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S16384 ![] bcast_S_S16384),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S16384 ![] bcast_S_S16384),
    StableHlo.TRef.binary main_call2.v4 main_call2.v13 main_call2.v14 addi,
    StableHlo.TRef.ternary main_call2.v12 main_call2.v14 main_call2.v4 main_call2.v15 select,
    StableHlo.binary main_v7 main_v8 main_v9 (addi : (⟨S16384, .i32⟩ : BufTy).Contents (Elt F) → (⟨S16384, .i32⟩ : BufTy).Contents (Elt F) → (⟨S16384, .i32⟩ : BufTy).Contents (Elt F)),
    StableHlo.nullary main_c_3 (constantI S_ 32 8#32),
    StableHlo.unary main_c_3 main_v10 (broadcastInDim S16384 ![] bcast_S_S16384 : (⟨S_, .i32⟩ : BufTy).Contents (Elt F) → (⟨S16384, .i32⟩ : BufTy).Contents (Elt F)),
    StableHlo.binary main_v9 main_v10 main_v11 (muli : (⟨S16384, .i32⟩ : BufTy).Contents (Elt F) → (⟨S16384, .i32⟩ : BufTy).Contents (Elt F) → (⟨S16384, .i32⟩ : BufTy).Contents (Elt F)),
    StableHlo.binary main_arg0 main_v11 main_v12 (addi : (⟨S16384, .i32⟩ : BufTy).Contents (Elt F) → (⟨S16384, .i32⟩ : BufTy).Contents (Elt F) → (⟨S16384, .i32⟩ : BufTy).Contents (Elt F)) ]

-- seventy binds and four functions' bodies to reassociate
set_option maxHeartbeats 2000000 in
/-- @main is that straight line, then the call, then the return. -/
theorem main_eq (d : Dev nD) :
    main (F := F) d = (StableHlo.seq (ops (F := F)) >>= fun _ => (K (F := F)).run d 0 >>= fun _ => pure ⟨⟩) := by
  simp only [main, fn_floor_divide.body, fn_remainder.body, fn_where.body, fn_where_0.body, StableHlo.seq, bind_assoc, pure_bind]

theorem ops_sub : (ops : List (HloOp τ sig (Elt F))).Forall fun op => op.bufs ⊆ StableHlo.tcRefs τ sig :=
  ⟨StableHlo.reshape_bufs_sub .., StableHlo.unary_bufs_sub .., StableHlo.reshape_bufs_sub .., StableHlo.nullary_bufs_sub .., StableHlo.nullary_bufs_sub .., StableHlo.unary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.binary_bufs_sub .., StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub .., StableHlo.nullary_bufs_sub .., StableHlo.unary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.binary_bufs_sub .., StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub .., StableHlo.nullary_bufs_sub .., StableHlo.unary_bufs_sub ..,
    StableHlo.binary_bufs_sub .., StableHlo.nullary_bufs_sub .., StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub .., StableHlo.ternary_bufs_sub .., StableHlo.binary_bufs_sub ..,
    StableHlo.nullary_bufs_sub .., StableHlo.unary_bufs_sub .., StableHlo.binary_bufs_sub .., StableHlo.binary_bufs_sub ..⟩

/-! ## The TensorCore's buffers, held whole -/

/-- The TensorCore's buffers that are not scoped: @main's seventy-three arrays. -/
abbrev bufs : Finset (DevRef τ sig) := (StableHlo.tcRefs τ sig).filter fun b => ¬ b.isScoped

/-- The device's buffers at launch, as a valuation. -/
def V0 (d : Dev nD) : Valuation τ sig (Elt F) := fun b => m (d, b)

omit [FloatOps F] in
/-- What the launch deals the TensorCore of its arrays is `bufs` held at the launch contents. -/
theorem unscoped_held (d : Dev nD) :
    (unscopedBufs d (fun b => m ((SparseCore.T d).loc b)) : sProp 𝕄) = StableHlo.held (T d) bufs (V0 m d) := by
  unfold unscopedBufs StableHlo.held bufs StableHlo.tcRefs
  rw [Finset.filter_map, BI.bigSep_map]
  rfl

omit [FloatOps F] in
/-- An operation touches TensorCore buffers that are not scoped. -/
theorem sub_bufs (op : HloOp τ sig (Elt F)) (h : op.bufs ⊆ StableHlo.tcRefs τ sig) : op.bufs ⊆ bufs :=
  fun b hb => Finset.mem_filter.2 ⟨h hb, by rw [op.no_scoped b hb]; decide⟩

theorem ops_bufs : ∀ op ∈ (ops : List (HloOp τ sig (Elt F))), op.bufs ⊆ bufs :=
  fun op hop => sub_bufs op (List.forall_iff_forall_mem.1 ops_sub op hop)

theorem ops_fresh : ∀ op ∈ (ops : List (HloOp τ sig (Elt F))), op.fresh = ∅ := by
  intro _ h
  (repeat (cases h with | head => rfl | tail _ h => ?_))
  exact nomatch h

abbrev names' : DevRef τ sig := Proc.devRef .tc (main_arg0 : Ref sig .tc)
abbrev emb' : DevRef τ sig := Proc.devRef .tc (main_arg1 : Ref sig .tc)
abbrev idx' : DevRef τ sig := Proc.devRef .tc (main_v12 : Ref sig .tc)
abbrev rep' : DevRef τ sig := Proc.devRef .tc (main_v2 : Ref sig .tc)
abbrev out' : DevRef τ sig := Proc.devRef .tc (main_v13 : Ref sig .tc)

/-- The five arrays the call and the claim speak of. -/
abbrev five : Finset (DevRef τ sig) := {names', emb', idx', rep', out'}

omit [FloatOps F] in
theorem five_sub : five ⊆ bufs := by
  have hm : ∀ r : Ref sig .tc, (Proc.devRef (τ := τ) .tc r).isScoped = false → Proc.devRef (τ := τ) .tc r ∈ bufs :=
    fun r hr => Finset.mem_filter.2 ⟨StableHlo.devRef_mem_tcRefs r, by rw [hr]; decide⟩
  exact Finset.insert_subset (hm _ rfl) (Finset.insert_subset (hm _ rfl) (Finset.insert_subset (hm _ rfl)
    (Finset.insert_subset (hm _ rfl) (Finset.singleton_subset_iff.2 (hm _ rfl)))))

omit [FloatOps F] in
theorem held_five (d : Dev nD) (W : Valuation τ sig (Elt F)) :
    (StableHlo.held (T d) five W : sProp 𝕄)
      = iprop((namesLoc d ↦{fullShare} W names') ∗ (embLoc d ↦{fullShare} W emb') ∗ (idxLoc d ↦{fullShare} W idx')
          ∗ (repLoc d ↦{fullShare} W rep') ∗ outLoc d ↦{fullShare} W out') := by
  unfold StableHlo.held five
  rw [SparseCore.bigSep_insert' (by decide), SparseCore.bigSep_insert' (by decide), SparseCore.bigSep_insert' (by decide),
    SparseCore.bigSep_insert' (by decide), bigSep_singleton]

/-- No operation writes the first argument, -/
theorem names_after (W : Valuation τ sig (Elt F)) : StableHlo.after ops W names' = W names' := by
  after_results_simp
/-- the second argument, -/
theorem emb_after (W : Valuation τ sig (Elt F)) : StableHlo.after ops W emb' = W emb' := by
  after_results_simp
/-- or the result. -/
theorem out_after (W : Valuation τ sig (Elt F)) : StableHlo.after ops W out' = W out' := by
  after_results_simp

/-! ## The arrays cut into the tasks' parts -/

omit [FloatOps F] in
/-- The index list is its thirty-two parts. -/
theorem idx_split (d : Dev nD) (f : Buf (Elt F) (idxLoc d)) :
    (idxLoc d ↦{fullShare} f : sProp 𝕄) = bigSep Finset.univ fun w : Fin 32 => idxLoc d ↦[iSet w]{fullShare} f := by
  have hc : (Finset.univ : Finset (Fin 32)).biUnion iSet = Finset.univ := by
    have e : iSet = fun w => (iPart w).set := funext fun w => View.set_slice_whole _ _
    rw [e]; exact Rect.biUnion_part hdivI
  have hd : ∀ w ∈ (Finset.univ : Finset (Fin 32)), ∀ w' ∈ (Finset.univ : Finset (Fin 32)), w ≠ w' → Disjoint (iSet w) (iSet w') := by
    intro w _ w' _ h
    rw [show iSet w = (iPart w).set from View.set_slice_whole _ _, show iSet w' = (iPart w').set from View.set_slice_whole _ _]
    exact Rect.part_disjoint hdivI h
  rw [← pointsTo_biUnion (ℓ := idxLoc d) (q := fullShare) (f := f) Finset.univ iSet hd, hc]

omit [FloatOps F] in
/-- The repeated table is its thirty-two parts. -/
theorem rep_split (d : Dev nD) (f : Buf (Elt F) (repLoc d)) :
    (repLoc d ↦{fullShare} f : sProp 𝕄) = bigSep Finset.univ fun w : Fin 32 => repLoc d ↦[tSet w]{fullShare} f := by
  have hc : (Finset.univ : Finset (Fin 32)).biUnion tSet = Finset.univ := by
    have e : tSet = fun w => (tPart w).set := funext fun w => View.set_slice_whole _ _
    rw [e]; exact Rect.biUnion_part hdivT
  have hd : ∀ w ∈ (Finset.univ : Finset (Fin 32)), ∀ w' ∈ (Finset.univ : Finset (Fin 32)), w ≠ w' → Disjoint (tSet w) (tSet w') := by
    intro w _ w' _ h
    rw [show tSet w = (tPart w).set from View.set_slice_whole _ _, show tSet w' = (tPart w').set from View.set_slice_whole _ _]
    exact Rect.part_disjoint hdivT h
  rw [← pointsTo_biUnion (ℓ := repLoc d) (q := fullShare) (f := f) Finset.univ tSet hd, hc]

omit [FloatOps F] in
/-- The result is its 256 blocks. -/
theorem out_split (d : Dev nD) (f : Buf (Elt F) (outLoc d)) :
    (outLoc d ↦{fullShare} f : sProp 𝕄) = bigSep Finset.univ fun k : Fin 256 => outLoc d ↦[oSet k]{fullShare} f := by
  have hc : (Finset.univ : Finset (Fin 256)).biUnion oSet = Finset.univ := by
    have e : oSet = fun k => (oPart k).set := funext fun k => View.set_slice_whole _ _
    rw [e]; exact Rect.biUnion_part hdivO
  have hd : ∀ k ∈ (Finset.univ : Finset (Fin 256)), ∀ k' ∈ (Finset.univ : Finset (Fin 256)), k ≠ k' → Disjoint (oSet k) (oSet k') := by
    intro k _ k' _ h
    rw [show oSet k = (oPart k).set from View.set_slice_whole _ _, show oSet k' = (oPart k').set from View.set_slice_whole _ _]
    exact Rect.part_disjoint hdivO h
  rw [← pointsTo_biUnion (ℓ := outLoc d) (q := fullShare) (f := f) Finset.univ oSet hd, hc]

/-! ## Two reindexings: tasks by (SparseCore, subcore), blocks by (task, block of the task) -/

/-- Task `w` is subcore `w / 2` of SparseCore `w mod 2`. -/
def taskEquiv : Fin 2 × Fin 16 ≃ Fin 32 where
  toFun p := taskOf p.1 p.2
  invFun w := (⟨w.val % 2, Nat.mod_lt _ (by decide)⟩, ⟨w.val / 2, by have := w.isLt; omega⟩)
  left_inv p := by
    rcases p with ⟨c, s⟩
    refine Prod.ext (Fin.ext ?_) (Fin.ext ?_)
    · show (s.val * 2 + c.val) % 2 = c.val
      have := c.isLt; omega
    · show (s.val * 2 + c.val) / 2 = s.val
      have := c.isLt; omega
  right_inv w := Fin.ext (by show (w.val / 2) * 2 + w.val % 2 = w.val; omega)

/-- Block `k` is block `k mod 8` of task `k / 8`. -/
def chunkEquiv : Fin 32 × Fin 8 ≃ Fin 256 where
  toFun p := chunkOf p.1 p.2
  invFun k := (⟨k.val / 8, by have := k.isLt; omega⟩, ⟨k.val % 8, Nat.mod_lt _ (by decide)⟩)
  left_inv p := by
    rcases p with ⟨w, r⟩
    refine Prod.ext (Fin.ext ?_) (Fin.ext ?_)
    · show (w.val * 8 + r.val) / 8 = w.val
      have := r.isLt; omega
    · show (w.val * 8 + r.val) % 8 = r.val
      have := r.isLt; omega
  right_inv k := Fin.ext (by show (k.val / 8) * 8 + k.val % 8 = k.val; omega)

omit [FloatOps F] in
/-- Something per task, dealt SparseCore by SparseCore and subcore by subcore, is that thing for every task. -/
theorem regroup32 {n : Nat} (hn : n = 2) (X : Fin 32 → sProp 𝕄) :
    (bigSep Finset.univ fun c : Fin n => bigSep Finset.univ fun i : Fin 16 => X (taskOf (Fin.cast hn c) i)) = bigSep Finset.univ X := by
  subst hn
  exact ((bigSep_univ_equiv taskEquiv X).trans (bigSep_univ_prod _)).symm

omit [FloatOps F] in
/-- Something per block, dealt task by task, is that thing for every block. -/
theorem regroup256 (Y : Fin 256 → sProp 𝕄) :
    (bigSep Finset.univ fun w : Fin 32 => bigSep Finset.univ fun r : Fin 8 => Y (chunkOf w r)) = bigSep Finset.univ Y :=
  ((bigSep_univ_equiv chunkEquiv Y).trans (bigSep_univ_prod _)).symm

/-! ## What the call takes and brings back, as whole arrays -/

/-- What the call takes is the index list and the repeated table, whole, and every block of the result at some
    contents. -/
theorem st0_eq (d : Dev nD) :
    (bigSep Finset.univ fun c : Fin ((K (F := F)).nCore 0) => (P m).st 0 d c)
      = iprop((idxLoc d ↦{fullShare} idxC m d) ∗ (repLoc d ↦{fullShare} repC m d)
          ∗ bigSep Finset.univ fun k : Fin 256 => iprop(∃ f, outLoc d ↦[oSet k]{fullShare} f)) := by
  have h1 : (fun c : Fin ((K (F := F)).nCore 0) => (P m).st 0 d c)
      = fun c => bigSep Finset.univ fun i : Fin 16 => taskIn m d (taskOf (Fin.cast nCore_zero c) i) := rfl
  rw [h1, regroup32 nCore_zero (fun w => taskIn m d w), bigSep_sep', bigSep_sep',
    regroup256 (fun k => iprop(∃ f, outLoc d ↦[oSet k]{fullShare} f)), ← idx_split, ← rep_split]

/-- What it brings back is the three arrays whole, the result at the lookup. -/
theorem dn0_eq (d : Dev nD) :
    (bigSep Finset.univ fun c : Fin ((K (F := F)).nCore 0) => (P m).dn 0 d c)
      = iprop((idxLoc d ↦{fullShare} idxC m d) ∗ (repLoc d ↦{fullShare} repC m d) ∗ outLoc d ↦{fullShare} outC m d) := by
  have h1 : (fun c : Fin ((K (F := F)).nCore 0) => (P m).dn 0 d c)
      = fun c => bigSep Finset.univ fun i : Fin 16 => taskOut m d (taskOf (Fin.cast nCore_zero c) i) := rfl
  rw [h1, regroup32 nCore_zero (fun w => taskOut m d w), bigSep_sep', bigSep_sep',
    regroup256 (fun k => outLoc d ↦[oSet k]{fullShare} outC m d), ← idx_split, ← rep_split, ← out_split]

omit [FloatOps F] in
/-- A block held at known contents is held at some contents. -/
theorem out_some (d : Dev nD) (f : Buf (Elt F) (outLoc d)) :
    (bigSep Finset.univ fun k : Fin 256 => outLoc d ↦[oSet k]{fullShare} f : sProp 𝕄)
      ⊢ bigSep Finset.univ fun k : Fin 256 => iprop(∃ f, outLoc d ↦[oSet k]{fullShare} f) :=
  bigSep_mono fun k _ => by
    show _ ⊢ iprop(∃ f, outLoc d ↦[oSet k]{fullShare} f)
    iintro H; iexists _; iexact H

/-! ## @main -/

/-- What @main leaves the claim: the two arguments at their launch contents and the result at the lookup. -/
abbrev FIN (d : Dev nD) : sProp 𝕄 :=
  iprop((namesLoc d ↦{fullShare} m (namesLoc d)) ∗ (embLoc d ↦{fullShare} m (embLoc d)) ∗ outLoc d ↦{fullShare} outC m d)

/-- The five arrays after the seventy operations: the arguments and the result untouched, the index list and the
    repeated table at what the operations compute — given that this is the index list and the repeated table of the
    specification. -/
theorem held_after (hidx : ∀ W : Valuation τ sig (Elt F), StableHlo.after ops W idx' = Cert.Lookup.idxList (W names'))
    (hrep : ∀ W : Valuation τ sig (Elt F), StableHlo.after ops W rep' = Cert.Lookup.repTable (F := F) (W emb')) (d : Dev nD) :
    (StableHlo.held (T d) five (StableHlo.after ops (V0 m d)) : sProp 𝕄)
      = iprop((namesLoc d ↦{fullShare} m (namesLoc d)) ∗ (embLoc d ↦{fullShare} m (embLoc d)) ∗ (idxLoc d ↦{fullShare} idxC m d)
          ∗ (repLoc d ↦{fullShare} repC m d) ∗ outLoc d ↦{fullShare} m (outLoc d)) := by
  rw [held_five, names_after, emb_after, out_after, hidx, hrep]
  rfl

/-- All the TensorCore's arrays after the seventy operations: those five, and the rest. -/
theorem held_bufs_after (hidx : ∀ W : Valuation τ sig (Elt F), StableHlo.after ops W idx' = Cert.Lookup.idxList (W names'))
    (hrep : ∀ W : Valuation τ sig (Elt F), StableHlo.after ops W rep' = Cert.Lookup.repTable (F := F) (W emb')) (d : Dev nD) :
    (StableHlo.held (T d) bufs (StableHlo.after ops (V0 m d)) : sProp 𝕄)
      = iprop(((namesLoc d ↦{fullShare} m (namesLoc d)) ∗ (embLoc d ↦{fullShare} m (embLoc d)) ∗ (idxLoc d ↦{fullShare} idxC m d)
          ∗ (repLoc d ↦{fullShare} repC m d) ∗ outLoc d ↦{fullShare} m (outLoc d))
        ∗ StableHlo.held (T d) (bufs \ five) (StableHlo.after ops (V0 m d))) := by
  rw [StableHlo.held_sub_split (T d) five_sub, held_after m hidx hrep d]

-- a rule stated for the thread `d.tc` is applied at the TensorCore thread as the launch theorem spells it
set_option backward.isDefEq.respectTransparency.types false in
/-- @main on device `d`'s TensorCore: the seventy operations over its arrays held whole, the call from the index list,
    the repeated table and the result, the arguments kept. -/
theorem hmain (hidx : ∀ W : Valuation τ sig (Elt F), StableHlo.after ops W idx' = Cert.Lookup.idxList (W names'))
    (hrep : ∀ W : Valuation τ sig (Elt F), StableHlo.after ops W rep' = Cert.Lookup.repTable (F := F) (W emb'))
    (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the seventy operations
  iapply (StableHlo.wp_seq 𝒱 none Set.univ d bufs (fun _ => (K (F := F)).run d 0 >>= fun _ => pure ⟨⟩) (ops (F := F))
    ops_bufs ops_fresh (V0 m d)) $$ [Hb Hheld]
  · isplitl [Hb] <;> iassumption
  iintro ⟨Hb, Hheld⟩
  ihave Hh := (Entails.of_eq (held_bufs_after m hidx hrep d)) $$ Hheld
  icases Hh with ⟨⟨Hn, He, Hi, Hr, Ho⟩, -⟩
  -- the call
  rw [wp_bind]
  iapply ((K (F := F)).wp_run (D (F := F)) 𝒱 (EH := EH) (P := P m) κ d 0) $$ [Hst Hi Hr Ho Hn He]
  isplitr; · iexact Hctx
  isplitl [Hst]; · iexact Hst
  isplitl [Hi Hr Ho]
  · rw [st0_eq]
    isplitl [Hi]; · iexact Hi
    isplitl [Hr]; · iexact Hr
    iapply (out_some d (m (outLoc d)))
    rw [← out_split]
    iexact Ho
  iintro ⟨Hst, Hdn⟩
  ihave Hdn' := (Entails.of_eq (dn0_eq m d)) $$ Hdn
  icases Hdn' with ⟨-, -, Ho⟩
  rw [wp_pure]
  imodintro
  isplitl [Hst]; · iexact Hst
  isplitl [Hn]; · iexact Hn
  isplitl [He]; · iexact He
  iexact Ho

/-- What the claim reads off the final memory. -/
def fq (d : Dev nD) (s' : Phys nD τ sig (Elt F)) : Prop :=
  s'.mem.mem (outLoc d) = outC m d ∧ s'.mem.mem (namesLoc d) = m (namesLoc d) ∧ s'.mem.mem (embLoc d) = m (embLoc d)

omit [FloatOps F] in
theorem hfin (d : Dev nD) (s' : Phys nD τ sig (Elt F)) : iprop(FIN m d ∗ SI s') ⊢ (⌜fq m d s'⌝ : sProp 𝕄) := by
  iintro ⟨⟨Hn, He, Ho⟩, HSI⟩
  ihave H := (persistent_entails_right (SI_pointsTo_agree (st := s') (ℓ := outLoc d) (I := Finset.univ) (q := fullShare) (f := outC m d))) $$ [HSI Ho]
  · isplitl [HSI] <;> iassumption
  icases H with ⟨%h1, HSI, -⟩
  ihave H := (persistent_entails_right (SI_pointsTo_agree (st := s') (ℓ := namesLoc d) (I := Finset.univ) (q := fullShare) (f := m (namesLoc d)))) $$ [HSI Hn]
  · isplitl [HSI] <;> iassumption
  icases H with ⟨%h2, HSI, -⟩
  ihave H := (SI_pointsTo_agree (st := s') (ℓ := embLoc d) (I := Finset.univ) (q := fullShare) (f := m (embLoc d))) $$ [HSI He]
  · isplitl [HSI] <;> iassumption
  icases H with %h3
  ipureintro
  exact ⟨funext fun i => h1 i (Finset.mem_univ i), funext fun i => h2 i (Finset.mem_univ i), funext fun i => h3 i (Finset.mem_univ i)⟩

end Cert.Proof.KernelSc

end
-- ==== Proof.BitsMainHost.lean ====
/-
  The two arrays the TensorCore hands the SparseCores are the specification's. Read at the buffer of the index list,
  the seventy operations compose to the host chain for the index list; read at the buffer of the repeated table, to
  the reshape, broadcast and reshape that repeat the table. Both chains are the specification's arrays, so @main's
  run needs no assumption about them.
-/
import proofs.«207026_g3393024164394_cont_8to1_b_908_22_alg».proof.Proof.BitsMain
import proofs.«207026_g3393024164394_cont_8to1_b_908_22_alg».proof.Proof.HostIdx
import proofs.«207026_g3393024164394_cont_8to1_b_908_22_alg».proof.Proof.HostRep

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

-- sixty operations deep, each value read back through its typed buffer
set_option maxHeartbeats 1000000 in
/-- At the index list's buffer the operations compose to the host chain for the index list: each operation's result
    read at its own buffer, the transports between a buffer's type and its value's type (identities) removed, the two
    terms are the same. -/
theorem idx_after (W : Valuation τ sig (Elt F)) :
    StableHlo.after ops W idx' = Cert.HostChain.hostIdx bcast_S_S16384 (W names') := by
  after_results_simp
  simp only [StableHlo.TRef.ofBuf, StableHlo.TRef.toBuf, cast_eq]
  rfl

/-- which is the specification's index list. -/
theorem idx_spec (W : Valuation τ sig (Elt F)) : StableHlo.after ops W idx' = Cert.Lookup.idxList (W names') :=
  (idx_after W).trans (Cert.HostChain.hostIdx_eq _ _)

/-- At the repeated table's buffer they compose to the reshape, the broadcast along the new axis and the reshape, -/
theorem rep_after (W : Valuation τ sig (Elt F)) :
    StableHlo.after ops W rep'
      = Cert.HostChain.hostRep shapeCasts_S8x128_S1x8x1x128 bcast_S1x8x1x128_S128x8x1x128_0_1_2_3
          shapeCasts_S128x8x1x128_S1024x128 (F := F) (W emb') := by
  after_results_simp
  rfl

/-- which is the specification's repeated table. -/
theorem rep_spec (W : Valuation τ sig (Elt F)) : StableHlo.after ops W rep' = Cert.Lookup.repTable (F := F) (W emb') :=
  (rep_after W).trans (Cert.HostChain.hostRep_eq _ _ _ _)

/-- @main on device `d`'s TensorCore, with nothing assumed of the two arrays. -/
theorem hmain' (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) :=
  hmain m ρ idx_spec rep_spec κ d

end Cert.Proof.KernelSc

end
-- ==== Proof.BitsRun.lean ====
/-
  The lookup kernel's run: every weakly fair execution of the thirty-five threads ends, nothing faulting, with the
  result array holding the rows the lookup selects and the two argument arrays as they were.
-/
import proofs.«207026_g3393024164394_cont_8to1_b_908_22_alg».proof.Proof.BitsTile
import proofs.«207026_g3393024164394_cont_8to1_b_908_22_alg».proof.Proof.BitsSplit
import proofs.«207026_g3393024164394_cont_8to1_b_908_22_alg».proof.Proof.BitsMainHost

noncomputable section

namespace Cert.Proof.KernelSc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-- What the claim reads off the final memory: the result is the lookup of the arguments, the arguments are unchanged. -/
def QC : PUnit × MemSt nD τ sig (Elt F) → Prop := fun r => ∀ c : Dev nD,
  r.2.mem (outLoc c) = outC m c ∧ r.2.mem (namesLoc c) = m (namesLoc c) ∧ r.2.mem (embLoc c) = m (embLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => vecSplit m)
    m ρ main (fun _ => iprop(emp)) (FIN m) (u₀ (F := F)) (hu₀ m) (hmain' m ρ) (fq m) (hfin m) (QC m) (fun _ h => h)

end Cert.Proof.KernelSc

end
-- ==== Proof.ClaimsWord.lean ====
/-
  The claim about the kernel as printed, at the word level. Its run is the idealized kernel's argument read at machine
  words: the kernel only moves rows of the table, so under the precondition it ends, nothing faulting, with both
  arguments as they were.
-/
import proofs.«207026_g3393024164394_cont_8to1_b_908_22_alg».proof.Defs
import proofs.«207026_g3393024164394_cont_8to1_b_908_22_alg».proof.Proof.Gen.Kernel
import proofs.«207026_g3393024164394_cont_8to1_b_908_22_alg».proof.Proof.Gen.Pre_input_domain
import proofs.«207026_g3393024164394_cont_8to1_b_908_22_alg».proof.Proof.BitsRun
import proofs.«207026_g3393024164394_cont_8to1_b_908_22_alg».proof.Proof.PreDomain

noncomputable section

namespace Cert.Proof

open Idealize.ShloMosaic Idealize.SL.Sem

/-- Under the precondition the kernel's `names` lie in `0 … 7` on every device. -/
theorem preOK_Kernel (m : (ℓ : Loc Cert.Kernel.nD Cert.Kernel.τ Cert.Kernel.sig) → Buf (Elt Bits) ℓ)
    (hpre : Cert.Pre_Kernel (hPre_input_domain := Cert.Pre_input_domain.Gen.facts) m) :
    Cert.Proof.KernelSc.PreOK m :=
  fun d i => Cert.PreDomain.names_lt _ _ (hpre d) i

/-- The kernel runs and leaves its arguments unchanged: its run with the result forgotten. -/
theorem frame_Kernel :
    Cert.frame_Kernel (hKernel := Cert.Kernel.Gen.facts) (hPre_input_domain := Cert.Pre_input_domain.Gen.facts) :=
  fun m g hpre =>
    (θ_run (Cert.Kernel.defs (F := Bits)) _ _).mono (fun _ h c => ⟨(h c).2.1, (h c).2.2⟩)
      (Cert.Proof.KernelSc.run_main (F := Bits) m g (preOK_Kernel m hpre))

end Cert.Proof

end
-- ==== Proof.lean ====
/-
  The certificate's claim: an embedding lookup on the SparseCores against `jnp.take`.

  Both programs take `names`, 16384 indices in `0 … 7` (the precondition), and an eight-row table, and return the
  array whose row `p` is row `names p` of the table. The kernel's thirty-two vector subcores each serve 512 positions:
  a subcore copies its indices and a replica of the table next to its SparseCore, meets the other fifteen at the
  barrier, gathers its rows and writes them back. The reference gathers the rows directly; with the indices in
  range its wrap of negative indices, its bounds mask and the gather's clamp all change nothing. The five claims:
  each of the three programs runs to its end with its arguments unchanged (the modules `ClaimsWord` and `Claims`);
  the idealized kernel is the printed one read at the ideal instance with no operation rewritten, so there is
  nothing to preserve; and the two idealized results are equal, both being the lookup (`Claims`).
-/
import proofs.«207026_g3393024164394_cont_8to1_b_908_22_alg».proof.Defs
import proofs.«207026_g3393024164394_cont_8to1_b_908_22_alg».proof.Proof.Gen.Kernel
import proofs.«207026_g3393024164394_cont_8to1_b_908_22_alg».proof.Proof.Gen.Kernel.Skeleton
import proofs.«207026_g3393024164394_cont_8to1_b_908_22_alg».proof.Proof.Gen.KernelIdeal
import proofs.«207026_g3393024164394_cont_8to1_b_908_22_alg».proof.Proof.Gen.KernelIdeal.Skeleton
import proofs.«207026_g3393024164394_cont_8to1_b_908_22_alg».proof.Proof.Gen.ReferenceIdeal
import proofs.«207026_g3393024164394_cont_8to1_b_908_22_alg».proof.Proof.Gen.Pre_input_domain
import proofs.«207026_g3393024164394_cont_8to1_b_908_22_alg».proof.Proof.Claims
import proofs.«207026_g3393024164394_cont_8to1_b_908_22_alg».proof.Proof.ClaimsWord

noncomputable section

namespace Cert.Proof

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
